-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg1 : FVec F S8192x8192 .f32) (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_cst_10 : FVec F S_ .f32 := constant S_ .f32 0x00000000#32
  let main_v29 : FVec F S8192 .f32 := (fun x v => Host.reduceAdd x v reducesTo_S8192x8192_S8192_d1 h_S_) main_arg1 main_cst_10
  let main_cst_11 : FVec F S_ .f32 := constant S_ .f32 0x00000000#32
  let main_v30 : FVec F S8192 .f32 := broadcastInDim S8192 ![] bcast_S_S8192 main_cst_11
  let main_v31 : IVec S8192 1 := cmpf .ogt main_v29 main_v30
  let main_c_12 : IVec S_ 1 := constantI S_ 1 1#1
  let main_v32 : IVec S_ 1 := (fun x v => Host.reduce IntOp.andi x v reducesTo_S8192_S_d0 h_S_) main_v31 main_c_12
  fn_part2 (F := F) main_v28 main_v32

def fn {F : FTy → Type} [FloatOps F] (main_arg0 : FVec F S8192x512 .f32) (main_arg1 : FVec F S8192x8192 .f32) (main_arg2 : FVec F S512x512 .f32) (main_arg3 : FVec F S512 .f32) (main_arg4 : FVec F S512x512 .f32) (main_arg5 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg4 main_arg5 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S1024x512 : Shape := ⟨2, ![1024, 512]⟩
abbrev S1024x1 : Shape := ⟨2, ![1024, 1]⟩
abbrev S1x512 : Shape := ⟨2, ![1, 512]⟩
abbrev S512x2048 : Shape := ⟨2, ![512, 2048]⟩
abbrev S512x1 : Shape := ⟨2, ![512, 1]⟩
abbrev S2048x512 : Shape := ⟨2, ![2048, 512]⟩

abbrev nBuf : Space → Nat
  | .hbm => 14
  | .vmem => 38
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S8192x1, .f32⟩
  | .hbm, ⟨7, _⟩ => ⟨S8192x8192, .bf16⟩
  | .hbm, ⟨8, _⟩ => ⟨S8192x512, .bf16⟩
  | .hbm, ⟨9, _⟩ => ⟨S1x512, .f32⟩
  | .hbm, ⟨10, _⟩ => ⟨S8192x512, .f32⟩
  | .hbm, ⟨11, _⟩ => ⟨S8192x512, .bf16⟩
  | .hbm, ⟨12, _⟩ => ⟨S1x512, .f32⟩
  | .hbm, ⟨13, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S256x8192, .bf16⟩
  | .local _ .vmem, ⟨5, _⟩ => ⟨S256x8192, .bf16⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S1024x1, .f32⟩
  | .local _ .vmem, ⟨10, _⟩ => ⟨S1024x1, .f32⟩
  | .local _ .vmem, ⟨11, _⟩ => ⟨S1024x512, .bf16⟩
  | .local _ .vmem, ⟨12, _⟩ => ⟨S1024x512, .bf16⟩
  | .local _ .vmem, ⟨13, _⟩ => ⟨S512x2048, .bf16⟩
  | .local _ .vmem, ⟨14, _⟩ => ⟨S512x2048, .bf16⟩
  | .local _ .vmem, ⟨15, _⟩ => ⟨S8192x512, .bf16⟩
  | .local _ .vmem, ⟨16, _⟩ => ⟨S512x1, .f32⟩
  | .local _ .vmem, ⟨17, _⟩ => ⟨S512x1, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1024x512, .f32⟩
  | .local _ .vmem, ⟨23, _⟩ => ⟨S1024x512, .f32⟩
  | .local _ .vmem, ⟨24, _⟩ => ⟨S512x512, .f32⟩
  | .local _ .vmem, ⟨25, _⟩ => ⟨S1024x1, .f32⟩
  | .local _ .vmem, ⟨26, _⟩ => ⟨S1024x1, .f32⟩
  | .local _ .vmem, ⟨27, _⟩ => ⟨S1024x512, .bf16⟩
  | .local _ .vmem, ⟨28, _⟩ => ⟨S1024x512, .bf16⟩
  | .local _ .vmem, ⟨29, _⟩ => ⟨S512x2048, .bf16⟩
  | .local _ .vmem, ⟨30, _⟩ => ⟨S512x2048, .bf16⟩
  | .local _ .vmem, ⟨31, _⟩ => ⟨S8192x512, .bf16⟩
  | .local _ .vmem, ⟨32, _⟩ => ⟨S512x1, .f32⟩
  | .local _ .vmem, ⟨33, _⟩ => ⟨S512x1, .f32⟩
  | .local _ .vmem, ⟨34, _⟩ => ⟨S1x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![16, 4], ![false, false]⟩

def k4_mult1 (i : grid4.Coords) : BitVec 32 :=
  let arg1 : BitVec 32 := BitVec.ofNat 32 (i 1).val
  let c2048_i32 : BitVec 32 := 2048#32
  let v5 : BitVec 32 := Scalar.muli arg1 c2048_i32
  v5
def k4_off1 (i : grid4.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S512x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S1024x512_S1024x512 : S1024x512.ShapeCasts S1024x512
  dot_S1024x512_S512x512_S1024x512_1_0_0_1_n_n_wf : DotDims.WF S1024x512 S512x512 S1024x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .bf16 = 32 ∨ (Rect.block (s := S8192x8192) S256x8192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .bf16 = 32 ∨ (Rect.block (s := S8192x8192) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S8192x512.size a
  hwx2_4 : ∀ i : grid2.Coords, EltTy.bits .f32 = 32 ∨ (Rect.block (s := S8192x512) S512x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .bf16 = 32 ∨ (Rect.block (s := S8192x512) S1024x512.size (cc3_transform_3 i) (hinb3_3 i)).WholeWords (EltTy.packing .bf16)
  hrank4 : 0 < grid4.rank
  k4_mult1_dvd : ∀ i : grid4.Coords, 2048 ∣ (k4_mult1 i).toNat
  k4_off1_inb : ∀ i : grid4.Coords, ∀ a, (k4_off1 i) a + S2048x512.size a ≤ S8192x512.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x8192.size a
  hwx4_0 : ∀ i : grid4.Coords, EltTy.bits .bf16 = 32 ∨ (Rect.block (s := S8192x8192) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x512.size a ≤ S8192x512.size a
  hwx4_1 : ∀ i : grid4.Coords, EltTy.bits .bf16 = 32 ∨ (Rect.block (s := S8192x512) S8192x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S8192x1.size a
  hwx4_2 : ∀ i : grid4.Coords, EltTy.bits .f32 = 32 ∨ (Rect.block (s := S8192x1) S512x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x512.size a ≤ S8192x512.size a
  hwx4_4 : ∀ i : grid4.Coords, EltTy.bits .f32 = 32 ∨ (Rect.block (s := S8192x512) S512x512.size (cc4_transform_4 i) (hinb4_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v3) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0_1) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S8192x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0_0) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v6) S512x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.RegionFacts.lean ====
/-
  What each kernel region's half of the argument supplies to the run of the whole program, as one record:
  proof data for the pipelined launch whose arrays are the contents the region is entered with, held at full
  share with nothing owed between grid points; an invariant that is entered from the core's scratch buffers
  and random-number register and gives them back; and the body's triple at every grid point.
-/
import proofs.«171514_j71725953843990_2_alg».proof.Proof.Gen.KernelIdeal.Launch
import proofs.«171514_j71725953843990_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers when a region is entered. -/
abbrev Entry (F : FTy → Type) : Type := (c : Dev nD) → (b : Ref sig .tc) → Buf (Elt F) ((c : Thread nD τ).loc b)

/-- A family of proof data for the launch `cfg`, one per entry contents and core. -/
abbrev DatFam (F : FTy → Type) (cfg : Cfg sig Λ₀) : Type :=
  (V : Entry F) → (c : Dev nD) → Dat τ (Elt F) Unit ℕ (UR sig nD τ) ℕ cfg c

/-- The facts a region's half proves of its proof data. -/
structure Half (cfg : Cfg sig Λ₀) (D : DatFam F cfg) : Prop where
  /-- the arrays are the entry contents, -/
  A : ∀ (V : Entry F) (c : Dev nD) (w : Fin cfg.W), (D V c).A w = V c (Pipeline.arrRef (fun w => (cfg.win w).toWinSpec) w)
  /-- every array is held whole, -/
  q : ∀ (V : Entry F) (c : Dev nD) (w : Fin cfg.W), (D V c).q w = fullShare
  /-- nothing is owed between points, -/
  owed : ∀ (V : Entry F) (c : Dev nD) (t : Fin (cfg.N + 1)), (D V c).owed t = 0
  /-- the invariant before the first point is made of the register and the scoped buffers no window stages, -/
  Φin : ∀ (V : Entry F) (c : Dev nD),
    (iprop((∃ r, prngReg c r) ∗ Pipeline.scopedRest (Ix := Unit) (Name := ℕ) (U := UR sig nD τ) (Lvl := ℕ) (Val := Elt F) (fun w => (cfg.win w).toWinSpec) c) : sProp 𝕄)
      ⊢ (D V c).Φ 0
  /-- and after the last point gives them back, -/
  Φout : ∀ (V : Entry F) (c : Dev nD),
    (D V c).Φ (Fin.last cfg.N)
      ⊢ (iprop((∃ r, prngReg c r) ∗ Pipeline.scopedRest (Ix := Unit) (Name := ℕ) (U := UR sig nD τ) (Lvl := ℕ) (Val := Elt F) (fun w => (cfg.win w).toWinSpec) c) : sProp 𝕄)
  /-- the body's triple at every point. -/
  body : ∀ (V : Entry F) (c : Dev nD), BodyObligation (D V c) (defs₀ (F := F)) Variants.none () Set.univ

end Cert.KernelIdeal.Hand

end
-- ==== Proof.Segments.lean ====
/-
  The run of the whole program from its five regions' halves. Between two items of the program a core's
  unscoped buffers hold a valuation obtained from the launch memory by a fold: a kernel region replaces its
  windows' arrays by what its write-backs leave and keeps every other buffer, a stretch of host operations
  applies them in order. Each region is entered from the valuation before it and left at the one after it,
  the core's generator register and its dues riding along; the program terminates and its last memory holds
  the last valuation. Reading the fold back: no item writes an argument, and each intermediate array holds
  what the region producing it left until the region consuming it reads it.
-/
import proofs.«171514_j71725953843990_2_alg».proof.Proof.RegionFacts
import proofs.«171514_j71725953843990_2_alg».proof.Proof.Gen.KernelIdeal.Launch
import proofs.«171514_j71725953843990_2_alg».proof.Proof.Gen.KernelIdeal.Points
import proofs.«171514_j71725953843990_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : DatFam F cfg0) (D1 : DatFam F cfg1) (D2 : DatFam F cfg2) (D3 : DatFam F cfg3) (D4 : DatFam F cfg4)
variable (m : (ℓ : Loc nD τ sig) → Buf (Elt F) ℓ) (ρ : Dev nD → PrngReg)

/-! ## The buffers' contents between items: a fold from the launch memory -/

/-- Core `c`'s buffers at launch (region 0's entry: no host operation comes before it). -/
abbrev W0 : Dev nD → Valuation τ sig (Elt F) := fun c b => m ((c : Dev nD), b)
/-- The same read at the TensorCore's references (what region 0's proof data take). -/
abbrev V0 : Entry F := fun c b => W0 m c b

/-- After region 0: its arrays at what its write-backs leave, every other buffer as entered. -/
def W1 (c : Dev nD) : Valuation τ sig (Elt F) :=
  Pipeline.withArrays spec0 c (W0 m c) fun w => (D0 (V0 m) c).arrAt w cfg0.N
theorem W1_arr (c : Dev nD) (w : Fin cfg0.W) :
    W1 D0 m c (Proc.devRef .tc (Pipeline.arrRef spec0 w)) = (D0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 m c (Proc.devRef .tc b) = W0 m c (Proc.devRef .tc b) := by
  unfold W1; exact Pipeline.withArrays_of_ne spec0 c _ _ b hb
/-- Region 1's entry contents. -/
abbrev V1 : Entry F := fun c b => W1 D0 m c b
theorem hF0 (c : Dev nD) (w : Fin cfg0.W) : (D0 (V0 m) c).arrAt w cfg0.N = V1 D0 m c (Pipeline.arrRef spec0 w) :=
  (W1_arr D0 m c w).symm
theorem hrest0 (c : Dev nD) : ∀ b, b ∉ Finset.univ.image (Pipeline.arrRef spec0) → V1 D0 m c b = V0 m c b :=
  fun b hb => W1_of_ne D0 m c b fun w e => hb (Finset.mem_image.mpr ⟨w, Finset.mem_univ _, e⟩)

/-- After region 1. -/
def W2 (c : Dev nD) : Valuation τ sig (Elt F) :=
  Pipeline.withArrays spec1 c (W1 D0 m c) fun w => (D1 (V1 D0 m) c).arrAt w cfg1.N
theorem W2_arr (c : Dev nD) (w : Fin cfg1.W) :
    W2 D0 D1 m c (Proc.devRef .tc (Pipeline.arrRef spec1 w)) = (D1 (V1 D0 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 D0 D1 m c (Proc.devRef .tc b) = W1 D0 m c (Proc.devRef .tc b) := by
  unfold W2; exact Pipeline.withArrays_of_ne spec1 c _ _ b hb
abbrev V2 : Entry F := fun c b => W2 D0 D1 m c b
theorem hF1 (c : Dev nD) (w : Fin cfg1.W) : (D1 (V1 D0 m) c).arrAt w cfg1.N = V2 D0 D1 m c (Pipeline.arrRef spec1 w) :=
  (W2_arr D0 D1 m c w).symm
theorem hrest1 (c : Dev nD) : ∀ b, b ∉ Finset.univ.image (Pipeline.arrRef spec1) → V2 D0 D1 m c b = V1 D0 m c b :=
  fun b hb => W2_of_ne D0 D1 m c b fun w e => hb (Finset.mem_image.mpr ⟨w, Finset.mem_univ _, e⟩)

/-- After the first host stretch (region 2's entry). -/
abbrev W3 : Dev nD → Valuation τ sig (Elt F) := fun c => StableHlo.after hostOps2 (W2 D0 D1 m c)
abbrev V3 : Entry F := fun c b => W3 D0 D1 m c b

/-- After region 2. -/
def W4 (c : Dev nD) : Valuation τ sig (Elt F) :=
  Pipeline.withArrays spec2 c (W3 D0 D1 m c) fun w => (D2 (V3 D0 D1 m) c).arrAt w cfg2.N
theorem W4_arr (c : Dev nD) (w : Fin cfg2.W) :
    W4 D0 D1 D2 m c (Proc.devRef .tc (Pipeline.arrRef spec2 w)) = (D2 (V3 D0 D1 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D0 D1 D2 m c (Proc.devRef .tc b) = W3 D0 D1 m c (Proc.devRef .tc b) := by
  unfold W4; exact Pipeline.withArrays_of_ne spec2 c _ _ b hb
abbrev V4 : Entry F := fun c b => W4 D0 D1 D2 m c b
theorem hF2 (c : Dev nD) (w : Fin cfg2.W) : (D2 (V3 D0 D1 m) c).arrAt w cfg2.N = V4 D0 D1 D2 m c (Pipeline.arrRef spec2 w) :=
  (W4_arr D0 D1 D2 m c w).symm
theorem hrest2 (c : Dev nD) : ∀ b, b ∉ Finset.univ.image (Pipeline.arrRef spec2) → V4 D0 D1 D2 m c b = V3 D0 D1 m c b :=
  fun b hb => W4_of_ne D0 D1 D2 m c b fun w e => hb (Finset.mem_image.mpr ⟨w, Finset.mem_univ _, e⟩)

/-- After region 3. -/
def W5 (c : Dev nD) : Valuation τ sig (Elt F) :=
  Pipeline.withArrays spec3 c (W4 D0 D1 D2 m c) fun w => (D3 (V4 D0 D1 D2 m) c).arrAt w cfg3.N
theorem W5_arr (c : Dev nD) (w : Fin cfg3.W) :
    W5 D0 D1 D2 D3 m c (Proc.devRef .tc (Pipeline.arrRef spec3 w)) = (D3 (V4 D0 D1 D2 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 D0 D1 D2 D3 m c (Proc.devRef .tc b) = W4 D0 D1 D2 m c (Proc.devRef .tc b) := by
  unfold W5; exact Pipeline.withArrays_of_ne spec3 c _ _ b hb
abbrev V5 : Entry F := fun c b => W5 D0 D1 D2 D3 m c b
theorem hF3 (c : Dev nD) (w : Fin cfg3.W) : (D3 (V4 D0 D1 D2 m) c).arrAt w cfg3.N = V5 D0 D1 D2 D3 m c (Pipeline.arrRef spec3 w) :=
  (W5_arr D0 D1 D2 D3 m c w).symm
theorem hrest3 (c : Dev nD) : ∀ b, b ∉ Finset.univ.image (Pipeline.arrRef spec3) → V5 D0 D1 D2 D3 m c b = V4 D0 D1 D2 m c b :=
  fun b hb => W5_of_ne D0 D1 D2 D3 m c b fun w e => hb (Finset.mem_image.mpr ⟨w, Finset.mem_univ _, e⟩)

/-- After the second host stretch (region 4's entry). -/
abbrev W6 : Dev nD → Valuation τ sig (Elt F) := fun c => StableHlo.after hostOps4 (W5 D0 D1 D2 D3 m c)
abbrev V6 : Entry F := fun c b => W6 D0 D1 D2 D3 m c b

/-- After region 4: what the launch reads at the end. -/
def W7 (c : Dev nD) : Valuation τ sig (Elt F) :=
  Pipeline.withArrays spec4 c (W6 D0 D1 D2 D3 m c) fun w => (D4 (V6 D0 D1 D2 D3 m) c).arrAt w cfg4.N
theorem W7_arr (c : Dev nD) (w : Fin cfg4.W) :
    W7 D0 D1 D2 D3 D4 m c (Proc.devRef .tc (Pipeline.arrRef spec4 w)) = (D4 (V6 D0 D1 D2 D3 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 D0 D1 D2 D3 D4 m c (Proc.devRef .tc b) = W6 D0 D1 D2 D3 m c (Proc.devRef .tc b) := by
  unfold W7; exact Pipeline.withArrays_of_ne spec4 c _ _ b hb
abbrev V7 : Entry F := fun c b => W7 D0 D1 D2 D3 D4 m c b
theorem hF4 (c : Dev nD) (w : Fin cfg4.W) : (D4 (V6 D0 D1 D2 D3 m) c).arrAt w cfg4.N = V7 D0 D1 D2 D3 D4 m c (Pipeline.arrRef spec4 w) :=
  (W7_arr D0 D1 D2 D3 D4 m c w).symm
theorem hrest4 (c : Dev nD) : ∀ b, b ∉ Finset.univ.image (Pipeline.arrRef spec4) → V7 D0 D1 D2 D3 D4 m c b = V6 D0 D1 D2 D3 m c b :=
  fun b hb => W7_of_ne D0 D1 D2 D3 D4 m c b fun w e => hb (Finset.mem_image.mpr ⟨w, Finset.mem_univ _, e⟩)

/-! ## Reading the fold back

Through a region, a buffer that is no window's array keeps its contents, and so does an input window's array;
through a host stretch, a buffer the stretch does not write. -/

variable (h0 : Half cfg0 D0) (h1 : Half cfg1 D1) (h2 : Half cfg2 D2) (h3 : Half cfg3 D3) (h4 : Half cfg4 D4)

include h0 in
/-- Region 0 leaves an input window's array as it found it: an input's array is never written back. -/
theorem W1_in (c : Dev nD) (w : Fin cfg0.W) (hin : (cfg0.win w).isOut = false) :
    W1 D0 m c (Proc.devRef .tc (Pipeline.arrRef spec0 w)) = W0 m c (Proc.devRef .tc (Pipeline.arrRef spec0 w)) :=
  (W1_arr D0 m c w).trans (((D0 (V0 m) c).arrAt_in w hin _).trans (h0.A (V0 m) c w))
include h1 in
/-- Region 1 leaves an input window's array as it found it: an input's array is never written back. -/
theorem W2_in (c : Dev nD) (w : Fin cfg1.W) (hin : (cfg1.win w).isOut = false) :
    W2 D0 D1 m c (Proc.devRef .tc (Pipeline.arrRef spec1 w)) = W1 D0 m c (Proc.devRef .tc (Pipeline.arrRef spec1 w)) :=
  (W2_arr D0 D1 m c w).trans (((D1 (V1 D0 m) c).arrAt_in w hin _).trans (h1.A (V1 D0 m) c w))
include h2 in
/-- Region 2 leaves an input window's array as it found it: an input's array is never written back. -/
theorem W4_in (c : Dev nD) (w : Fin cfg2.W) (hin : (cfg2.win w).isOut = false) :
    W4 D0 D1 D2 m c (Proc.devRef .tc (Pipeline.arrRef spec2 w)) = W3 D0 D1 m c (Proc.devRef .tc (Pipeline.arrRef spec2 w)) :=
  (W4_arr D0 D1 D2 m c w).trans (((D2 (V3 D0 D1 m) c).arrAt_in w hin _).trans (h2.A (V3 D0 D1 m) c w))
include h3 in
/-- Region 3 leaves an input window's array as it found it: an input's array is never written back. -/
theorem W5_in (c : Dev nD) (w : Fin cfg3.W) (hin : (cfg3.win w).isOut = false) :
    W5 D0 D1 D2 D3 m c (Proc.devRef .tc (Pipeline.arrRef spec3 w)) = W4 D0 D1 D2 m c (Proc.devRef .tc (Pipeline.arrRef spec3 w)) :=
  (W5_arr D0 D1 D2 D3 m c w).trans (((D3 (V4 D0 D1 D2 m) c).arrAt_in w hin _).trans (h3.A (V4 D0 D1 D2 m) c w))
include h4 in
/-- Region 4 leaves an input window's array as it found it: an input's array is never written back. -/
theorem W7_in (c : Dev nD) (w : Fin cfg4.W) (hin : (cfg4.win w).isOut = false) :
    W7 D0 D1 D2 D3 D4 m c (Proc.devRef .tc (Pipeline.arrRef spec4 w)) = W6 D0 D1 D2 D3 m c (Proc.devRef .tc (Pipeline.arrRef spec4 w)) :=
  (W7_arr D0 D1 D2 D3 D4 m c w).trans (((D4 (V6 D0 D1 D2 D3 m) c).arrAt_in w hin _).trans (h4.A (V6 D0 D1 D2 D3 m) c w))

/-! ### No item writes an argument -/

include h0 h1 h2 h3 h4 in
/-- `main_arg0` reaches the end as launched. -/
theorem V7_main_arg0 (c : Dev nD) : V7 D0 D1 D2 D3 D4 m c main_arg0 = m ((c : Thread nD τ).loc main_arg0) :=
  calc W7 D0 D1 D2 D3 D4 m c (Proc.devRef .tc main_arg0)
    _ = W6 D0 D1 D2 D3 m c (Proc.devRef .tc main_arg0) := W7_of_ne D0 D1 D2 D3 D4 m c main_arg0 (by decide)
    _ = W5 D0 D1 D2 D3 m c (Proc.devRef .tc main_arg0) := StableHlo.after_of_writes_sub (r := main_arg0) hostOps4 _ hostOps4_writes (by decide)
    _ = W4 D0 D1 D2 m c (Proc.devRef .tc main_arg0) := W5_of_ne D0 D1 D2 D3 m c main_arg0 (by decide)
    _ = W3 D0 D1 m c (Proc.devRef .tc main_arg0) := W4_of_ne D0 D1 D2 m c main_arg0 (by decide)
    _ = W2 D0 D1 m c (Proc.devRef .tc main_arg0) := StableHlo.after_of_writes_sub (r := main_arg0) hostOps2 _ hostOps2_writes (by decide)
    _ = W1 D0 m c (Proc.devRef .tc main_arg0) := W2_in D0 D1 m h1 c 0 rfl
    _ = W0 m c (Proc.devRef .tc main_arg0) := W1_of_ne D0 m c main_arg0 (by decide)
    _ = m ((c : Thread nD τ).loc main_arg0) := rfl
include h0 h1 h2 h3 h4 in
/-- `main_arg1` reaches the end as launched. -/
theorem V7_main_arg1 (c : Dev nD) : V7 D0 D1 D2 D3 D4 m c main_arg1 = m ((c : Thread nD τ).loc main_arg1) :=
  calc W7 D0 D1 D2 D3 D4 m c (Proc.devRef .tc main_arg1)
    _ = W6 D0 D1 D2 D3 m c (Proc.devRef .tc main_arg1) := W7_of_ne D0 D1 D2 D3 D4 m c main_arg1 (by decide)
    _ = W5 D0 D1 D2 D3 m c (Proc.devRef .tc main_arg1) := StableHlo.after_of_writes_sub (r := main_arg1) hostOps4 _ hostOps4_writes (by decide)
    _ = W4 D0 D1 D2 m c (Proc.devRef .tc main_arg1) := W5_of_ne D0 D1 D2 D3 m c main_arg1 (by decide)
    _ = W3 D0 D1 m c (Proc.devRef .tc main_arg1) := W4_of_ne D0 D1 D2 m c main_arg1 (by decide)
    _ = W2 D0 D1 m c (Proc.devRef .tc main_arg1) := StableHlo.after_of_writes_sub (r := main_arg1) hostOps2 _ hostOps2_writes (by decide)
    _ = W1 D0 m c (Proc.devRef .tc main_arg1) := W2_of_ne D0 D1 m c main_arg1 (by decide)
    _ = W0 m c (Proc.devRef .tc main_arg1) := W1_in D0 m h0 c 0 rfl
    _ = m ((c : Thread nD τ).loc main_arg1) := rfl
include h0 h1 h2 h3 h4 in
/-- `main_arg2` reaches the end as launched. -/
theorem V7_main_arg2 (c : Dev nD) : V7 D0 D1 D2 D3 D4 m c main_arg2 = m ((c : Thread nD τ).loc main_arg2) :=
  calc W7 D0 D1 D2 D3 D4 m c (Proc.devRef .tc main_arg2)
    _ = W6 D0 D1 D2 D3 m c (Proc.devRef .tc main_arg2) := W7_of_ne D0 D1 D2 D3 D4 m c main_arg2 (by decide)
    _ = W5 D0 D1 D2 D3 m c (Proc.devRef .tc main_arg2) := StableHlo.after_of_writes_sub (r := main_arg2) hostOps4 _ hostOps4_writes (by decide)
    _ = W4 D0 D1 D2 m c (Proc.devRef .tc main_arg2) := W5_of_ne D0 D1 D2 D3 m c main_arg2 (by decide)
    _ = W3 D0 D1 m c (Proc.devRef .tc main_arg2) := W4_of_ne D0 D1 D2 m c main_arg2 (by decide)
    _ = W2 D0 D1 m c (Proc.devRef .tc main_arg2) := StableHlo.after_of_writes_sub (r := main_arg2) hostOps2 _ hostOps2_writes (by decide)
    _ = W1 D0 m c (Proc.devRef .tc main_arg2) := W2_in D0 D1 m h1 c 1 rfl
    _ = W0 m c (Proc.devRef .tc main_arg2) := W1_of_ne D0 m c main_arg2 (by decide)
    _ = m ((c : Thread nD τ).loc main_arg2) := rfl
include h0 h1 h2 h3 h4 in
/-- `main_arg3` reaches the end as launched. -/
theorem V7_main_arg3 (c : Dev nD) : V7 D0 D1 D2 D3 D4 m c main_arg3 = m ((c : Thread nD τ).loc main_arg3) :=
  calc W7 D0 D1 D2 D3 D4 m c (Proc.devRef .tc main_arg3)
    _ = W6 D0 D1 D2 D3 m c (Proc.devRef .tc main_arg3) := W7_of_ne D0 D1 D2 D3 D4 m c main_arg3 (by decide)
    _ = W5 D0 D1 D2 D3 m c (Proc.devRef .tc main_arg3) := StableHlo.after_of_writes_sub (r := main_arg3) hostOps4 _ hostOps4_writes (by decide)
    _ = W4 D0 D1 D2 m c (Proc.devRef .tc main_arg3) := W5_of_ne D0 D1 D2 D3 m c main_arg3 (by decide)
    _ = W3 D0 D1 m c (Proc.devRef .tc main_arg3) := W4_of_ne D0 D1 D2 m c main_arg3 (by decide)
    _ = W2 D0 D1 m c (Proc.devRef .tc main_arg3) := StableHlo.after_of_writes_sub (r := main_arg3) hostOps2 _ hostOps2_writes (by decide)
    _ = W1 D0 m c (Proc.devRef .tc main_arg3) := W2_of_ne D0 D1 m c main_arg3 (by decide)
    _ = W0 m c (Proc.devRef .tc main_arg3) := W1_of_ne D0 m c main_arg3 (by decide)
    _ = m ((c : Thread nD τ).loc main_arg3) := rfl
include h0 h1 h2 h3 h4 in
/-- `main_arg4` reaches the end as launched. -/
theorem V7_main_arg4 (c : Dev nD) : V7 D0 D1 D2 D3 D4 m c main_arg4 = m ((c : Thread nD τ).loc main_arg4) :=
  calc W7 D0 D1 D2 D3 D4 m c (Proc.devRef .tc main_arg4)
    _ = W6 D0 D1 D2 D3 m c (Proc.devRef .tc main_arg4) := W7_of_ne D0 D1 D2 D3 D4 m c main_arg4 (by decide)
    _ = W5 D0 D1 D2 D3 m c (Proc.devRef .tc main_arg4) := StableHlo.after_of_writes_sub (r := main_arg4) hostOps4 _ hostOps4_writes (by decide)
    _ = W4 D0 D1 D2 m c (Proc.devRef .tc main_arg4) := W5_in D0 D1 D2 D3 m h3 c 1 rfl
    _ = W3 D0 D1 m c (Proc.devRef .tc main_arg4) := W4_of_ne D0 D1 D2 m c main_arg4 (by decide)
    _ = W2 D0 D1 m c (Proc.devRef .tc main_arg4) := StableHlo.after_of_writes_sub (r := main_arg4) hostOps2 _ hostOps2_writes (by decide)
    _ = W1 D0 m c (Proc.devRef .tc main_arg4) := W2_of_ne D0 D1 m c main_arg4 (by decide)
    _ = W0 m c (Proc.devRef .tc main_arg4) := W1_of_ne D0 m c main_arg4 (by decide)
    _ = m ((c : Thread nD τ).loc main_arg4) := rfl
include h0 h1 h2 h3 h4 in
/-- `main_arg5` reaches the end as launched. -/
theorem V7_main_arg5 (c : Dev nD) : V7 D0 D1 D2 D3 D4 m c main_arg5 = m ((c : Thread nD τ).loc main_arg5) :=
  calc W7 D0 D1 D2 D3 D4 m c (Proc.devRef .tc main_arg5)
    _ = W6 D0 D1 D2 D3 m c (Proc.devRef .tc main_arg5) := W7_of_ne D0 D1 D2 D3 D4 m c main_arg5 (by decide)
    _ = W5 D0 D1 D2 D3 m c (Proc.devRef .tc main_arg5) := StableHlo.after_of_writes_sub (r := main_arg5) hostOps4 _ hostOps4_writes (by decide)
    _ = W4 D0 D1 D2 m c (Proc.devRef .tc main_arg5) := W5_of_ne D0 D1 D2 D3 m c main_arg5 (by decide)
    _ = W3 D0 D1 m c (Proc.devRef .tc main_arg5) := W4_of_ne D0 D1 D2 m c main_arg5 (by decide)
    _ = W2 D0 D1 m c (Proc.devRef .tc main_arg5) := StableHlo.after_of_writes_sub (r := main_arg5) hostOps2 _ hostOps2_writes (by decide)
    _ = W1 D0 m c (Proc.devRef .tc main_arg5) := W2_of_ne D0 D1 m c main_arg5 (by decide)
    _ = W0 m c (Proc.devRef .tc main_arg5) := W1_of_ne D0 m c main_arg5 (by decide)
    _ = m ((c : Thread nD τ).loc main_arg5) := rfl

/-! ### What each region finds in the arrays it reads, and the result -/

include h0 h1 h2 h3 h4 in
/-- Region 1 reads `main_arg0` as launched. -/
theorem V1_main_arg0 (c : Dev nD) : V1 D0 m c main_arg0 = m ((c : Thread nD τ).loc main_arg0) :=
  calc W1 D0 m c (Proc.devRef .tc main_arg0)
    _ = W0 m c (Proc.devRef .tc main_arg0) := W1_of_ne D0 m c main_arg0 (by decide)
    _ = m ((c : Thread nD τ).loc main_arg0) := rfl
include h0 h1 h2 h3 h4 in
/-- Region 1 reads `main_arg2` as launched. -/
theorem V1_main_arg2 (c : Dev nD) : V1 D0 m c main_arg2 = m ((c : Thread nD τ).loc main_arg2) :=
  calc W1 D0 m c (Proc.devRef .tc main_arg2)
    _ = W0 m c (Proc.devRef .tc main_arg2) := W1_of_ne D0 m c main_arg2 (by decide)
    _ = m ((c : Thread nD τ).loc main_arg2) := rfl
/-- Region 0 leaves its first output in `main_v0_0`, -/
theorem V1_main_v0_0 (c : Dev nD) : V1 D0 m c main_v0_0 = (D0 (V0 m) c).arrAt 1 cfg0.N := W1_arr D0 m c 1
/-- and its second in `main_v0_1`. -/
theorem V1_main_v0_1 (c : Dev nD) : V1 D0 m c main_v0_1 = (D0 (V0 m) c).arrAt 2 cfg0.N := W1_arr D0 m c 2
/-- Region 1 leaves its output in `main_v1`. -/
theorem V2_main_v1 (c : Dev nD) : V2 D0 D1 m c main_v1 = (D1 (V1 D0 m) c).arrAt 3 cfg1.N := W2_arr D0 D1 m c 3
include h0 h1 h2 h3 h4 in
/-- Region 2 reads `main_v0_1` as region 0 left it. -/
theorem V3_main_v0_1 (c : Dev nD) : V3 D0 D1 m c main_v0_1 = (D0 (V0 m) c).arrAt 2 cfg0.N :=
  calc W3 D0 D1 m c (Proc.devRef .tc main_v0_1)
    _ = W2 D0 D1 m c (Proc.devRef .tc main_v0_1) := StableHlo.after_of_writes_sub (r := main_v0_1) hostOps2 _ hostOps2_writes (by decide)
    _ = W1 D0 m c (Proc.devRef .tc main_v0_1) := W2_of_ne D0 D1 m c main_v0_1 (by decide)
    _ = (D0 (V0 m) c).arrAt 2 cfg0.N := W1_arr D0 m c 2
include h0 h1 h2 h3 h4 in
/-- Region 2 reads `main_v1` as region 1 left it. -/
theorem V3_main_v1 (c : Dev nD) : V3 D0 D1 m c main_v1 = (D1 (V1 D0 m) c).arrAt 3 cfg1.N :=
  calc W3 D0 D1 m c (Proc.devRef .tc main_v1)
    _ = W2 D0 D1 m c (Proc.devRef .tc main_v1) := StableHlo.after_of_writes_sub (r := main_v1) hostOps2 _ hostOps2_writes (by decide)
    _ = (D1 (V1 D0 m) c).arrAt 3 cfg1.N := W2_arr D0 D1 m c 3
include h0 h1 h2 h3 h4 in
/-- Region 2 reads `main_v0_0` as region 0 left it. -/
theorem V3_main_v0_0 (c : Dev nD) : V3 D0 D1 m c main_v0_0 = (D0 (V0 m) c).arrAt 1 cfg0.N :=
  calc W3 D0 D1 m c (Proc.devRef .tc main_v0_0)
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
include h0 h1 h2 h3 h4 in
/-- The first host stretch reads `main_arg3` as launched. -/
theorem V2_main_arg3 (c : Dev nD) : V2 D0 D1 m c main_arg3 = m ((c : Thread nD τ).loc main_arg3) :=
  calc W2 D0 D1 m c (Proc.devRef .tc main_arg3)
    _ = W1 D0 m c (Proc.devRef .tc main_arg3) := W2_of_ne D0 D1 m c main_arg3 (by decide)
    _ = W0 m c (Proc.devRef .tc main_arg3) := W1_of_ne D0 m c main_arg3 (by decide)
    _ = m ((c : Thread nD τ).loc main_arg3) := rfl
include h0 h1 h2 h3 h4 in
/-- Region 2 reads in `main_v2` the first bias, `main_arg3` as launched, recast to one row. -/
theorem V3_main_v2 (c : Dev nD) :
    (V3 D0 D1 m c main_v2 : S1x512.Idx → Elt F .f32) = shapeCast S1x512 (m ((c : Thread nD τ).loc main_arg3) : S512.Idx → Elt F .f32) shapeCasts_S512_S1x512 := by
  rw [← V2_main_arg3 D0 D1 D2 D3 D4 m h0 h1 h2 h3 h4 c]
  show StableHlo.after hostOps2 (W2 D0 D1 m c) (Proc.devRef .tc main_v2) = _
  after_results
  rfl
/-- Region 2 leaves its output in `main_v3`. -/
theorem V4_main_v3 (c : Dev nD) : V4 D0 D1 D2 m c main_v3 = (D2 (V3 D0 D1 m) c).arrAt 4 cfg2.N := W4_arr D0 D1 D2 m c 4
include h0 h1 h2 h3 h4 in
/-- Region 3 reads `main_arg4` as launched. -/
theorem V4_main_arg4 (c : Dev nD) : V4 D0 D1 D2 m c main_arg4 = m ((c : Thread nD τ).loc main_arg4) :=
  calc W4 D0 D1 D2 m c (Proc.devRef .tc main_arg4)
    _ = W3 D0 D1 m c (Proc.devRef .tc main_arg4) := W4_of_ne D0 D1 D2 m c main_arg4 (by decide)
    _ = W2 D0 D1 m c (Proc.devRef .tc main_arg4) := StableHlo.after_of_writes_sub (r := main_arg4) hostOps2 _ hostOps2_writes (by decide)
    _ = W1 D0 m c (Proc.devRef .tc main_arg4) := W2_of_ne D0 D1 m c main_arg4 (by decide)
    _ = W0 m c (Proc.devRef .tc main_arg4) := W1_of_ne D0 m c main_arg4 (by decide)
    _ = m ((c : Thread nD τ).loc main_arg4) := rfl
include h0 h1 h2 h3 h4 in
/-- Region 3 reads `main_v0_0` as region 0 left it. -/
theorem V4_main_v0_0 (c : Dev nD) : V4 D0 D1 D2 m c main_v0_0 = (D0 (V0 m) c).arrAt 1 cfg0.N :=
  calc W4 D0 D1 D2 m c (Proc.devRef .tc main_v0_0)
    _ = W3 D0 D1 m c (Proc.devRef .tc main_v0_0) := W4_in D0 D1 D2 m h2 c 2 rfl
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
/-- Region 3 leaves its output in `main_v4`. -/
theorem V5_main_v4 (c : Dev nD) : V5 D0 D1 D2 D3 m c main_v4 = (D3 (V4 D0 D1 D2 m) c).arrAt 3 cfg3.N := W5_arr D0 D1 D2 D3 m c 3
include h0 h1 h2 h3 h4 in
/-- Region 4 reads `main_v0_1` as region 0 left it. -/
theorem V6_main_v0_1 (c : Dev nD) : V6 D0 D1 D2 D3 m c main_v0_1 = (D0 (V0 m) c).arrAt 2 cfg0.N :=
  calc W6 D0 D1 D2 D3 m c (Proc.devRef .tc main_v0_1)
    _ = W5 D0 D1 D2 D3 m c (Proc.devRef .tc main_v0_1) := StableHlo.after_of_writes_sub (r := main_v0_1) hostOps4 _ hostOps4_writes (by decide)
    _ = W4 D0 D1 D2 m c (Proc.devRef .tc main_v0_1) := W5_of_ne D0 D1 D2 D3 m c main_v0_1 (by decide)
    _ = W3 D0 D1 m c (Proc.devRef .tc main_v0_1) := W4_in D0 D1 D2 m h2 c 0 rfl
    _ = W2 D0 D1 m c (Proc.devRef .tc main_v0_1) := StableHlo.after_of_writes_sub (r := main_v0_1) hostOps2 _ hostOps2_writes (by decide)
    _ = W1 D0 m c (Proc.devRef .tc main_v0_1) := W2_of_ne D0 D1 m c main_v0_1 (by decide)
    _ = (D0 (V0 m) c).arrAt 2 cfg0.N := W1_arr D0 m c 2
include h0 h1 h2 h3 h4 in
/-- Region 4 reads `main_v4` as region 3 left it. -/
theorem V6_main_v4 (c : Dev nD) : V6 D0 D1 D2 D3 m c main_v4 = (D3 (V4 D0 D1 D2 m) c).arrAt 3 cfg3.N :=
  calc W6 D0 D1 D2 D3 m c (Proc.devRef .tc main_v4)
    _ = W5 D0 D1 D2 D3 m c (Proc.devRef .tc main_v4) := StableHlo.after_of_writes_sub (r := main_v4) hostOps4 _ hostOps4_writes (by decide)
    _ = (D3 (V4 D0 D1 D2 m) c).arrAt 3 cfg3.N := W5_arr D0 D1 D2 D3 m c 3
include h0 h1 h2 h3 h4 in
/-- Region 4 reads `main_v0_0` as region 0 left it. -/
theorem V6_main_v0_0 (c : Dev nD) : V6 D0 D1 D2 D3 m c main_v0_0 = (D0 (V0 m) c).arrAt 1 cfg0.N :=
  calc W6 D0 D1 D2 D3 m c (Proc.devRef .tc main_v0_0)
    _ = W5 D0 D1 D2 D3 m c (Proc.devRef .tc main_v0_0) := StableHlo.after_of_writes_sub (r := main_v0_0) hostOps4 _ hostOps4_writes (by decide)
    _ = W4 D0 D1 D2 m c (Proc.devRef .tc main_v0_0) := W5_in D0 D1 D2 D3 m h3 c 2 rfl
    _ = W3 D0 D1 m c (Proc.devRef .tc main_v0_0) := W4_in D0 D1 D2 m h2 c 2 rfl
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
include h0 h1 h2 h3 h4 in
/-- The second host stretch reads `main_arg5` as launched. -/
theorem V5_main_arg5 (c : Dev nD) : V5 D0 D1 D2 D3 m c main_arg5 = m ((c : Thread nD τ).loc main_arg5) :=
  calc W5 D0 D1 D2 D3 m c (Proc.devRef .tc main_arg5)
    _ = W4 D0 D1 D2 m c (Proc.devRef .tc main_arg5) := W5_of_ne D0 D1 D2 D3 m c main_arg5 (by decide)
    _ = W3 D0 D1 m c (Proc.devRef .tc main_arg5) := W4_of_ne D0 D1 D2 m c main_arg5 (by decide)
    _ = W2 D0 D1 m c (Proc.devRef .tc main_arg5) := StableHlo.after_of_writes_sub (r := main_arg5) hostOps2 _ hostOps2_writes (by decide)
    _ = W1 D0 m c (Proc.devRef .tc main_arg5) := W2_of_ne D0 D1 m c main_arg5 (by decide)
    _ = W0 m c (Proc.devRef .tc main_arg5) := W1_of_ne D0 m c main_arg5 (by decide)
    _ = m ((c : Thread nD τ).loc main_arg5) := rfl
include h0 h1 h2 h3 h4 in
/-- Region 4 reads in `main_v5` the second bias, `main_arg5` as launched, recast to one row. -/
theorem V6_main_v5 (c : Dev nD) :
    (V6 D0 D1 D2 D3 m c main_v5 : S1x512.Idx → Elt F .f32) = shapeCast S1x512 (m ((c : Thread nD τ).loc main_arg5) : S512.Idx → Elt F .f32) shapeCasts_S512_S1x512 := by
  rw [← V5_main_arg5 D0 D1 D2 D3 D4 m h0 h1 h2 h3 h4 c]
  show StableHlo.after hostOps4 (W5 D0 D1 D2 D3 m c) (Proc.devRef .tc main_v5) = _
  after_results
  rfl
/-- The result: region 4 leaves its output in `main_v6`. -/
theorem V7_main_v6 (c : Dev nD) : V7 D0 D1 D2 D3 D4 m c main_v6 = (D4 (V6 D0 D1 D2 D3 m) c).arrAt 4 cfg4.N := W7_arr D0 D1 D2 D3 D4 m c 4

/-! ## The proof data family and the thread state -/

/-- Every region's proof data, each at its entry contents. -/
def pdats : (p : Fin 5) → (c : Dev nD) → Dat τ (Elt F) Unit ℕ (UR sig nD τ) ℕ (Pipeline.pin (pcfgs (F := F)) adm p) c
  | ⟨0, _⟩ => fun c => D0 (V0 m) c
  | ⟨1, _⟩ => fun c => D1 (V1 D0 m) c
  | ⟨2, _⟩ => fun c => D2 (V3 D0 D1 m) c
  | ⟨3, _⟩ => fun c => D3 (V4 D0 D1 D2 m) c
  | ⟨4, _⟩ => fun c => D4 (V6 D0 D1 D2 D3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A host stretch as a segment: the operations run over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register at some state. -/
abbrev Tₙ (c : Dev nD) : sProp 𝕄 :=
  iprop(StableHlo.held (c : Thread nD τ) (Pipeline.ucRefs τ sig) (W7 D0 D1 D2 D3 D4 m c) ∗ ∃ r, prngReg c r)

/-! ## The regions as segments -/

-- A region takes over the core's dues together with the pairs its earlier waits have recorded, a set the regions
-- before it have grown and nobody names: so at its first point each region's bound on that set must allow every pair.
variable (hrec0 : ∀ (V : Entry F) (c : Dev nD), (D0 V c).recorded 0 = Set.univ) (hrec1 : ∀ (V : Entry F) (c : Dev nD), (D1 V c).recorded 0 = Set.univ)
  (hrec2 : ∀ (V : Entry F) (c : Dev nD), (D2 V c).recorded 0 = Set.univ) (hrec3 : ∀ (V : Entry F) (c : Dev nD), (D3 V c).recorded 0 = Set.univ)
  (hrec4 : ∀ (V : Entry F) (c : Dev nD), (D4 V c).recorded 0 = Set.univ)

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers at entry and put back at exit at what the write-backs leave; the generator
    register and the scoped buffers no window stages enter the region's invariant and come back; nothing is owed. -/
def reg0 : Pipeline.RegionSeg (pcfgs (F := F)) adm (pdats D0 D1 D2 D3 D4 m) () defs₀ 𝒱₀ L lv 0 where
  win := launch0.win.to₀
  block_pos := launch0.block_pos
  stage_whole := launch0.stage_whole
  K := PEmpty
  osem k := k.elim
  ho := Pipeline.OwnSemFacts.none _
  hbody c := (h0.body (V0 m) c).loose
  hwaits := Pipeline.hwaits_of_owed_zero _ _ _ _ L lv 0 fun c t => h0.owed (V0 m) c t
  pre c := iprop(StableHlo.held (c : Thread nD τ) (Pipeline.ucRefs τ sig) (W0 m c) ∗ R c)
  post c := iprop(StableHlo.held (c : Thread nD τ) (Pipeline.ucRefs τ sig) (W1 D0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    have hO : (pdats D0 D1 D2 D3 D4 m 0 c).owed 0 = 0 := h0.owed (V0 m) c 0
    have hR : (pdats D0 D1 D2 D3 D4 m 0 c).recorded 0 = Set.univ := hrec0 (V0 m) c
    rw [Pipeline.ownSems0_none]
    have hsplit := Pipeline.arrays_of_unscopedBufs (p := 0) (pcfgs (F := F)) adm (pdats D0 D1 D2 D3 D4 m) launch0.win launch0.arr_whole c
      ((pdats D0 D1 D2 D3 D4 m 0 c).share_full fun w => h0.q (V0 m) c w) (V0 m c) fun w => h0.A (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h0.Φin (V0 m) c)
    iintro ⟨Hp, -, Hr⟩
    isplitl [Hp]; · iexact Hp
    iexact Hr
  hout c := by
    rw [Pipeline.ownSems0_none]
    refine BIBase.Entails.trans (h0.Φout (V0 m) c) ?_
    iintro ⟨Hp, Hr⟩
    isplitl [Hp]; · iexact Hp
    isplitr; · iempintro
    iexact Hr
  hexit c := by
    have hO : (pdats D0 D1 D2 D3 D4 m 0 c).owed (Fin.last (Pipeline.pin (pcfgs (F := F)) adm 0).N) = 0 := h0.owed (V0 m) c (Fin.last _)
    have hjoin := Pipeline.unscopedBufs_of_arrays (p := 0) (pcfgs (F := F)) adm (Ix := Unit) (Name := ℕ) (U := UR sig nD τ) (Lvl := ℕ)
      launch0.win launch0.arr_whole c (pdats D0 D1 D2 D3 D4 m) ((pdats D0 D1 D2 D3 D4 m 0 c).share_full fun w => h0.q (V0 m) c w)
      (V0 m c) (V1 D0 m c) ((pdats D0 D1 D2 D3 D4 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W1`, left at `W2`. Its arrays are
    split out of the unscoped buffers at entry and put back at exit at what the write-backs leave; the generator
    register and the scoped buffers no window stages enter the region's invariant and come back; nothing is owed. -/
def reg1 : Pipeline.RegionSeg (pcfgs (F := F)) adm (pdats D0 D1 D2 D3 D4 m) () defs₀ 𝒱₀ L lv 1 where
  win := launch1.win.to₀
  block_pos := launch1.block_pos
  stage_whole := launch1.stage_whole
  K := PEmpty
  osem k := k.elim
  ho := Pipeline.OwnSemFacts.none _
  hbody c := (h1.body (V1 D0 m) c).loose
  hwaits := Pipeline.hwaits_of_owed_zero _ _ _ _ L lv 1 fun c t => h1.owed (V1 D0 m) c t
  pre c := iprop(StableHlo.held (c : Thread nD τ) (Pipeline.ucRefs τ sig) (W1 D0 m c) ∗ R c)
  post c := iprop(StableHlo.held (c : Thread nD τ) (Pipeline.ucRefs τ sig) (W2 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V1 D0 m c)
  hentry c := by
    have hO : (pdats D0 D1 D2 D3 D4 m 1 c).owed 0 = 0 := h1.owed (V1 D0 m) c 0
    have hR : (pdats D0 D1 D2 D3 D4 m 1 c).recorded 0 = Set.univ := hrec1 (V1 D0 m) c
    rw [Pipeline.ownSems0_none]
    have hsplit := Pipeline.arrays_of_unscopedBufs (p := 1) (pcfgs (F := F)) adm (pdats D0 D1 D2 D3 D4 m) launch1.win launch1.arr_whole c
      ((pdats D0 D1 D2 D3 D4 m 1 c).share_full fun w => h1.q (V1 D0 m) c w) (V1 D0 m c) fun w => h1.A (V1 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h1.Φin (V1 D0 m) c)
    iintro ⟨Hp, -, Hr⟩
    isplitl [Hp]; · iexact Hp
    iexact Hr
  hout c := by
    rw [Pipeline.ownSems0_none]
    refine BIBase.Entails.trans (h1.Φout (V1 D0 m) c) ?_
    iintro ⟨Hp, Hr⟩
    isplitl [Hp]; · iexact Hp
    isplitr; · iempintro
    iexact Hr
  hexit c := by
    have hO : (pdats D0 D1 D2 D3 D4 m 1 c).owed (Fin.last (Pipeline.pin (pcfgs (F := F)) adm 1).N) = 0 := h1.owed (V1 D0 m) c (Fin.last _)
    have hjoin := Pipeline.unscopedBufs_of_arrays (p := 1) (pcfgs (F := F)) adm (Ix := Unit) (Name := ℕ) (U := UR sig nD τ) (Lvl := ℕ)
      launch1.win launch1.arr_whole c (pdats D0 D1 D2 D3 D4 m) ((pdats D0 D1 D2 D3 D4 m 1 c).share_full fun w => h1.q (V1 D0 m) c w)
      (V1 D0 m c) (V2 D0 D1 m c) ((pdats D0 D1 D2 D3 D4 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W3`, left at `W4`. Its arrays are
    split out of the unscoped buffers at entry and put back at exit at what the write-backs leave; the generator
    register and the scoped buffers no window stages enter the region's invariant and come back; nothing is owed. -/
def reg2 : Pipeline.RegionSeg (pcfgs (F := F)) adm (pdats D0 D1 D2 D3 D4 m) () defs₀ 𝒱₀ L lv 2 where
  win := launch2.win.to₀
  block_pos := launch2.block_pos
  stage_whole := launch2.stage_whole
  K := PEmpty
  osem k := k.elim
  ho := Pipeline.OwnSemFacts.none _
  hbody c := (h2.body (V3 D0 D1 m) c).loose
  hwaits := Pipeline.hwaits_of_owed_zero _ _ _ _ L lv 2 fun c t => h2.owed (V3 D0 D1 m) c t
  pre c := iprop(StableHlo.held (c : Thread nD τ) (Pipeline.ucRefs τ sig) (W3 D0 D1 m c) ∗ R c)
  post c := iprop(StableHlo.held (c : Thread nD τ) (Pipeline.ucRefs τ sig) (W4 D0 D1 D2 m c) ∗ R c)
  X c := iprop(∃ r, prngReg c r)
  Y c := iprop(∃ r, prngReg c r)
  Z c := Pipeline.unscopedRest (Ix := Unit) (Name := ℕ) (U := UR sig nD τ) (Lvl := ℕ) spec2 c (V3 D0 D1 m c)
  hentry c := by
    have hO : (pdats D0 D1 D2 D3 D4 m 2 c).owed 0 = 0 := h2.owed (V3 D0 D1 m) c 0
    have hR : (pdats D0 D1 D2 D3 D4 m 2 c).recorded 0 = Set.univ := hrec2 (V3 D0 D1 m) c
    rw [Pipeline.ownSems0_none]
    have hsplit := Pipeline.arrays_of_unscopedBufs (p := 2) (pcfgs (F := F)) adm (pdats D0 D1 D2 D3 D4 m) launch2.win launch2.arr_whole c
      ((pdats D0 D1 D2 D3 D4 m 2 c).share_full fun w => h2.q (V3 D0 D1 m) c w) (V3 D0 D1 m c) fun w => h2.A (V3 D0 D1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h2.Φin (V3 D0 D1 m) c)
    iintro ⟨Hp, -, Hr⟩
    isplitl [Hp]; · iexact Hp
    iexact Hr
  hout c := by
    rw [Pipeline.ownSems0_none]
    refine BIBase.Entails.trans (h2.Φout (V3 D0 D1 m) c) ?_
    iintro ⟨Hp, Hr⟩
    isplitl [Hp]; · iexact Hp
    isplitr; · iempintro
    iexact Hr
  hexit c := by
    have hO : (pdats D0 D1 D2 D3 D4 m 2 c).owed (Fin.last (Pipeline.pin (pcfgs (F := F)) adm 2).N) = 0 := h2.owed (V3 D0 D1 m) c (Fin.last _)
    have hjoin := Pipeline.unscopedBufs_of_arrays (p := 2) (pcfgs (F := F)) adm (Ix := Unit) (Name := ℕ) (U := UR sig nD τ) (Lvl := ℕ)
      launch2.win launch2.arr_whole c (pdats D0 D1 D2 D3 D4 m) ((pdats D0 D1 D2 D3 D4 m 2 c).share_full fun w => h2.q (V3 D0 D1 m) c w)
      (V3 D0 D1 m c) (V4 D0 D1 D2 m c) ((pdats D0 D1 D2 D3 D4 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W4`, left at `W5`. Its arrays are
    split out of the unscoped buffers at entry and put back at exit at what the write-backs leave; the generator
    register and the scoped buffers no window stages enter the region's invariant and come back; nothing is owed. -/
def reg3 : Pipeline.RegionSeg (pcfgs (F := F)) adm (pdats D0 D1 D2 D3 D4 m) () defs₀ 𝒱₀ L lv 3 where
  win := launch3.win.to₀
  block_pos := launch3.block_pos
  stage_whole := launch3.stage_whole
  K := PEmpty
  osem k := k.elim
  ho := Pipeline.OwnSemFacts.none _
  hbody c := (h3.body (V4 D0 D1 D2 m) c).loose
  hwaits := Pipeline.hwaits_of_owed_zero _ _ _ _ L lv 3 fun c t => h3.owed (V4 D0 D1 D2 m) c t
  pre c := iprop(StableHlo.held (c : Thread nD τ) (Pipeline.ucRefs τ sig) (W4 D0 D1 D2 m c) ∗ R c)
  post c := iprop(StableHlo.held (c : Thread nD τ) (Pipeline.ucRefs τ sig) (W5 D0 D1 D2 D3 m c) ∗ R c)
  X c := iprop(∃ r, prngReg c r)
  Y c := iprop(∃ r, prngReg c r)
  Z c := Pipeline.unscopedRest (Ix := Unit) (Name := ℕ) (U := UR sig nD τ) (Lvl := ℕ) spec3 c (V4 D0 D1 D2 m c)
  hentry c := by
    have hO : (pdats D0 D1 D2 D3 D4 m 3 c).owed 0 = 0 := h3.owed (V4 D0 D1 D2 m) c 0
    have hR : (pdats D0 D1 D2 D3 D4 m 3 c).recorded 0 = Set.univ := hrec3 (V4 D0 D1 D2 m) c
    rw [Pipeline.ownSems0_none]
    have hsplit := Pipeline.arrays_of_unscopedBufs (p := 3) (pcfgs (F := F)) adm (pdats D0 D1 D2 D3 D4 m) launch3.win launch3.arr_whole c
      ((pdats D0 D1 D2 D3 D4 m 3 c).share_full fun w => h3.q (V4 D0 D1 D2 m) c w) (V4 D0 D1 D2 m c) fun w => h3.A (V4 D0 D1 D2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h3.Φin (V4 D0 D1 D2 m) c)
    iintro ⟨Hp, -, Hr⟩
    isplitl [Hp]; · iexact Hp
    iexact Hr
  hout c := by
    rw [Pipeline.ownSems0_none]
    refine BIBase.Entails.trans (h3.Φout (V4 D0 D1 D2 m) c) ?_
    iintro ⟨Hp, Hr⟩
    isplitl [Hp]; · iexact Hp
    isplitr; · iempintro
    iexact Hr
  hexit c := by
    have hO : (pdats D0 D1 D2 D3 D4 m 3 c).owed (Fin.last (Pipeline.pin (pcfgs (F := F)) adm 3).N) = 0 := h3.owed (V4 D0 D1 D2 m) c (Fin.last _)
    have hjoin := Pipeline.unscopedBufs_of_arrays (p := 3) (pcfgs (F := F)) adm (Ix := Unit) (Name := ℕ) (U := UR sig nD τ) (Lvl := ℕ)
      launch3.win launch3.arr_whole c (pdats D0 D1 D2 D3 D4 m) ((pdats D0 D1 D2 D3 D4 m 3 c).share_full fun w => h3.q (V4 D0 D1 D2 m) c w)
      (V4 D0 D1 D2 m c) (V5 D0 D1 D2 D3 m c) ((pdats D0 D1 D2 D3 D4 m 3 c).arrAt · cfg3.N) (hF3 D0 D1 D2 D3 m c) (hrest3 D0 D1 D2 D3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at `W6`, left at `W7`. Its arrays are
    split out of the unscoped buffers at entry and put back at exit at what the write-backs leave; the generator
    register and the scoped buffers no window stages enter the region's invariant and come back; nothing is owed. -/
def reg4 : Pipeline.RegionSeg (pcfgs (F := F)) adm (pdats D0 D1 D2 D3 D4 m) () defs₀ 𝒱₀ L lv 4 where
  win := launch4.win.to₀
  block_pos := launch4.block_pos
  stage_whole := launch4.stage_whole
  K := PEmpty
  osem k := k.elim
  ho := Pipeline.OwnSemFacts.none _
  hbody c := (h4.body (V6 D0 D1 D2 D3 m) c).loose
  hwaits := Pipeline.hwaits_of_owed_zero _ _ _ _ L lv 4 fun c t => h4.owed (V6 D0 D1 D2 D3 m) c t
  pre c := iprop(StableHlo.held (c : Thread nD τ) (Pipeline.ucRefs τ sig) (W6 D0 D1 D2 D3 m c) ∗ R c)
  post c := iprop(Tₙ D0 D1 D2 D3 D4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 D0 D1 D2 D3 m c)
  hentry c := by
    have hO : (pdats D0 D1 D2 D3 D4 m 4 c).owed 0 = 0 := h4.owed (V6 D0 D1 D2 D3 m) c 0
    have hR : (pdats D0 D1 D2 D3 D4 m 4 c).recorded 0 = Set.univ := hrec4 (V6 D0 D1 D2 D3 m) c
    rw [Pipeline.ownSems0_none]
    have hsplit := Pipeline.arrays_of_unscopedBufs (p := 4) (pcfgs (F := F)) adm (pdats D0 D1 D2 D3 D4 m) launch4.win launch4.arr_whole c
      ((pdats D0 D1 D2 D3 D4 m 4 c).share_full fun w => h4.q (V6 D0 D1 D2 D3 m) c w) (V6 D0 D1 D2 D3 m c) fun w => h4.A (V6 D0 D1 D2 D3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h4.Φin (V6 D0 D1 D2 D3 m) c)
    iintro ⟨Hp, -, Hr⟩
    isplitl [Hp]; · iexact Hp
    iexact Hr
  hout c := by
    rw [Pipeline.ownSems0_none]
    refine BIBase.Entails.trans (h4.Φout (V6 D0 D1 D2 D3 m) c) ?_
    iintro ⟨Hp, Hr⟩
    isplitl [Hp]; · iexact Hp
    isplitr; · iempintro
    iexact Hr
  hexit c := by
    have hO : (pdats D0 D1 D2 D3 D4 m 4 c).owed (Fin.last (Pipeline.pin (pcfgs (F := F)) adm 4).N) = 0 := h4.owed (V6 D0 D1 D2 D3 m) c (Fin.last _)
    have hjoin := Pipeline.unscopedBufs_of_arrays (p := 4) (pcfgs (F := F)) adm (Ix := Unit) (Name := ℕ) (U := UR sig nD τ) (Lvl := ℕ)
      launch4.win launch4.arr_whole c (pdats D0 D1 D2 D3 D4 m) ((pdats D0 D1 D2 D3 D4 m 4 c).share_full fun w => h4.q (V6 D0 D1 D2 D3 m) c w)
      (V6 D0 D1 D2 D3 m c) (V7 D0 D1 D2 D3 D4 m c) ((pdats D0 D1 D2 D3 D4 m 4 c).arrAt · cfg4.N) (hF4 D0 D1 D2 D3 D4 m c) (hrest4 D0 D1 D2 D3 D4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hO]
    icases HO with ⟨%W, -, HO⟩; iexists W; iexact HO

/-! ## The program as segments, and the launch -/

/-- The program's seven items in order: a region per kernel call, a host segment per stretch from its boundary's contents. -/
abbrev segs : List (Pipeline.Seg (pcfgs (F := F)) adm (pdats D0 D1 D2 D3 D4 m) () defs₀ 𝒱₀ L lv) :=
  [ .region (reg0 D0 D1 D2 D3 D4 m h0 hrec0),
    .region (reg1 D0 D1 D2 D3 D4 m h1 hrec1),
    .host (hseg hostOps2 hostOps2_sub hostOps2_fresh (W2 D0 D1 m)),
    .region (reg2 D0 D1 D2 D3 D4 m h2 hrec2),
    .region (reg3 D0 D1 D2 D3 D4 m h3 hrec3),
    .host (hseg hostOps4 hostOps4_sub hostOps4_fresh (W5 D0 D1 D2 D3 m)),
    .region (reg4 D0 D1 D2 D3 D4 m h4 hrec4) ]

/-- The program is the run of its segments. -/
theorem main_run (c : Dev nD) : main (F := F) c = Pipeline.Seg.run (segs D0 D1 D2 D3 D4 m h0 h1 h2 h3 h4 hrec0 hrec1 hrec2 hrec3 hrec4) :=
  main_segs adm (pdats D0 D1 D2 D3 D4 m) () 𝒱₀ L lv
    (hseg hostOps2 hostOps2_sub hostOps2_fresh (W2 D0 D1 m)) (hseg hostOps4 hostOps4_sub hostOps4_fresh (W5 D0 D1 D2 D3 m))
    (reg0 D0 D1 D2 D3 D4 m h0 hrec0) (reg1 D0 D1 D2 D3 D4 m h1 hrec1) (reg2 D0 D1 D2 D3 D4 m h2 hrec2) (reg3 D0 D1 D2 D3 D4 m h3 hrec3) (reg4 D0 D1 D2 D3 D4 m h4 hrec4) rfl rfl c

include h0 h1 h2 h3 h4 hrec0 hrec1 hrec2 hrec3 hrec4 in
-- the launch theorem's implicit arguments are found by unifying its conclusion with this one, which takes unfolding
-- plain definitions in a metavariable's type
set_option backward.isDefEq.respectTransparency.types false in
/-- THE RUN. At the compiled mesh, from any memory with zero counters, every weakly fair execution of the program on
    the TensorCores terminates, nothing faulting, and every final memory holds each unscoped buffer at the last
    valuation of the fold. -/
theorem run : θ_run defs (onTc (τ := τ) (main (F := F))) ⟨m, fun _ => 0, ρ⟩ (fun r => ∀ c : Dev nD, ∀ b ∈ Pipeline.ucRefs τ sig,
      r.2.mem (((c : Thread nD τ)).1, b) = W7 D0 D1 D2 D3 D4 m c b) :=
  Pipeline.θ_run_regions_kit (pcfgs (F := F)) adm (pdats D0 D1 D2 D3 D4 m) () cellOf_inj emb₁ defs₀ 𝒱₀ L lv m ρ main (segs D0 D1 D2 D3 D4 m h0 h1 h2 h3 h4 hrec0 hrec1 hrec2 hrec3 hrec4)
    (fun c Q => by rw [main_run D0 D1 D2 D3 D4 m h0 h1 h2 h3 h4 hrec0 hrec1 hrec2 hrec3 hrec4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1 D2 D3 D4 m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 D0 D1 D2 D3 D4 m c b)
    (hfin := fun c s' => by
      iintro ⟨⟨Hh, -⟩, HSI⟩
      unfold StableHlo.held
      imodintro
      iapply (pointsTo_read_all (Pipeline.ucRefs τ sig) (fun b => (((c : Thread nD τ)).1, b)) (W7 D0 D1 D2 D3 D4 m c) s')
      isplitl [Hh] <;> iassumption)
    (hQ := fun s h c => h c)

/-! ## The two readings of the run -/

include h0 h1 h2 h3 h4 hrec0 hrec1 hrec2 hrec3 hrec4 in
/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_arg0 (by decide))).trans (V7_main_arg0 D0 D1 D2 D3 D4 m h0 h1 h2 h3 h4 c),
        (h c _ (mem_uc main_arg1 (by decide))).trans (V7_main_arg1 D0 D1 D2 D3 D4 m h0 h1 h2 h3 h4 c),
        (h c _ (mem_uc main_arg2 (by decide))).trans (V7_main_arg2 D0 D1 D2 D3 D4 m h0 h1 h2 h3 h4 c),
        (h c _ (mem_uc main_arg3 (by decide))).trans (V7_main_arg3 D0 D1 D2 D3 D4 m h0 h1 h2 h3 h4 c),
        (h c _ (mem_uc main_arg4 (by decide))).trans (V7_main_arg4 D0 D1 D2 D3 D4 m h0 h1 h2 h3 h4 c),
        (h c _ (mem_uc main_arg5 (by decide))).trans (V7_main_arg5 D0 D1 D2 D3 D4 m h0 h1 h2 h3 h4 c)⟩)
    (run D0 D1 D2 D3 D4 m ρ h0 h1 h2 h3 h4 hrec0 hrec1 hrec2 hrec3 hrec4)

include h0 h1 h2 h3 h4 hrec0 hrec1 hrec2 hrec3 hrec4 in
/-- THE VALUE: the program runs, its result array ends at what the last region's write-backs leave, and every
    argument array ends as launched. -/
theorem run_value : θ_run defs (onTc (τ := τ) (main (F := F))) ⟨m, fun _ => 0, ρ⟩ (fun r => ∀ c : Dev nD,
      r.2.mem ((c.tc : Thread nD τ).loc main_v6) = (D4 (V6 D0 D1 D2 D3 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v6 (by decide))).trans (V7_main_v6 D0 D1 D2 D3 D4 m c),
        (h c _ (mem_uc main_arg0 (by decide))).trans (V7_main_arg0 D0 D1 D2 D3 D4 m h0 h1 h2 h3 h4 c),
        (h c _ (mem_uc main_arg1 (by decide))).trans (V7_main_arg1 D0 D1 D2 D3 D4 m h0 h1 h2 h3 h4 c),
        (h c _ (mem_uc main_arg2 (by decide))).trans (V7_main_arg2 D0 D1 D2 D3 D4 m h0 h1 h2 h3 h4 c),
        (h c _ (mem_uc main_arg3 (by decide))).trans (V7_main_arg3 D0 D1 D2 D3 D4 m h0 h1 h2 h3 h4 c),
        (h c _ (mem_uc main_arg4 (by decide))).trans (V7_main_arg4 D0 D1 D2 D3 D4 m h0 h1 h2 h3 h4 c),
        (h c _ (mem_uc main_arg5 (by decide))).trans (V7_main_arg5 D0 D1 D2 D3 D4 m h0 h1 h2 h3 h4 c)⟩)
    (run D0 D1 D2 D3 D4 m ρ h0 h1 h2 h3 h4 hrec0 hrec1 hrec2 hrec3 hrec4)

end Cert.KernelIdeal.Hand

end
-- ==== Proof.DegreeRegion.lean ====
/-
  Region 0, the degree kernel, on its grid of 32 row blocks: from a 256 x 8192 block of the adjacency matrix the
  body stores the column of reciprocal square roots of the block's row sums and a half-precision copy of the
  block. This module states what the body leaves in its two output buffers as closed functions of the input
  block, proves the body's triple at every grid point, and packs the region's proof data and its facts.
-/
import proofs.«171514_j71725953843990_2_alg».proof.Proof.RegionFacts
import proofs.«171514_j71725953843990_2_alg».proof.Proof.Gen.KernelIdeal.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place: fetched there it is the block by definition, and
    not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

/-- The whole 256 x 8192 block (the load of the input, the store of the copy). -/
abbrev r0_0 : Rect S256x8192 := Rect.unit (s := S256x8192) ![0, 0] S256x8192.size inb_S256x8192_S256x8192_0_0
/-- The whole 256 x 1 column (the store of the scalings). -/
abbrev r0_1 : Rect S256x1 := Rect.unit (s := S256x1) ![0, 0] S256x1.size inb_S256x1_S256x1_0_0

/-! ## What the body leaves in each output buffer -/

/-- The column buffer after the body: its one store, the reciprocal square roots of the row sums of the block. -/
def out0_1 (x0 : Vec F S256x8192 .f32) : Vec F S256x1 .f32 :=
  View.canon [⟨r0_1, k0_pay1 (View.ld x0 r0_0)⟩]

/-- The copy buffer after the body: its one store, the block rounded to half precision. -/
def out0_2 (x0 : Vec F S256x8192 .f32) : Vec F S256x8192 .bf16 :=
  View.canon [⟨r0_0, k0_pay2 (View.ld x0 r0_0)⟩]

/-- The one store of the column covers its buffer. -/
theorem cover0_1 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-- The one store of the copy covers its buffer. -/
theorem cover0_2 (p0 : Vec F S256x8192 .bf16) (y : S256x8192.Idx) :
    ∃ pc ∈ ([⟨r0_0, p0⟩] : List (View.Piece (Elt F) S256x8192 .bf16)), y ∈ pc.1.set :=
  View.cover_of_tiled [⟨r0_0, p0⟩] S256x8192.size (by rfl) y

/-! ## The body's triple -/

set_option maxHeartbeats 1000000 in
/-- The body on whole staging memrefs, the input's at read contents `x0` and the outputs' at anything, runs to the
    continuation holding the input's as it was and each output's at `out0_W x0`: the loads read `x0` and what the
    outputs happened to hold (unused), and each store overwrites the whole of its buffer. -/
theorem sound_kernel0 (c : Dev nD) (E : Set ℕ) (i : grid0.Coords)
    (arg1 : Memref sig .tc .vmem S256x8192 .f32) (harg1 : arg1.IsWhole) (arg2 : Memref sig .tc .vmem S256x1 .f32) (harg2 : arg2.IsWhole)
    (arg3 : Memref sig .tc .vmem S256x8192 .bf16) (harg3 : arg3.IsWhole)
    (x0 : Vec F S256x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- The proof data of the region on core `c`: the arrays as the region finds them; after the body at point `t` the
    input's buffer at its block and each output's at `out0_W` of that block; the invariant the core's other scoped
    buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The region's half -/

/-- Region 0's facts: its arrays are the entry contents, held whole, nothing owed; its invariant is entered from
    the generator register and the scoped buffers no window stages, and gives them back; the body's triple holds
    at every point. -/
theorem half0 : Half cfg0 (dat0 (F := F)) where
  A V c w := A_eq0 V c w
  q _ _ _ := rfl
  owed _ _ _ := rfl
  Φin V c := by
    rw [show (dat0 V c).Φ 0 = Pipeline.ΦA spec0 c from rfl]; unfold Pipeline.ΦA
    iintro ⟨Hp, Hr⟩
    isplitl [Hr]; · iexact Hr
    iexact Hp
  Φout V c := by
    rw [show (dat0 V c).Φ (Fin.last _) = Pipeline.ΦA spec0 c from rfl]; unfold Pipeline.ΦA
    iintro ⟨Hr, Hp⟩
    isplitl [Hp]; · iexact Hp
    iexact Hr
  body V c := body_obligation0 V c

end Cert.KernelIdeal.Hand

end
-- ==== Proof.SupportRegion1.lean ====
/-
  Region 1, a scaled matrix product, on its grid of 8 row blocks: from a 1024 x 512 block of the features, the
  whole 512 x 512 weight matrix and the 1024 x 1 block of the scaling column, the body stores the product of
  the two matrices with every row multiplied by its scaling, rounded to half precision. This module states what
  the body leaves in its output buffer as a closed function of the three input blocks, proves the body's triple
  at every grid point, and packs the region's proof data and its facts.
-/
import proofs.«171514_j71725953843990_2_alg».proof.Proof.RegionFacts
import proofs.«171514_j71725953843990_2_alg».proof.Proof.Gen.KernelIdeal.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    the entry contents and whose body leaves the block in place: fetched there it is the block by definition, and
    not fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of the weight window, whose one block is the whole matrix: it is fetched at the first point only, and
    at every later point its block index is the one it had before, so the buffer still holds that block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of the scaling column's window, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

/-- The whole 1024 x 512 block (the load of the features, the store of the result). -/
abbrev r1_0 : Rect S1024x512 := Rect.unit (s := S1024x512) ![0, 0] S1024x512.size inb_S1024x512_S1024x512_0_0
/-- The whole 512 x 512 weight matrix. -/
abbrev r1_1 : Rect S512x512 := Rect.unit (s := S512x512) ![0, 0] S512x512.size inb_S512x512_S512x512_0_0
/-- The whole 1024 x 1 scaling column. -/
abbrev r1_2 : Rect S1024x1 := Rect.unit (s := S1024x1) ![0, 0] S1024x1.size inb_S1024x1_S1024x1_0_0

/-! ## What the body leaves in the output buffer -/

/-- The output buffer after the body: its one store, the row-scaled product of the feature block and the weights. -/
def out1_3 (x0 : Vec F S1024x512 .f32) (x1 : Vec F S512x512 .f32) (x2 : Vec F S1024x1 .f32) : Vec F S1024x512 .bf16 :=
  View.canon [⟨r1_0, k1_pay1 (View.ld x0 r1_0) (View.ld x1 r1_1) (View.ld x2 r1_2)⟩]

/-- The one store covers the buffer. -/
theorem cover1_3 (p0 : Vec F S1024x512 .bf16) (y : S1024x512.Idx) :
    ∃ pc ∈ ([⟨r1_0, p0⟩] : List (View.Piece (Elt F) S1024x512 .bf16)), y ∈ pc.1.set :=
  View.cover_of_tiled [⟨r1_0, p0⟩] S1024x512.size (by rfl) y

/-! ## The body's triple -/

set_option maxHeartbeats 1000000 in
/-- The body on whole staging memrefs, the inputs' at read contents `x0`, `x1`, `x2` and the output's at anything,
    runs to the continuation holding the inputs' as they were and the output's at `out1_3 x0 x1 x2`: the loads read
    the three inputs and what the output happened to hold (unused), and the store overwrites the whole buffer. -/
theorem sound_kernel1 (c : Dev nD) (E : Set ℕ) (i : grid1.Coords)
    (arg1 : Memref sig .tc .vmem S1024x512 .f32) (harg1 : arg1.IsWhole) (arg2 : Memref sig .tc .vmem S512x512 .f32) (harg2 : arg2.IsWhole)
    (arg3 : Memref sig .tc .vmem S1024x1 .f32) (harg3 : arg3.IsWhole) (arg4 : Memref sig .tc .vmem S1024x512 .bf16) (harg4 : arg4.IsWhole)
    (x0 : Vec F S1024x512 .f32) (x1 : Vec F S512x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The proof data of the region on core `c`: the arrays as the region finds them; after the body at point `t` each
    input's buffer at its block and the output's at `out1_3` of the three blocks; the invariant the core's other
    scoped buffers and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The region's half -/

/-- Region 1's facts: its arrays are the entry contents, held whole, nothing owed; its invariant is entered from
    the generator register and the scoped buffers no window stages, and gives them back; the body's triple holds
    at every point. -/
theorem half1 : Half cfg1 (dat1 (F := F)) where
  A V c w := A_eq1 V c w
  q _ _ _ := rfl
  owed _ _ _ := rfl
  Φin V c := by
    rw [show (dat1 V c).Φ 0 = Pipeline.ΦA spec1 c from rfl]; unfold Pipeline.ΦA
    iintro ⟨Hp, Hr⟩
    isplitl [Hr]; · iexact Hr
    iexact Hp
  Φout V c := by
    rw [show (dat1 V c).Φ (Fin.last _) = Pipeline.ΦA spec1 c from rfl]; unfold Pipeline.ΦA
    iintro ⟨Hr, Hp⟩
    isplitl [Hp]; · iexact Hp
    iexact Hr
  body V c := body_obligation1 V c

end Cert.KernelIdeal.Hand

end
-- ==== Proof.SupportRegion3.lean ====
/-
  Region 3, a scaled matrix product, on its grid of 8 row blocks: from a 1024 x 512 block of the features, the
  whole 512 x 512 weight matrix and the 1024 x 1 block of the scaling column, the body stores the product of
  the two matrices with every row multiplied by its scaling, rounded to half precision. This module states what
  the body leaves in its output buffer as a closed function of the three input blocks, proves the body's triple
  at every grid point, and packs the region's proof data and its facts.
-/
import proofs.«171514_j71725953843990_2_alg».proof.Proof.RegionFacts
import proofs.«171514_j71725953843990_2_alg».proof.Proof.Gen.KernelIdeal.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's current staging buffer holds its block at every point, for any proof data whose array is
    the entry contents and whose body leaves the block in place: fetched there it is the block by definition, and
    not fetched the block index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of the weight window, whose one block is the whole matrix: it is fetched at the first point only, and
    at every later point its block index is the one it had before, so the buffer still holds that block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of the scaling column's window, fetched at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

/-- The whole 1024 x 512 block (the load of the features, the store of the result). -/
abbrev r3_0 : Rect S1024x512 := Rect.unit (s := S1024x512) ![0, 0] S1024x512.size inb_S1024x512_S1024x512_0_0
/-- The whole 512 x 512 weight matrix. -/
abbrev r3_1 : Rect S512x512 := Rect.unit (s := S512x512) ![0, 0] S512x512.size inb_S512x512_S512x512_0_0
/-- The whole 1024 x 1 scaling column. -/
abbrev r3_2 : Rect S1024x1 := Rect.unit (s := S1024x1) ![0, 0] S1024x1.size inb_S1024x1_S1024x1_0_0

/-! ## What the body leaves in the output buffer -/

/-- The output buffer after the body: its one store, the row-scaled product of the feature block and the weights. -/
def out3_3 (x0 : Vec F S1024x512 .f32) (x1 : Vec F S512x512 .f32) (x2 : Vec F S1024x1 .f32) : Vec F S1024x512 .bf16 :=
  View.canon [⟨r3_0, k3_pay1 (View.ld x0 r3_0) (View.ld x1 r3_1) (View.ld x2 r3_2)⟩]

/-- The one store covers the buffer. -/
theorem cover3_3 (p0 : Vec F S1024x512 .bf16) (y : S1024x512.Idx) :
    ∃ pc ∈ ([⟨r3_0, p0⟩] : List (View.Piece (Elt F) S1024x512 .bf16)), y ∈ pc.1.set :=
  View.cover_of_tiled [⟨r3_0, p0⟩] S1024x512.size (by rfl) y

/-! ## The body's triple -/

set_option maxHeartbeats 1000000 in
/-- The body on whole staging memrefs, the inputs' at read contents `x0`, `x1`, `x2` and the output's at anything,
    runs to the continuation holding the inputs' as they were and the output's at `out3_3 x0 x1 x2`: the loads read
    the three inputs and what the output happened to hold (unused), and the store overwrites the whole buffer. -/
theorem sound_kernel3 (c : Dev nD) (E : Set ℕ) (i : grid3.Coords)
    (arg1 : Memref sig .tc .vmem S1024x512 .f32) (harg1 : arg1.IsWhole) (arg2 : Memref sig .tc .vmem S512x512 .f32) (harg2 : arg2.IsWhole)
    (arg3 : Memref sig .tc .vmem S1024x1 .f32) (harg3 : arg3.IsWhole) (arg4 : Memref sig .tc .vmem S1024x512 .bf16) (harg4 : arg4.IsWhole)
    (x0 : Vec F S1024x512 .f32) (x1 : Vec F S512x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__scaled_matmul_kernel i arg1 harg1 arg2 harg2 arg3 harg3 arg4 harg4) K := by
  simp only [cc3__scaled_matmul_kernel_eq_skeleton]; unfold cc3__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The region's proof data -/

/-- The proof data of the region on core `c`: the arrays as the region finds them; after the body at point `t` each
    input's buffer at its block and the output's at `out3_3` of the three blocks; the invariant the core's other
    scoped buffers and its generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The region's half -/

/-- Region 3's facts: its arrays are the entry contents, held whole, nothing owed; its invariant is entered from
    the generator register and the scoped buffers no window stages, and gives them back; the body's triple holds
    at every point. -/
theorem half3 : Half cfg3 (dat3 (F := F)) where
  A V c w := A_eq3 V c w
  q _ _ _ := rfl
  owed _ _ _ := rfl
  Φin V c := by
    rw [show (dat3 V c).Φ 0 = Pipeline.ΦA spec3 c from rfl]; unfold Pipeline.ΦA
    iintro ⟨Hp, Hr⟩
    isplitl [Hr]; · iexact Hr
    iexact Hp
  Φout V c := by
    rw [show (dat3 V c).Φ (Fin.last _) = Pipeline.ΦA spec3 c from rfl]; unfold Pipeline.ΦA
    iintro ⟨Hr, Hp⟩
    isplitl [Hp]; · iexact Hp
    iexact Hr
  body V c := body_obligation3 V c

end Cert.KernelIdeal.Hand

end
-- ==== Proof.AggregateCases2.lean ====
/-
  The aggregation launch 2 (out = (A · S) ⊙ d + bias over a 16 × 4 grid, the contraction cut into four column
  blocks of 2048 accumulated in a scratch buffer): what its three kinds of grid point share. A point (i, k)
  zeroes the accumulator when k = 0, always adds its block product, and when k = 3 scales by the degree column,
  adds the bias, rectifies and stores the row block. Here: each window's block at a point, that an input
  window's buffer holds its block whether or not it was fetched there, the two branch conditions in closed form
  over the grid, where the output window is left untouched, and the invariant's shape with the accumulator split
  off the other scoped buffers.
-/
import proofs.«171514_j71725953843990_2_alg».proof.Proof.RegionFacts
import proofs.«171514_j71725953843990_2_alg».proof.Proof.Gen.KernelIdeal.Skeleton
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block (window 0) is in its buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The whole support matrix (window 1, one block, fetched once) is in its buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The degree column's row block (window 2, refetched when the row block changes) is in its buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The bias row (window 3, one block, fetched once) is in its buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- "This is the first column block": the accumulator is zeroed. -/
abbrev first2 (i : grid2.Coords) : Prop := (Scalar.cmpi .ne (Scalar.extui (Scalar.cmpi .eq (BitVec.ofNat 32 (i 1).val) 0#32)) 0#32) = 1#1
/-- It holds exactly at the points ≡ 0 (mod 4). -/
theorem first2_iff : ∀ t : Fin cfg2.N, first2 (grid2.coords t) ↔ t.val % 4 = 0 :=
  (by decide +kernel : ∀ t : Fin grid2.N, first2 (grid2.coords t) ↔ t.val % 4 = 0)
/-- "This is the last column block": the row block is finished and stored. -/
abbrev last2 (i : grid2.Coords) : Prop := k2_cond2 i = 1#1
/-- It holds exactly at the points ≡ 3 (mod 4). -/
theorem last2_iff : ∀ t : Fin cfg2.N, last2 (grid2.coords t) ↔ t.val % 4 = 3 :=
  (by decide +kernel : ∀ t : Fin grid2.N, last2 (grid2.coords t) ↔ t.val % 4 = 3)

/-! ## Where the windows are left untouched -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last column block nothing is stored into the output window and its block is not written back. -/
theorem idle2_4 : ∀ t : Fin cfg2.N, ¬last2 (grid2.coords t) → cfg2.idle 4 (grid2.coords t) = true := by decide +kernel
theorem noFlush2_4 : ∀ t : Fin cfg2.N, ¬last2 (grid2.coords t) → (cfg2.win 4).flush t = false := by decide +kernel
/-- At the last column block the output window is stored whole. -/
theorem live2_4 : ∀ t : Fin cfg2.N, last2 (grid2.coords t) → cfg2.idle 4 (grid2.coords t) = false := by decide +kernel

/-! ## The memrefs the body is called with -/

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The accumulator: a whole scoped buffer of the launch's own, passed beside the windows. -/
abbrev acc2 : Memref sig .tc .vmem S512x512 .f32 := Memref.whole cc2_scratch0
/-- Views through which the output buffer's and the accumulator's contents are stated. -/
abbrev outView2 : View sig .tc .vmem S512x512 .f32 := (Memref.whole cc2_stg4_0 : Memref sig .tc .vmem S512x512 .f32).view
abbrev accView2 : View sig .tc .vmem S512x512 .f32 := (acc2).view

/-- The scoped buffers no window stages, with the accumulator split off. -/
abbrev others2 (c : Dev nD) : sProp 𝕄 :=
  Pipeline.scopedRestBut (Ix := Unit) (Name := ℕ) (U := UR sig nD τ) (Lvl := ℕ) (Val := Elt F) spec2 c [cc2_scratch0]

/-- The plain invariant (every scoped buffer no window stages at some contents, the generator register at some
    state) with the accumulator owned as a memref. -/
theorem plain2_eq (c : Dev nD) :
    (Pipeline.ΦA spec2 c : sProp 𝕄)
      = iprop(iprop(iprop((∃ d, owns (c : Thread nD τ) (acc2) fullShare d)) ∗ others2 (F := F) c) ∗ (∃ r, prngReg c r)) := by
  unfold Pipeline.ΦA; rw [scopedRest2_split]; simp only [acc2, owns_whole]; try rfl

end Cert.KernelIdeal.Hand

end
-- ==== Proof.AggregateRunFirst2.lean ====
/-
  The aggregation launch 2: its body run whole at one kind of grid point.
-/
import proofs.«171514_j71725953843990_2_alg».proof.Proof.AggregateCases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column block (k = 0, not the last): the accumulator, whatever it held, is zeroed and then holds the
    block product added to zero; the output buffer is handed back as found. The stores into the accumulator, last
    first, are the witness the run finds. -/
noncomputable def runFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.AggregateRunMid2.lean ====
/-
  The aggregation launch 2: its body run whole at one kind of grid point.
-/
import proofs.«171514_j71725953843990_2_alg».proof.Proof.AggregateCases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column block (k = 1, 2): the accumulator, holding `xs`, ends holding `xs` plus the block product;
    the output buffer is handed back as found. -/
noncomputable def runMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.AggregateRunLast2.lean ====
/-
  The aggregation launch 2: its body run whole at one kind of grid point.
-/
import proofs.«171514_j71725953843990_2_alg».proof.Proof.AggregateCases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column block (k = 3): the accumulator, holding `xs`, ends holding `xs` plus the block product, and the
    output buffer, whatever it held, is stored whole with the finished row block. -/
noncomputable def runLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.AggregateRegion2.lean ====
/-
  The aggregation launch 2: what the accumulator and the output buffer hold after every grid point — the kind of
  point the closed forms select, run on the point's blocks over what the point before left in the accumulator —,
  the proof data built on that, and the body's triple at every point. Between points the invariant keeps the
  accumulator at the contents the last point left; before the first point and after the last it is the plain one.
-/
import proofs.«171514_j71725953843990_2_alg».proof.Proof.AggregateRunFirst2
import proofs.«171514_j71725953843990_2_alg».proof.Proof.AggregateRunMid2
import proofs.«171514_j71725953843990_2_alg».proof.Proof.AggregateRunLast2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What each kind of point leaves -/

/-- The stores into the accumulator at such a point tile it. -/
theorem accCoverFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) (y : S512x512.Idx) :
    ∃ pc ∈ (runFirst2 c i arg2 harg2 arg3 harg3 arg4 harg4 arg5 harg5 arg6 harg6 arg7 harg7 hc0 hc1 x0 x1 x2 x3).2.1, y ∈ pc.1.set :=
  View.cover_of_tiledL (runFirst2 c i arg2 harg2 arg3 harg3 arg4 harg4 arg5 harg5 arg6 harg6 arg7 harg7 hc0 hc1 x0 x1 x2 x3).2.1 S512x512.size (by sl_kernel_rfl) y
/-- What such a point leaves in the accumulator: its stores read back. -/
def accFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) : Vec F S512x512 .f32 :=
  (accView2).read (Elt F) ((accView2).writes (Elt F) (accView2).junk (runFirst2 c i arg2 harg2 arg3 harg3 arg4 harg4 arg5 harg5 arg6 harg6 arg7 harg7 hc0 hc1 x0 x1 x2 x3).2.1)
/-- What such a point leaves in the output buffer (nothing is stored: a placeholder no one reads). -/
def outFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) : Vec F S512x512 .f32 :=
  (outView2).read (Elt F) ((outView2).writes (Elt F) (outView2).junk (runFirst2 c i arg2 harg2 arg3 harg3 arg4 harg4 arg5 harg5 arg6 harg6 arg7 harg7 hc0 hc1 x0 x1 x2 x3).1)

/-- The stores into the accumulator at such a point tile it. -/
theorem accCoverMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runMid2 c i arg2 harg2 arg3 harg3 arg4 harg4 arg5 harg5 arg6 harg6 arg7 harg7 hc0 hc1 x0 x1 x2 x3 xs).2.1, y ∈ pc.1.set :=
  View.cover_of_tiledL (runMid2 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) : Vec F S512x512 .f32 :=
  (accView2).read (Elt F) ((accView2).writes (Elt F) (accView2).junk (runMid2 c i arg2 harg2 arg3 harg3 arg4 harg4 arg5 harg5 arg6 harg6 arg7 harg7 hc0 hc1 x0 x1 x2 x3 xs).2.1)
/-- What such a point leaves in the output buffer (nothing is stored: a placeholder no one reads). -/
def outMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) : Vec F S512x512 .f32 :=
  (outView2).read (Elt F) ((outView2).writes (Elt F) (outView2).junk (runMid2 c i arg2 harg2 arg3 harg3 arg4 harg4 arg5 harg5 arg6 harg6 arg7 harg7 hc0 hc1 x0 x1 x2 x3 xs).1)

/-- The stores into the accumulator at such a point tile it. -/
theorem accCoverLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast2 c i arg2 harg2 arg3 harg3 arg4 harg4 arg5 harg5 arg6 harg6 arg7 harg7 hc0 hc1 x0 x1 x2 x3 xs).2.1, y ∈ pc.1.set :=
  View.cover_of_tiledL (runLast2 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) : Vec F S512x512 .f32 :=
  (accView2).read (Elt F) ((accView2).writes (Elt F) (accView2).junk (runLast2 c i arg2 harg2 arg3 harg3 arg4 harg4 arg5 harg5 arg6 harg6 arg7 harg7 hc0 hc1 x0 x1 x2 x3 xs).2.1)
/-- The store into the output buffer at a last column block covers it. -/
theorem outCoverLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast2 c i arg2 harg2 arg3 harg3 arg4 harg4 arg5 harg5 arg6 harg6 arg7 harg7 hc0 hc1 x0 x1 x2 x3 xs).1, y ∈ pc.1.set :=
  View.cover_of_tiledL (runLast2 c i arg2 harg2 arg3 harg3 arg4 harg4 arg5 harg5 arg6 harg6 arg7 harg7 hc0 hc1 x0 x1 x2 x3 xs).1 S512x512.size (by sl_kernel_rfl) y
/-- What such a point leaves in the output buffer: its store read back. -/
def outLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) : Vec F S512x512 .f32 :=
  (outView2).read (Elt F) ((outView2).writes (Elt F) (outView2).junk (runLast2 c i arg2 harg2 arg3 harg3 arg4 harg4 arg5 harg5 arg6 harg6 arg7 harg7 hc0 hc1 x0 x1 x2 x3 xs).1)

/-! ## Point by point -/

/-- A first column block at point `t`: (output buffer, accumulator). -/
def firstAt2 (c : Dev nD) (t : Fin cfg2.N) (h0 : t.val % 4 = 0) (h1 : ¬t.val % 4 = 3) : Vec F S512x512 .f32 × Vec F S512x512 .f32 :=
  (outFirst2 c (grid2.coords t) (ms2_0 t) (hs2_0 t) (ms2_1 t) (hs2_1 t) (ms2_2 t) (hs2_2 t) (ms2_3 t) (hs2_3 t) (ms2_4 t) (hs2_4 t) (acc2) (Memref.isWhole_whole _) ((first2_iff t).mpr h0) (fun h => h1 ((last2_iff t).mp h)) (iblk2 V c 0 t) (iblk2 V c 1 t) (iblk2 V c 2 t) (iblk2 V c 3 t),
   accFirst2 c (grid2.coords t) (ms2_0 t) (hs2_0 t) (ms2_1 t) (hs2_1 t) (ms2_2 t) (hs2_2 t) (ms2_3 t) (hs2_3 t) (ms2_4 t) (hs2_4 t) (acc2) (Memref.isWhole_whole _) ((first2_iff t).mpr h0) (fun h => h1 ((last2_iff t).mp h)) (iblk2 V c 0 t) (iblk2 V c 1 t) (iblk2 V c 2 t) (iblk2 V c 3 t))
/-- A middle column block at point `t`, the accumulator entered at `xs`. -/
def midAt2 (c : Dev nD) (t : Fin cfg2.N) (h0 : ¬t.val % 4 = 0) (h1 : ¬t.val % 4 = 3) (xs : Vec F S512x512 .f32) : Vec F S512x512 .f32 × Vec F S512x512 .f32 :=
  (outMid2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) (fun h => h1 ((last2_iff t).mp h)) (iblk2 V c 0 t) (iblk2 V c 1 t) (iblk2 V c 2 t) (iblk2 V c 3 t) xs,
   accMid2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) (fun h => h1 ((last2_iff t).mp h)) (iblk2 V c 0 t) (iblk2 V c 1 t) (iblk2 V c 2 t) (iblk2 V c 3 t) xs)
/-- A last column block at point `t`, the accumulator entered at `xs`. -/
def lastAt2 (c : Dev nD) (t : Fin cfg2.N) (h0 : ¬t.val % 4 = 0) (h1 : t.val % 4 = 3) (xs : Vec F S512x512 .f32) : Vec F S512x512 .f32 × Vec F S512x512 .f32 :=
  (outLast2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) ((last2_iff t).mpr h1) (iblk2 V c 0 t) (iblk2 V c 1 t) (iblk2 V c 2 t) (iblk2 V c 3 t) xs,
   accLast2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) ((last2_iff t).mpr h1) (iblk2 V c 0 t) (iblk2 V c 1 t) (iblk2 V c 2 t) (iblk2 V c 3 t) xs)

/-- THE ACCUMULATION: the output buffer and the accumulator after the body at position `n`. -/
def outsAt2 (c : Dev nD) : (n : ℕ) → n < cfg2.N → Vec F S512x512 .f32 × Vec F S512x512 .f32
  | 0, hn => firstAt2 V c ⟨0, hn⟩ (Nat.zero_mod _) (fun h => Nat.succ_ne_zero 2 (h.symm.trans (Nat.zero_mod 4)))
  | n + 1, hn =>
    if h0 : (n + 1) % 4 = 0 then
      if h1 : (n + 1) % 4 = 3 then False.elim (by omega)
      else firstAt2 V c ⟨n + 1, hn⟩ h0 h1
    else
      if h1 : (n + 1) % 4 = 3 then lastAt2 V c ⟨n + 1, hn⟩ h0 h1 (outsAt2 c n (Nat.lt_of_succ_lt hn)).2
      else midAt2 V c ⟨n + 1, hn⟩ h0 h1 (outsAt2 c n (Nat.lt_of_succ_lt hn)).2

theorem outsAt2_first (c : Dev nD) (t : Fin cfg2.N) (h0 : t.val % 4 = 0) (h1 : ¬t.val % 4 = 3) :
    outsAt2 V c t.val t.isLt = firstAt2 V c t h0 h1 := by
  obtain ⟨n, hn⟩ := t
  cases n with
  | zero => exact rfl
  | succ n => exact (dif_pos h0).trans ((dif_neg h1).trans rfl)
theorem outsAt2_mid (c : Dev nD) (t : Fin cfg2.N) (h0 : ¬t.val % 4 = 0) (h1 : ¬t.val % 4 = 3) :
    outsAt2 V c t.val t.isLt = midAt2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt2_last (c : Dev nD) (t : Fin cfg2.N) (h0 : ¬t.val % 4 = 0) (h1 : t.val % 4 = 3) :
    outsAt2 V c t.val t.isLt = lastAt2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the plain invariant; after point `n` the accumulator at what that point left, the other
    scoped buffers at anything, the generator register at some state. -/
def inv2 (c : Dev nD) : (n : ℕ) → n ≤ cfg2.N → sProp 𝕄
  | 0, _ => Pipeline.ΦA spec2 c
  | n + 1, hn => iprop(iprop(owns (c : Thread nD τ) (acc2) fullShare ((outsAt2 V c n hn).2) ∗ others2 (F := F) c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop(iprop(owns (c : Thread nD τ) (acc2) fullShare ((outsAt2 V c n hn).2) ∗ others2 (F := F) c) ∗ (∃ r, prngReg c r)) := rfl
theorem inv2_pos (c : Dev nD) (n : ℕ) (h : n ≤ cfg2.N) (hz : n ≠ 0) :
    inv2 V c n h = iprop(iprop(owns (c : Thread nD τ) (acc2) fullShare ((outsAt2 V c (n - 1) (by omega)).2) ∗ others2 (F := F) c) ∗ (∃ r, prngReg c r)) := by
  cases n with
  | zero => exact absurd rfl hz
  | succ n => rfl

/-! ## The proof data -/

/-- The arrays as the launch finds them; after the body each input window at its block, the output window at the
    accumulation's first component; the invariant `inv2`; nothing owed; full shares. -/
def dat2 (V : Entry F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem inv2_castSucc (c : Dev nD) (t : Fin cfg2.N) :
    (dat2 V c).Φ t.castSucc = inv2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body's triple at a point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The closed forms say which kind of point `t` is; the input windows hold their blocks; the invariant hands the
    body the accumulator at what the point before left (at anything at the very first point) and takes it back at
    this point's contents; away from a last column block the output buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = inv2 V c (t.val + 1) t.isLt from rfl, inv2_succ]
  have hN : t.val < 64 := lt_of_lt_of_eq t.isLt (show cfg2.N = 64 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4 t (fun h => h1 ((last2_iff t).mp h))) (noFlush2_4 t (fun h => h1 ((last2_iff t).mp h)))]
      rw [outsAt2_first V c t h0 h1]
      unfold firstAt2 accFirst2; (try dsimp only)
      by_cases hz : t.val = 0
      · rw [inv2_castSucc V c t, inv2_zero V c _ _ hz, plain2_eq]
        iintro ⟨⟨⟨HS, Hoth⟩, Hg⟩, Ho, ⟨%d0, H0⟩, ⟨%d1, H1⟩, ⟨%d2, H2⟩, ⟨%d3, H3⟩, ⟨%d4, H4⟩⟩
        iapply ((runFirst2 c (grid2.coords t) _ _ _ _ _ _ _ _ _ _ _ _ ((first2_iff t).mpr h0) (fun h => h1 ((last2_iff t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst2 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [inv2_castSucc V c t, inv2_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst2 c (grid2.coords t) _ _ _ _ _ _ _ _ _ _ _ _ ((first2_iff t).mpr h0) (fun h => h1 ((last2_iff t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst2 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [live2_4 t ((last2_iff t).mpr h1)], after2_4]
      rw [outsAt2_last V c t h0 h1]
      unfold lastAt2 outLast2 accLast2; (try dsimp only)
      rw [inv2_castSucc V c t, inv2_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast2 c (grid2.coords t) _ _ _ _ _ _ _ _ _ _ _ _ (fun h => h0 ((first2_iff t).mp h)) ((last2_iff t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast2 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast2 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4 t (fun h => h1 ((last2_iff t).mp h))) (noFlush2_4 t (fun h => h1 ((last2_iff t).mp h)))]
      rw [outsAt2_mid V c t h0 h1]
      unfold midAt2 accMid2; (try dsimp only)
      rw [inv2_castSucc V c t, inv2_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid2 c (grid2.coords t) _ _ _ _ _ _ _ _ _ _ _ _ (fun h => h0 ((first2_iff t).mp h)) (fun h => h1 ((last2_iff t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid2 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body's triple at every point, in the launch rule's form. -/
theorem body_obligation2 (c : Dev nD) : BodyObligation (dat2 (F := F) V c) (defs₀ (F := F)) Variants.none () Set.univ := fun t => by
  rw [bigSep_W2, bigSep_W2]
  exact sound_body2 V c t

/-! ## The record -/

theorem inv2_out (c : Dev nD) (t : Fin (cfg2.N + 1)) (ht : t.val ≠ 0) : (dat2 V c).Φ t ⊢ Pipeline.ΦA spec2 c := by
  rw [show (dat2 V c).Φ t = inv2 V c t.val (Nat.le_of_lt_succ t.isLt) from rfl, inv2_pos V c _ _ ht, plain2_eq]
  iintro ⟨⟨HS, Hoth⟩, Hg⟩
  isplitl [HS Hoth]
  · isplitl [HS]
    · iexists _; iexact HS
    iexact Hoth
  iexact Hg

/-- The aggregation launch 2's half. -/
theorem half2 : Half cfg2 (dat2 (F := F)) where
  A V c w := A_eq2 V c w
  q _ _ _ := rfl
  owed _ _ _ := rfl
  Φin V c := by
    rw [show (dat2 V c).Φ 0 = inv2 V c 0 (Nat.zero_le _) from rfl, inv2_zero V c 0 _ rfl]
    unfold Pipeline.ΦA
    iintro ⟨Hp, Hr⟩
    isplitl [Hr]; · iexact Hr
    iexact Hp
  Φout V c := by
    refine (inv2_out V c (Fin.last cfg2.N) (by rw [Fin.val_last]; have : cfg2.N = 64 := N_2; omega)).trans ?_
    unfold Pipeline.ΦA
    iintro ⟨Hr, Hp⟩
    isplitl [Hp]; · iexact Hp
    iexact Hr
  body V c := body_obligation2 V c

end Cert.KernelIdeal.Hand

end
-- ==== Proof.AggregateCases4.lean ====
/-
  The aggregation launch 4 (out = (A · S) ⊙ d + bias over a 16 × 4 grid, the contraction cut into four column
  blocks of 2048 accumulated in a scratch buffer): what its three kinds of grid point share. A point (i, k)
  zeroes the accumulator when k = 0, always adds its block product, and when k = 3 scales by the degree column,
  adds the bias and stores the row block. Here: each window's block at a point, that an input
  window's buffer holds its block whether or not it was fetched there, the two branch conditions in closed form
  over the grid, where the output window is left untouched, and the invariant's shape with the accumulator split
  off the other scoped buffers.
-/
import proofs.«171514_j71725953843990_2_alg».proof.Proof.RegionFacts
import proofs.«171514_j71725953843990_2_alg».proof.Proof.Gen.KernelIdeal.Skeleton
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The windows' blocks -/

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The adjacency block (window 0) is in its buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The whole support matrix (window 1, one block, fetched once) is in its buffer at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The degree column's row block (window 2, refetched when the row block changes) is in its buffer at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The bias row (window 3, one block, fetched once) is in its buffer at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions -/

/-- "This is the first column block": the accumulator is zeroed. -/
abbrev first4 (i : grid4.Coords) : Prop := (Scalar.cmpi .ne (Scalar.extui (Scalar.cmpi .eq (BitVec.ofNat 32 (i 1).val) 0#32)) 0#32) = 1#1
/-- It holds exactly at the points ≡ 0 (mod 4). -/
theorem first4_iff : ∀ t : Fin cfg4.N, first4 (grid4.coords t) ↔ t.val % 4 = 0 :=
  (by decide +kernel : ∀ t : Fin grid4.N, first4 (grid4.coords t) ↔ t.val % 4 = 0)
/-- "This is the last column block": the row block is finished and stored. -/
abbrev last4 (i : grid4.Coords) : Prop := k4_cond2 i = 1#1
/-- It holds exactly at the points ≡ 3 (mod 4). -/
theorem last4_iff : ∀ t : Fin cfg4.N, last4 (grid4.coords t) ↔ t.val % 4 = 3 :=
  (by decide +kernel : ∀ t : Fin grid4.N, last4 (grid4.coords t) ↔ t.val % 4 = 3)

/-! ## Where the windows are left untouched -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Away from the last column block nothing is stored into the output window and its block is not written back. -/
theorem idle4_4 : ∀ t : Fin cfg4.N, ¬last4 (grid4.coords t) → cfg4.idle 4 (grid4.coords t) = true := by decide +kernel
theorem noFlush4_4 : ∀ t : Fin cfg4.N, ¬last4 (grid4.coords t) → (cfg4.win 4).flush t = false := by decide +kernel
/-- At the last column block the output window is stored whole. -/
theorem live4_4 : ∀ t : Fin cfg4.N, last4 (grid4.coords t) → cfg4.idle 4 (grid4.coords t) = false := by decide +kernel

/-! ## The memrefs the body is called with -/

abbrev ms4_0 (t : Fin cfg4.N) : Memref sig .tc .vmem S512x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x512 .f32 := win4_4.stage (cfg4.slots t 4)
abbrev hs4_4 (t : Fin cfg4.N) : (ms4_4 t).IsWhole := hstage4_4 ((cfg4.slots t 4).cast nbuf4_4)
/-- The accumulator: a whole scoped buffer of the launch's own, passed beside the windows. -/
abbrev acc4 : Memref sig .tc .vmem S512x512 .f32 := Memref.whole cc4_scratch0
/-- Views through which the output buffer's and the accumulator's contents are stated. -/
abbrev outView4 : View sig .tc .vmem S512x512 .f32 := (Memref.whole cc4_stg4_0 : Memref sig .tc .vmem S512x512 .f32).view
abbrev accView4 : View sig .tc .vmem S512x512 .f32 := (acc4).view

/-- The scoped buffers no window stages, with the accumulator split off. -/
abbrev others4 (c : Dev nD) : sProp 𝕄 :=
  Pipeline.scopedRestBut (Ix := Unit) (Name := ℕ) (U := UR sig nD τ) (Lvl := ℕ) (Val := Elt F) spec4 c [cc4_scratch0]

/-- The plain invariant (every scoped buffer no window stages at some contents, the generator register at some
    state) with the accumulator owned as a memref. -/
theorem plain4_eq (c : Dev nD) :
    (Pipeline.ΦA spec4 c : sProp 𝕄)
      = iprop(iprop(iprop((∃ d, owns (c : Thread nD τ) (acc4) fullShare d)) ∗ others4 (F := F) c) ∗ (∃ r, prngReg c r)) := by
  unfold Pipeline.ΦA; rw [scopedRest4_split]; simp only [acc4, owns_whole]; try rfl

end Cert.KernelIdeal.Hand

end
-- ==== Proof.AggregateRunFirst4.lean ====
/-
  The aggregation launch 4: its body run whole at one kind of grid point.
-/
import proofs.«171514_j71725953843990_2_alg».proof.Proof.AggregateCases4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column block (k = 0, not the last): the accumulator, whatever it held, is zeroed and then holds the
    block product added to zero; the output buffer is handed back as found. The stores into the accumulator, last
    first, are the witness the run finds. -/
noncomputable def runFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨[], ?_, fun xi4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.AggregateRunMid4.lean ====
/-
  The aggregation launch 4: its body run whole at one kind of grid point.
-/
import proofs.«171514_j71725953843990_2_alg».proof.Proof.AggregateCases4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column block (k = 1, 2): the accumulator, holding `xs`, ends holding `xs` plus the block product;
    the output buffer is handed back as found. -/
noncomputable def runMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨[], ?_, fun xi4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.AggregateRunLast4.lean ====
/-
  The aggregation launch 4: its body run whole at one kind of grid point.
-/
import proofs.«171514_j71725953843990_2_alg».proof.Proof.AggregateCases4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column block (k = 3): the accumulator, holding `xs`, ends holding `xs` plus the block product, and the
    output buffer, whatever it held, is stored whole with the finished row block. -/
noncomputable def runLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.AggregateRegion4.lean ====
/-
  The aggregation launch 4: what the accumulator and the output buffer hold after every grid point — the kind of
  point the closed forms select, run on the point's blocks over what the point before left in the accumulator —,
  the proof data built on that, and the body's triple at every point. Between points the invariant keeps the
  accumulator at the contents the last point left; before the first point and after the last it is the plain one.
-/
import proofs.«171514_j71725953843990_2_alg».proof.Proof.AggregateRunFirst4
import proofs.«171514_j71725953843990_2_alg».proof.Proof.AggregateRunMid4
import proofs.«171514_j71725953843990_2_alg».proof.Proof.AggregateRunLast4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What each kind of point leaves -/

/-- The stores into the accumulator at such a point tile it. -/
theorem accCoverFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) (y : S512x512.Idx) :
    ∃ pc ∈ (runFirst4 c i arg2 harg2 arg3 harg3 arg4 harg4 arg5 harg5 arg6 harg6 arg7 harg7 hc0 hc1 x0 x1 x2 x3).2.1, y ∈ pc.1.set :=
  View.cover_of_tiledL (runFirst4 c i arg2 harg2 arg3 harg3 arg4 harg4 arg5 harg5 arg6 harg6 arg7 harg7 hc0 hc1 x0 x1 x2 x3).2.1 S512x512.size (by sl_kernel_rfl) y
/-- What such a point leaves in the accumulator: its stores read back. -/
def accFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) : Vec F S512x512 .f32 :=
  (accView4).read (Elt F) ((accView4).writes (Elt F) (accView4).junk (runFirst4 c i arg2 harg2 arg3 harg3 arg4 harg4 arg5 harg5 arg6 harg6 arg7 harg7 hc0 hc1 x0 x1 x2 x3).2.1)
/-- What such a point leaves in the output buffer (nothing is stored: a placeholder no one reads). -/
def outFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) : Vec F S512x512 .f32 :=
  (outView4).read (Elt F) ((outView4).writes (Elt F) (outView4).junk (runFirst4 c i arg2 harg2 arg3 harg3 arg4 harg4 arg5 harg5 arg6 harg6 arg7 harg7 hc0 hc1 x0 x1 x2 x3).1)

/-- The stores into the accumulator at such a point tile it. -/
theorem accCoverMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runMid4 c i arg2 harg2 arg3 harg3 arg4 harg4 arg5 harg5 arg6 harg6 arg7 harg7 hc0 hc1 x0 x1 x2 x3 xs).2.1, y ∈ pc.1.set :=
  View.cover_of_tiledL (runMid4 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) : Vec F S512x512 .f32 :=
  (accView4).read (Elt F) ((accView4).writes (Elt F) (accView4).junk (runMid4 c i arg2 harg2 arg3 harg3 arg4 harg4 arg5 harg5 arg6 harg6 arg7 harg7 hc0 hc1 x0 x1 x2 x3 xs).2.1)
/-- What such a point leaves in the output buffer (nothing is stored: a placeholder no one reads). -/
def outMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) : Vec F S512x512 .f32 :=
  (outView4).read (Elt F) ((outView4).writes (Elt F) (outView4).junk (runMid4 c i arg2 harg2 arg3 harg3 arg4 harg4 arg5 harg5 arg6 harg6 arg7 harg7 hc0 hc1 x0 x1 x2 x3 xs).1)

/-- The stores into the accumulator at such a point tile it. -/
theorem accCoverLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast4 c i arg2 harg2 arg3 harg3 arg4 harg4 arg5 harg5 arg6 harg6 arg7 harg7 hc0 hc1 x0 x1 x2 x3 xs).2.1, y ∈ pc.1.set :=
  View.cover_of_tiledL (runLast4 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) : Vec F S512x512 .f32 :=
  (accView4).read (Elt F) ((accView4).writes (Elt F) (accView4).junk (runLast4 c i arg2 harg2 arg3 harg3 arg4 harg4 arg5 harg5 arg6 harg6 arg7 harg7 hc0 hc1 x0 x1 x2 x3 xs).2.1)
/-- The store into the output buffer at a last column block covers it. -/
theorem outCoverLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast4 c i arg2 harg2 arg3 harg3 arg4 harg4 arg5 harg5 arg6 harg6 arg7 harg7 hc0 hc1 x0 x1 x2 x3 xs).1, y ∈ pc.1.set :=
  View.cover_of_tiledL (runLast4 c i arg2 harg2 arg3 harg3 arg4 harg4 arg5 harg5 arg6 harg6 arg7 harg7 hc0 hc1 x0 x1 x2 x3 xs).1 S512x512.size (by sl_kernel_rfl) y
/-- What such a point leaves in the output buffer: its store read back. -/
def outLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) : Vec F S512x512 .f32 :=
  (outView4).read (Elt F) ((outView4).writes (Elt F) (outView4).junk (runLast4 c i arg2 harg2 arg3 harg3 arg4 harg4 arg5 harg5 arg6 harg6 arg7 harg7 hc0 hc1 x0 x1 x2 x3 xs).1)

/-! ## Point by point -/

/-- A first column block at point `t`: (output buffer, accumulator). -/
def firstAt4 (c : Dev nD) (t : Fin cfg4.N) (h0 : t.val % 4 = 0) (h1 : ¬t.val % 4 = 3) : Vec F S512x512 .f32 × Vec F S512x512 .f32 :=
  (outFirst4 c (grid4.coords t) (ms4_0 t) (hs4_0 t) (ms4_1 t) (hs4_1 t) (ms4_2 t) (hs4_2 t) (ms4_3 t) (hs4_3 t) (ms4_4 t) (hs4_4 t) (acc4) (Memref.isWhole_whole _) ((first4_iff t).mpr h0) (fun h => h1 ((last4_iff t).mp h)) (iblk4 V c 0 t) (iblk4 V c 1 t) (iblk4 V c 2 t) (iblk4 V c 3 t),
   accFirst4 c (grid4.coords t) (ms4_0 t) (hs4_0 t) (ms4_1 t) (hs4_1 t) (ms4_2 t) (hs4_2 t) (ms4_3 t) (hs4_3 t) (ms4_4 t) (hs4_4 t) (acc4) (Memref.isWhole_whole _) ((first4_iff t).mpr h0) (fun h => h1 ((last4_iff t).mp h)) (iblk4 V c 0 t) (iblk4 V c 1 t) (iblk4 V c 2 t) (iblk4 V c 3 t))
/-- A middle column block at point `t`, the accumulator entered at `xs`. -/
def midAt4 (c : Dev nD) (t : Fin cfg4.N) (h0 : ¬t.val % 4 = 0) (h1 : ¬t.val % 4 = 3) (xs : Vec F S512x512 .f32) : Vec F S512x512 .f32 × Vec F S512x512 .f32 :=
  (outMid4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) (fun h => h1 ((last4_iff t).mp h)) (iblk4 V c 0 t) (iblk4 V c 1 t) (iblk4 V c 2 t) (iblk4 V c 3 t) xs,
   accMid4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) (fun h => h1 ((last4_iff t).mp h)) (iblk4 V c 0 t) (iblk4 V c 1 t) (iblk4 V c 2 t) (iblk4 V c 3 t) xs)
/-- A last column block at point `t`, the accumulator entered at `xs`. -/
def lastAt4 (c : Dev nD) (t : Fin cfg4.N) (h0 : ¬t.val % 4 = 0) (h1 : t.val % 4 = 3) (xs : Vec F S512x512 .f32) : Vec F S512x512 .f32 × Vec F S512x512 .f32 :=
  (outLast4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) ((last4_iff t).mpr h1) (iblk4 V c 0 t) (iblk4 V c 1 t) (iblk4 V c 2 t) (iblk4 V c 3 t) xs,
   accLast4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) ((last4_iff t).mpr h1) (iblk4 V c 0 t) (iblk4 V c 1 t) (iblk4 V c 2 t) (iblk4 V c 3 t) xs)

/-- THE ACCUMULATION: the output buffer and the accumulator after the body at position `n`. -/
def outsAt4 (c : Dev nD) : (n : ℕ) → n < cfg4.N → Vec F S512x512 .f32 × Vec F S512x512 .f32
  | 0, hn => firstAt4 V c ⟨0, hn⟩ (Nat.zero_mod _) (fun h => Nat.succ_ne_zero 2 (h.symm.trans (Nat.zero_mod 4)))
  | n + 1, hn =>
    if h0 : (n + 1) % 4 = 0 then
      if h1 : (n + 1) % 4 = 3 then False.elim (by omega)
      else firstAt4 V c ⟨n + 1, hn⟩ h0 h1
    else
      if h1 : (n + 1) % 4 = 3 then lastAt4 V c ⟨n + 1, hn⟩ h0 h1 (outsAt4 c n (Nat.lt_of_succ_lt hn)).2
      else midAt4 V c ⟨n + 1, hn⟩ h0 h1 (outsAt4 c n (Nat.lt_of_succ_lt hn)).2

theorem outsAt4_first (c : Dev nD) (t : Fin cfg4.N) (h0 : t.val % 4 = 0) (h1 : ¬t.val % 4 = 3) :
    outsAt4 V c t.val t.isLt = firstAt4 V c t h0 h1 := by
  obtain ⟨n, hn⟩ := t
  cases n with
  | zero => exact rfl
  | succ n => exact (dif_pos h0).trans ((dif_neg h1).trans rfl)
theorem outsAt4_mid (c : Dev nD) (t : Fin cfg4.N) (h0 : ¬t.val % 4 = 0) (h1 : ¬t.val % 4 = 3) :
    outsAt4 V c t.val t.isLt = midAt4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt4_last (c : Dev nD) (t : Fin cfg4.N) (h0 : ¬t.val % 4 = 0) (h1 : t.val % 4 = 3) :
    outsAt4 V c t.val t.isLt = lastAt4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the plain invariant; after point `n` the accumulator at what that point left, the other
    scoped buffers at anything, the generator register at some state. -/
def inv4 (c : Dev nD) : (n : ℕ) → n ≤ cfg4.N → sProp 𝕄
  | 0, _ => Pipeline.ΦA spec4 c
  | n + 1, hn => iprop(iprop(owns (c : Thread nD τ) (acc4) fullShare ((outsAt4 V c n hn).2) ∗ others4 (F := F) c) ∗ (∃ r, prngReg c r))

theorem inv4_zero (c : Dev nD) (n : ℕ) (h : n ≤ cfg4.N) (hz : n = 0) : inv4 V c n h = Pipeline.ΦA spec4 c := by
  subst hz; rfl
theorem inv4_succ (c : Dev nD) (n : ℕ) (hn : n < cfg4.N) :
    inv4 V c (n + 1) hn = iprop(iprop(owns (c : Thread nD τ) (acc4) fullShare ((outsAt4 V c n hn).2) ∗ others4 (F := F) c) ∗ (∃ r, prngReg c r)) := rfl
theorem inv4_pos (c : Dev nD) (n : ℕ) (h : n ≤ cfg4.N) (hz : n ≠ 0) :
    inv4 V c n h = iprop(iprop(owns (c : Thread nD τ) (acc4) fullShare ((outsAt4 V c (n - 1) (by omega)).2) ∗ others4 (F := F) c) ∗ (∃ r, prngReg c r)) := by
  cases n with
  | zero => exact absurd rfl hz
  | succ n => rfl

/-! ## The proof data -/

/-- The arrays as the launch finds them; after the body each input window at its block, the output window at the
    accumulation's first component; the invariant `inv4`; nothing owed; full shares. -/
def dat4 (V : Entry F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem inv4_castSucc (c : Dev nD) (t : Fin cfg4.N) :
    (dat4 V c).Φ t.castSucc = inv4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body's triple at a point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The closed forms say which kind of point `t` is; the input windows hold their blocks; the invariant hands the
    body the accumulator at what the point before left (at anything at the very first point) and takes it back at
    this point's contents; away from a last column block the output buffer passes through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = inv4 V c (t.val + 1) t.isLt from rfl, inv4_succ]
  have hN : t.val < 64 := lt_of_lt_of_eq t.isLt (show cfg4.N = 64 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [Dat.leavesExact_idle (dat4 V c) 4 t (idle4_4 t (fun h => h1 ((last4_iff t).mp h))) (noFlush4_4 t (fun h => h1 ((last4_iff t).mp h)))]
      rw [outsAt4_first V c t h0 h1]
      unfold firstAt4 accFirst4; (try dsimp only)
      by_cases hz : t.val = 0
      · rw [inv4_castSucc V c t, inv4_zero V c _ _ hz, plain4_eq]
        iintro ⟨⟨⟨HS, Hoth⟩, Hg⟩, Ho, ⟨%d0, H0⟩, ⟨%d1, H1⟩, ⟨%d2, H2⟩, ⟨%d3, H3⟩, ⟨%d4, H4⟩⟩
        iapply ((runFirst4 c (grid4.coords t) _ _ _ _ _ _ _ _ _ _ _ _ ((first4_iff t).mpr h0) (fun h => h1 ((last4_iff t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst4 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [inv4_castSucc V c t, inv4_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst4 c (grid4.coords t) _ _ _ _ _ _ _ _ _ _ _ _ ((first4_iff t).mpr h0) (fun h => h1 ((last4_iff t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst4 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [show (dat4 V c).leavesExact 4 t = owns (c : Thread nD τ) (ms4_4 t) fullShare ((dat4 V c).after 4 t) from by
        unfold Dat.leavesExact; rw [live4_4 t ((last4_iff t).mpr h1)], after4_4]
      rw [outsAt4_last V c t h0 h1]
      unfold lastAt4 outLast4 accLast4; (try dsimp only)
      rw [inv4_castSucc V c t, inv4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast4 c (grid4.coords t) _ _ _ _ _ _ _ _ _ _ _ _ (fun h => h0 ((first4_iff t).mp h)) ((last4_iff t).mpr h1) (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast4 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast4 c _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [Dat.leavesExact_idle (dat4 V c) 4 t (idle4_4 t (fun h => h1 ((last4_iff t).mp h))) (noFlush4_4 t (fun h => h1 ((last4_iff t).mp h)))]
      rw [outsAt4_mid V c t h0 h1]
      unfold midAt4 accMid4; (try dsimp only)
      rw [inv4_castSucc V c t, inv4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid4 c (grid4.coords t) _ _ _ _ _ _ _ _ _ _ _ _ (fun h => h0 ((first4_iff t).mp h)) (fun h => h1 ((last4_iff t).mp h)) (iblk4 V c 0 t) (iblk4 V c 1 t) (iblk4 V c 2 t) (iblk4 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid4 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body's triple at every point, in the launch rule's form. -/
theorem body_obligation4 (c : Dev nD) : BodyObligation (dat4 (F := F) V c) (defs₀ (F := F)) Variants.none () Set.univ := fun t => by
  rw [bigSep_W4, bigSep_W4]
  exact sound_body4 V c t

/-! ## The record -/

theorem inv4_out (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, plain4_eq]
  iintro ⟨⟨HS, Hoth⟩, Hg⟩
  isplitl [HS Hoth]
  · isplitl [HS]
    · iexists _; iexact HS
    iexact Hoth
  iexact Hg

/-- The aggregation launch 4's half. -/
theorem half4 : Half cfg4 (dat4 (F := F)) where
  A V c w := A_eq4 V c w
  q _ _ _ := rfl
  owed _ _ _ := rfl
  Φin V c := by
    rw [show (dat4 V c).Φ 0 = inv4 V c 0 (Nat.zero_le _) from rfl, inv4_zero V c 0 _ rfl]
    unfold Pipeline.ΦA
    iintro ⟨Hp, Hr⟩
    isplitl [Hr]; · iexact Hr
    iexact Hp
  Φout V c := by
    refine (inv4_out V c (Fin.last cfg4.N) (by rw [Fin.val_last]; have : cfg4.N = 64 := N_4; omega)).trans ?_
    unfold Pipeline.ΦA
    iintro ⟨Hr, Hp⟩
    isplitl [Hp]; · iexact Hp
    iexact Hr
  body V c := body_obligation4 V c

end Cert.KernelIdeal.Hand

end
-- ==== Proof.WRegionFacts.lean ====
/-
  What each kernel region's half of the argument supplies to the run of the whole program, as one record:
  proof data for the pipelined launch whose arrays are the contents the region is entered with, held at full
  share with nothing owed between grid points; an invariant that is entered from the core's scratch buffers
  and random-number register and gives them back; and the body's triple at every grid point.
-/
import proofs.«171514_j71725953843990_2_alg».proof.Proof.Gen.Kernel.Launch
import proofs.«171514_j71725953843990_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers when a region is entered. -/
abbrev Entry (F : FTy → Type) : Type := (c : Dev nD) → (b : Ref sig .tc) → Buf (Elt F) ((c : Thread nD τ).loc b)

/-- A family of proof data for the launch `cfg`, one per entry contents and core. -/
abbrev DatFam (F : FTy → Type) (cfg : Cfg sig Λ₀) : Type :=
  (V : Entry F) → (c : Dev nD) → Dat τ (Elt F) Unit ℕ (UR sig nD τ) ℕ cfg c

/-- The facts a region's half proves of its proof data. -/
structure Half (cfg : Cfg sig Λ₀) (D : DatFam F cfg) : Prop where
  /-- the arrays are the entry contents, -/
  A : ∀ (V : Entry F) (c : Dev nD) (w : Fin cfg.W), (D V c).A w = V c (Pipeline.arrRef (fun w => (cfg.win w).toWinSpec) w)
  /-- every array is held whole, -/
  q : ∀ (V : Entry F) (c : Dev nD) (w : Fin cfg.W), (D V c).q w = fullShare
  /-- nothing is owed between points, -/
  owed : ∀ (V : Entry F) (c : Dev nD) (t : Fin (cfg.N + 1)), (D V c).owed t = 0
  /-- the invariant before the first point is made of the register and the scoped buffers no window stages, -/
  Φin : ∀ (V : Entry F) (c : Dev nD),
    (iprop((∃ r, prngReg c r) ∗ Pipeline.scopedRest (Ix := Unit) (Name := ℕ) (U := UR sig nD τ) (Lvl := ℕ) (Val := Elt F) (fun w => (cfg.win w).toWinSpec) c) : sProp 𝕄)
      ⊢ (D V c).Φ 0
  /-- and after the last point gives them back, -/
  Φout : ∀ (V : Entry F) (c : Dev nD),
    (D V c).Φ (Fin.last cfg.N)
      ⊢ (iprop((∃ r, prngReg c r) ∗ Pipeline.scopedRest (Ix := Unit) (Name := ℕ) (U := UR sig nD τ) (Lvl := ℕ) (Val := Elt F) (fun w => (cfg.win w).toWinSpec) c) : sProp 𝕄)
  /-- the body's triple at every point. -/
  body : ∀ (V : Entry F) (c : Dev nD), BodyObligation (D V c) (defs₀ (F := F)) Variants.none () Set.univ

end Cert.Kernel.Hand

end
-- ==== Proof.WSegments.lean ====
/-
  The run of the whole program from its five regions' halves. Between two items of the program a core's
  unscoped buffers hold a valuation obtained from the launch memory by a fold: a kernel region replaces its
  windows' arrays by what its write-backs leave and keeps every other buffer, a stretch of host operations
  applies them in order. Each region is entered from the valuation before it and left at the one after it,
  the core's generator register and its dues riding along; the program terminates and its last memory holds
  the last valuation. Reading the fold back: no item writes an argument, and each intermediate array holds
  what the region producing it left until the region consuming it reads it.
-/
import proofs.«171514_j71725953843990_2_alg».proof.Proof.WRegionFacts
import proofs.«171514_j71725953843990_2_alg».proof.Proof.Gen.Kernel.Launch
import proofs.«171514_j71725953843990_2_alg».proof.Proof.Gen.Kernel.Points
import proofs.«171514_j71725953843990_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : DatFam F cfg0) (D1 : DatFam F cfg1) (D2 : DatFam F cfg2) (D3 : DatFam F cfg3) (D4 : DatFam F cfg4)
variable (m : (ℓ : Loc nD τ sig) → Buf (Elt F) ℓ) (ρ : Dev nD → PrngReg)

/-! ## The buffers' contents between items: a fold from the launch memory -/

/-- Core `c`'s buffers at launch (region 0's entry: no host operation comes before it). -/
abbrev W0 : Dev nD → Valuation τ sig (Elt F) := fun c b => m ((c : Dev nD), b)
/-- The same read at the TensorCore's references (what region 0's proof data take). -/
abbrev V0 : Entry F := fun c b => W0 m c b

/-- After region 0: its arrays at what its write-backs leave, every other buffer as entered. -/
def W1 (c : Dev nD) : Valuation τ sig (Elt F) :=
  Pipeline.withArrays spec0 c (W0 m c) fun w => (D0 (V0 m) c).arrAt w cfg0.N
theorem W1_arr (c : Dev nD) (w : Fin cfg0.W) :
    W1 D0 m c (Proc.devRef .tc (Pipeline.arrRef spec0 w)) = (D0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 m c (Proc.devRef .tc b) = W0 m c (Proc.devRef .tc b) := by
  unfold W1; exact Pipeline.withArrays_of_ne spec0 c _ _ b hb
/-- Region 1's entry contents. -/
abbrev V1 : Entry F := fun c b => W1 D0 m c b
theorem hF0 (c : Dev nD) (w : Fin cfg0.W) : (D0 (V0 m) c).arrAt w cfg0.N = V1 D0 m c (Pipeline.arrRef spec0 w) :=
  (W1_arr D0 m c w).symm
theorem hrest0 (c : Dev nD) : ∀ b, b ∉ Finset.univ.image (Pipeline.arrRef spec0) → V1 D0 m c b = V0 m c b :=
  fun b hb => W1_of_ne D0 m c b fun w e => hb (Finset.mem_image.mpr ⟨w, Finset.mem_univ _, e⟩)

/-- After region 1. -/
def W2 (c : Dev nD) : Valuation τ sig (Elt F) :=
  Pipeline.withArrays spec1 c (W1 D0 m c) fun w => (D1 (V1 D0 m) c).arrAt w cfg1.N
theorem W2_arr (c : Dev nD) (w : Fin cfg1.W) :
    W2 D0 D1 m c (Proc.devRef .tc (Pipeline.arrRef spec1 w)) = (D1 (V1 D0 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 D0 D1 m c (Proc.devRef .tc b) = W1 D0 m c (Proc.devRef .tc b) := by
  unfold W2; exact Pipeline.withArrays_of_ne spec1 c _ _ b hb
abbrev V2 : Entry F := fun c b => W2 D0 D1 m c b
theorem hF1 (c : Dev nD) (w : Fin cfg1.W) : (D1 (V1 D0 m) c).arrAt w cfg1.N = V2 D0 D1 m c (Pipeline.arrRef spec1 w) :=
  (W2_arr D0 D1 m c w).symm
theorem hrest1 (c : Dev nD) : ∀ b, b ∉ Finset.univ.image (Pipeline.arrRef spec1) → V2 D0 D1 m c b = V1 D0 m c b :=
  fun b hb => W2_of_ne D0 D1 m c b fun w e => hb (Finset.mem_image.mpr ⟨w, Finset.mem_univ _, e⟩)

/-- After the first host stretch (region 2's entry). -/
abbrev W3 : Dev nD → Valuation τ sig (Elt F) := fun c => StableHlo.after hostOps2 (W2 D0 D1 m c)
abbrev V3 : Entry F := fun c b => W3 D0 D1 m c b

/-- After region 2. -/
def W4 (c : Dev nD) : Valuation τ sig (Elt F) :=
  Pipeline.withArrays spec2 c (W3 D0 D1 m c) fun w => (D2 (V3 D0 D1 m) c).arrAt w cfg2.N
theorem W4_arr (c : Dev nD) (w : Fin cfg2.W) :
    W4 D0 D1 D2 m c (Proc.devRef .tc (Pipeline.arrRef spec2 w)) = (D2 (V3 D0 D1 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D0 D1 D2 m c (Proc.devRef .tc b) = W3 D0 D1 m c (Proc.devRef .tc b) := by
  unfold W4; exact Pipeline.withArrays_of_ne spec2 c _ _ b hb
abbrev V4 : Entry F := fun c b => W4 D0 D1 D2 m c b
theorem hF2 (c : Dev nD) (w : Fin cfg2.W) : (D2 (V3 D0 D1 m) c).arrAt w cfg2.N = V4 D0 D1 D2 m c (Pipeline.arrRef spec2 w) :=
  (W4_arr D0 D1 D2 m c w).symm
theorem hrest2 (c : Dev nD) : ∀ b, b ∉ Finset.univ.image (Pipeline.arrRef spec2) → V4 D0 D1 D2 m c b = V3 D0 D1 m c b :=
  fun b hb => W4_of_ne D0 D1 D2 m c b fun w e => hb (Finset.mem_image.mpr ⟨w, Finset.mem_univ _, e⟩)

/-- After region 3. -/
def W5 (c : Dev nD) : Valuation τ sig (Elt F) :=
  Pipeline.withArrays spec3 c (W4 D0 D1 D2 m c) fun w => (D3 (V4 D0 D1 D2 m) c).arrAt w cfg3.N
theorem W5_arr (c : Dev nD) (w : Fin cfg3.W) :
    W5 D0 D1 D2 D3 m c (Proc.devRef .tc (Pipeline.arrRef spec3 w)) = (D3 (V4 D0 D1 D2 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 D0 D1 D2 D3 m c (Proc.devRef .tc b) = W4 D0 D1 D2 m c (Proc.devRef .tc b) := by
  unfold W5; exact Pipeline.withArrays_of_ne spec3 c _ _ b hb
abbrev V5 : Entry F := fun c b => W5 D0 D1 D2 D3 m c b
theorem hF3 (c : Dev nD) (w : Fin cfg3.W) : (D3 (V4 D0 D1 D2 m) c).arrAt w cfg3.N = V5 D0 D1 D2 D3 m c (Pipeline.arrRef spec3 w) :=
  (W5_arr D0 D1 D2 D3 m c w).symm
theorem hrest3 (c : Dev nD) : ∀ b, b ∉ Finset.univ.image (Pipeline.arrRef spec3) → V5 D0 D1 D2 D3 m c b = V4 D0 D1 D2 m c b :=
  fun b hb => W5_of_ne D0 D1 D2 D3 m c b fun w e => hb (Finset.mem_image.mpr ⟨w, Finset.mem_univ _, e⟩)

/-- After the second host stretch (region 4's entry). -/
abbrev W6 : Dev nD → Valuation τ sig (Elt F) := fun c => StableHlo.after hostOps4 (W5 D0 D1 D2 D3 m c)
abbrev V6 : Entry F := fun c b => W6 D0 D1 D2 D3 m c b

/-- After region 4: what the launch reads at the end. -/
def W7 (c : Dev nD) : Valuation τ sig (Elt F) :=
  Pipeline.withArrays spec4 c (W6 D0 D1 D2 D3 m c) fun w => (D4 (V6 D0 D1 D2 D3 m) c).arrAt w cfg4.N
theorem W7_arr (c : Dev nD) (w : Fin cfg4.W) :
    W7 D0 D1 D2 D3 D4 m c (Proc.devRef .tc (Pipeline.arrRef spec4 w)) = (D4 (V6 D0 D1 D2 D3 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 D0 D1 D2 D3 D4 m c (Proc.devRef .tc b) = W6 D0 D1 D2 D3 m c (Proc.devRef .tc b) := by
  unfold W7; exact Pipeline.withArrays_of_ne spec4 c _ _ b hb
abbrev V7 : Entry F := fun c b => W7 D0 D1 D2 D3 D4 m c b
theorem hF4 (c : Dev nD) (w : Fin cfg4.W) : (D4 (V6 D0 D1 D2 D3 m) c).arrAt w cfg4.N = V7 D0 D1 D2 D3 D4 m c (Pipeline.arrRef spec4 w) :=
  (W7_arr D0 D1 D2 D3 D4 m c w).symm
theorem hrest4 (c : Dev nD) : ∀ b, b ∉ Finset.univ.image (Pipeline.arrRef spec4) → V7 D0 D1 D2 D3 D4 m c b = V6 D0 D1 D2 D3 m c b :=
  fun b hb => W7_of_ne D0 D1 D2 D3 D4 m c b fun w e => hb (Finset.mem_image.mpr ⟨w, Finset.mem_univ _, e⟩)

/-! ## Reading the fold back

Through a region, a buffer that is no window's array keeps its contents, and so does an input window's array;
through a host stretch, a buffer the stretch does not write. -/

variable (h0 : Half cfg0 D0) (h1 : Half cfg1 D1) (h2 : Half cfg2 D2) (h3 : Half cfg3 D3) (h4 : Half cfg4 D4)

include h0 in
/-- Region 0 leaves an input window's array as it found it: an input's array is never written back. -/
theorem W1_in (c : Dev nD) (w : Fin cfg0.W) (hin : (cfg0.win w).isOut = false) :
    W1 D0 m c (Proc.devRef .tc (Pipeline.arrRef spec0 w)) = W0 m c (Proc.devRef .tc (Pipeline.arrRef spec0 w)) :=
  (W1_arr D0 m c w).trans (((D0 (V0 m) c).arrAt_in w hin _).trans (h0.A (V0 m) c w))
include h1 in
/-- Region 1 leaves an input window's array as it found it: an input's array is never written back. -/
theorem W2_in (c : Dev nD) (w : Fin cfg1.W) (hin : (cfg1.win w).isOut = false) :
    W2 D0 D1 m c (Proc.devRef .tc (Pipeline.arrRef spec1 w)) = W1 D0 m c (Proc.devRef .tc (Pipeline.arrRef spec1 w)) :=
  (W2_arr D0 D1 m c w).trans (((D1 (V1 D0 m) c).arrAt_in w hin _).trans (h1.A (V1 D0 m) c w))
include h2 in
/-- Region 2 leaves an input window's array as it found it: an input's array is never written back. -/
theorem W4_in (c : Dev nD) (w : Fin cfg2.W) (hin : (cfg2.win w).isOut = false) :
    W4 D0 D1 D2 m c (Proc.devRef .tc (Pipeline.arrRef spec2 w)) = W3 D0 D1 m c (Proc.devRef .tc (Pipeline.arrRef spec2 w)) :=
  (W4_arr D0 D1 D2 m c w).trans (((D2 (V3 D0 D1 m) c).arrAt_in w hin _).trans (h2.A (V3 D0 D1 m) c w))
include h3 in
/-- Region 3 leaves an input window's array as it found it: an input's array is never written back. -/
theorem W5_in (c : Dev nD) (w : Fin cfg3.W) (hin : (cfg3.win w).isOut = false) :
    W5 D0 D1 D2 D3 m c (Proc.devRef .tc (Pipeline.arrRef spec3 w)) = W4 D0 D1 D2 m c (Proc.devRef .tc (Pipeline.arrRef spec3 w)) :=
  (W5_arr D0 D1 D2 D3 m c w).trans (((D3 (V4 D0 D1 D2 m) c).arrAt_in w hin _).trans (h3.A (V4 D0 D1 D2 m) c w))
include h4 in
/-- Region 4 leaves an input window's array as it found it: an input's array is never written back. -/
theorem W7_in (c : Dev nD) (w : Fin cfg4.W) (hin : (cfg4.win w).isOut = false) :
    W7 D0 D1 D2 D3 D4 m c (Proc.devRef .tc (Pipeline.arrRef spec4 w)) = W6 D0 D1 D2 D3 m c (Proc.devRef .tc (Pipeline.arrRef spec4 w)) :=
  (W7_arr D0 D1 D2 D3 D4 m c w).trans (((D4 (V6 D0 D1 D2 D3 m) c).arrAt_in w hin _).trans (h4.A (V6 D0 D1 D2 D3 m) c w))

/-! ### No item writes an argument -/

include h0 h1 h2 h3 h4 in
/-- `main_arg0` reaches the end as launched. -/
theorem V7_main_arg0 (c : Dev nD) : V7 D0 D1 D2 D3 D4 m c main_arg0 = m ((c : Thread nD τ).loc main_arg0) :=
  calc W7 D0 D1 D2 D3 D4 m c (Proc.devRef .tc main_arg0)
    _ = W6 D0 D1 D2 D3 m c (Proc.devRef .tc main_arg0) := W7_of_ne D0 D1 D2 D3 D4 m c main_arg0 (by decide)
    _ = W5 D0 D1 D2 D3 m c (Proc.devRef .tc main_arg0) := StableHlo.after_of_writes_sub (r := main_arg0) hostOps4 _ hostOps4_writes (by decide)
    _ = W4 D0 D1 D2 m c (Proc.devRef .tc main_arg0) := W5_of_ne D0 D1 D2 D3 m c main_arg0 (by decide)
    _ = W3 D0 D1 m c (Proc.devRef .tc main_arg0) := W4_of_ne D0 D1 D2 m c main_arg0 (by decide)
    _ = W2 D0 D1 m c (Proc.devRef .tc main_arg0) := StableHlo.after_of_writes_sub (r := main_arg0) hostOps2 _ hostOps2_writes (by decide)
    _ = W1 D0 m c (Proc.devRef .tc main_arg0) := W2_in D0 D1 m h1 c 0 rfl
    _ = W0 m c (Proc.devRef .tc main_arg0) := W1_of_ne D0 m c main_arg0 (by decide)
    _ = m ((c : Thread nD τ).loc main_arg0) := rfl
include h0 h1 h2 h3 h4 in
/-- `main_arg1` reaches the end as launched. -/
theorem V7_main_arg1 (c : Dev nD) : V7 D0 D1 D2 D3 D4 m c main_arg1 = m ((c : Thread nD τ).loc main_arg1) :=
  calc W7 D0 D1 D2 D3 D4 m c (Proc.devRef .tc main_arg1)
    _ = W6 D0 D1 D2 D3 m c (Proc.devRef .tc main_arg1) := W7_of_ne D0 D1 D2 D3 D4 m c main_arg1 (by decide)
    _ = W5 D0 D1 D2 D3 m c (Proc.devRef .tc main_arg1) := StableHlo.after_of_writes_sub (r := main_arg1) hostOps4 _ hostOps4_writes (by decide)
    _ = W4 D0 D1 D2 m c (Proc.devRef .tc main_arg1) := W5_of_ne D0 D1 D2 D3 m c main_arg1 (by decide)
    _ = W3 D0 D1 m c (Proc.devRef .tc main_arg1) := W4_of_ne D0 D1 D2 m c main_arg1 (by decide)
    _ = W2 D0 D1 m c (Proc.devRef .tc main_arg1) := StableHlo.after_of_writes_sub (r := main_arg1) hostOps2 _ hostOps2_writes (by decide)
    _ = W1 D0 m c (Proc.devRef .tc main_arg1) := W2_of_ne D0 D1 m c main_arg1 (by decide)
    _ = W0 m c (Proc.devRef .tc main_arg1) := W1_in D0 m h0 c 0 rfl
    _ = m ((c : Thread nD τ).loc main_arg1) := rfl
include h0 h1 h2 h3 h4 in
/-- `main_arg2` reaches the end as launched. -/
theorem V7_main_arg2 (c : Dev nD) : V7 D0 D1 D2 D3 D4 m c main_arg2 = m ((c : Thread nD τ).loc main_arg2) :=
  calc W7 D0 D1 D2 D3 D4 m c (Proc.devRef .tc main_arg2)
    _ = W6 D0 D1 D2 D3 m c (Proc.devRef .tc main_arg2) := W7_of_ne D0 D1 D2 D3 D4 m c main_arg2 (by decide)
    _ = W5 D0 D1 D2 D3 m c (Proc.devRef .tc main_arg2) := StableHlo.after_of_writes_sub (r := main_arg2) hostOps4 _ hostOps4_writes (by decide)
    _ = W4 D0 D1 D2 m c (Proc.devRef .tc main_arg2) := W5_of_ne D0 D1 D2 D3 m c main_arg2 (by decide)
    _ = W3 D0 D1 m c (Proc.devRef .tc main_arg2) := W4_of_ne D0 D1 D2 m c main_arg2 (by decide)
    _ = W2 D0 D1 m c (Proc.devRef .tc main_arg2) := StableHlo.after_of_writes_sub (r := main_arg2) hostOps2 _ hostOps2_writes (by decide)
    _ = W1 D0 m c (Proc.devRef .tc main_arg2) := W2_in D0 D1 m h1 c 1 rfl
    _ = W0 m c (Proc.devRef .tc main_arg2) := W1_of_ne D0 m c main_arg2 (by decide)
    _ = m ((c : Thread nD τ).loc main_arg2) := rfl
include h0 h1 h2 h3 h4 in
/-- `main_arg3` reaches the end as launched. -/
theorem V7_main_arg3 (c : Dev nD) : V7 D0 D1 D2 D3 D4 m c main_arg3 = m ((c : Thread nD τ).loc main_arg3) :=
  calc W7 D0 D1 D2 D3 D4 m c (Proc.devRef .tc main_arg3)
    _ = W6 D0 D1 D2 D3 m c (Proc.devRef .tc main_arg3) := W7_of_ne D0 D1 D2 D3 D4 m c main_arg3 (by decide)
    _ = W5 D0 D1 D2 D3 m c (Proc.devRef .tc main_arg3) := StableHlo.after_of_writes_sub (r := main_arg3) hostOps4 _ hostOps4_writes (by decide)
    _ = W4 D0 D1 D2 m c (Proc.devRef .tc main_arg3) := W5_of_ne D0 D1 D2 D3 m c main_arg3 (by decide)
    _ = W3 D0 D1 m c (Proc.devRef .tc main_arg3) := W4_of_ne D0 D1 D2 m c main_arg3 (by decide)
    _ = W2 D0 D1 m c (Proc.devRef .tc main_arg3) := StableHlo.after_of_writes_sub (r := main_arg3) hostOps2 _ hostOps2_writes (by decide)
    _ = W1 D0 m c (Proc.devRef .tc main_arg3) := W2_of_ne D0 D1 m c main_arg3 (by decide)
    _ = W0 m c (Proc.devRef .tc main_arg3) := W1_of_ne D0 m c main_arg3 (by decide)
    _ = m ((c : Thread nD τ).loc main_arg3) := rfl
include h0 h1 h2 h3 h4 in
/-- `main_arg4` reaches the end as launched. -/
theorem V7_main_arg4 (c : Dev nD) : V7 D0 D1 D2 D3 D4 m c main_arg4 = m ((c : Thread nD τ).loc main_arg4) :=
  calc W7 D0 D1 D2 D3 D4 m c (Proc.devRef .tc main_arg4)
    _ = W6 D0 D1 D2 D3 m c (Proc.devRef .tc main_arg4) := W7_of_ne D0 D1 D2 D3 D4 m c main_arg4 (by decide)
    _ = W5 D0 D1 D2 D3 m c (Proc.devRef .tc main_arg4) := StableHlo.after_of_writes_sub (r := main_arg4) hostOps4 _ hostOps4_writes (by decide)
    _ = W4 D0 D1 D2 m c (Proc.devRef .tc main_arg4) := W5_in D0 D1 D2 D3 m h3 c 1 rfl
    _ = W3 D0 D1 m c (Proc.devRef .tc main_arg4) := W4_of_ne D0 D1 D2 m c main_arg4 (by decide)
    _ = W2 D0 D1 m c (Proc.devRef .tc main_arg4) := StableHlo.after_of_writes_sub (r := main_arg4) hostOps2 _ hostOps2_writes (by decide)
    _ = W1 D0 m c (Proc.devRef .tc main_arg4) := W2_of_ne D0 D1 m c main_arg4 (by decide)
    _ = W0 m c (Proc.devRef .tc main_arg4) := W1_of_ne D0 m c main_arg4 (by decide)
    _ = m ((c : Thread nD τ).loc main_arg4) := rfl
include h0 h1 h2 h3 h4 in
/-- `main_arg5` reaches the end as launched. -/
theorem V7_main_arg5 (c : Dev nD) : V7 D0 D1 D2 D3 D4 m c main_arg5 = m ((c : Thread nD τ).loc main_arg5) :=
  calc W7 D0 D1 D2 D3 D4 m c (Proc.devRef .tc main_arg5)
    _ = W6 D0 D1 D2 D3 m c (Proc.devRef .tc main_arg5) := W7_of_ne D0 D1 D2 D3 D4 m c main_arg5 (by decide)
    _ = W5 D0 D1 D2 D3 m c (Proc.devRef .tc main_arg5) := StableHlo.after_of_writes_sub (r := main_arg5) hostOps4 _ hostOps4_writes (by decide)
    _ = W4 D0 D1 D2 m c (Proc.devRef .tc main_arg5) := W5_of_ne D0 D1 D2 D3 m c main_arg5 (by decide)
    _ = W3 D0 D1 m c (Proc.devRef .tc main_arg5) := W4_of_ne D0 D1 D2 m c main_arg5 (by decide)
    _ = W2 D0 D1 m c (Proc.devRef .tc main_arg5) := StableHlo.after_of_writes_sub (r := main_arg5) hostOps2 _ hostOps2_writes (by decide)
    _ = W1 D0 m c (Proc.devRef .tc main_arg5) := W2_of_ne D0 D1 m c main_arg5 (by decide)
    _ = W0 m c (Proc.devRef .tc main_arg5) := W1_of_ne D0 m c main_arg5 (by decide)
    _ = m ((c : Thread nD τ).loc main_arg5) := rfl

/-! ### What each region finds in the arrays it reads, and the result -/

include h0 h1 h2 h3 h4 in
/-- Region 1 reads `main_arg0` as launched. -/
theorem V1_main_arg0 (c : Dev nD) : V1 D0 m c main_arg0 = m ((c : Thread nD τ).loc main_arg0) :=
  calc W1 D0 m c (Proc.devRef .tc main_arg0)
    _ = W0 m c (Proc.devRef .tc main_arg0) := W1_of_ne D0 m c main_arg0 (by decide)
    _ = m ((c : Thread nD τ).loc main_arg0) := rfl
include h0 h1 h2 h3 h4 in
/-- Region 1 reads `main_arg2` as launched. -/
theorem V1_main_arg2 (c : Dev nD) : V1 D0 m c main_arg2 = m ((c : Thread nD τ).loc main_arg2) :=
  calc W1 D0 m c (Proc.devRef .tc main_arg2)
    _ = W0 m c (Proc.devRef .tc main_arg2) := W1_of_ne D0 m c main_arg2 (by decide)
    _ = m ((c : Thread nD τ).loc main_arg2) := rfl
/-- Region 0 leaves its first output in `main_v0_0`, -/
theorem V1_main_v0_0 (c : Dev nD) : V1 D0 m c main_v0_0 = (D0 (V0 m) c).arrAt 1 cfg0.N := W1_arr D0 m c 1
/-- and its second in `main_v0_1`. -/
theorem V1_main_v0_1 (c : Dev nD) : V1 D0 m c main_v0_1 = (D0 (V0 m) c).arrAt 2 cfg0.N := W1_arr D0 m c 2
/-- Region 1 leaves its output in `main_v1`. -/
theorem V2_main_v1 (c : Dev nD) : V2 D0 D1 m c main_v1 = (D1 (V1 D0 m) c).arrAt 3 cfg1.N := W2_arr D0 D1 m c 3
include h0 h1 h2 h3 h4 in
/-- Region 2 reads `main_v0_1` as region 0 left it. -/
theorem V3_main_v0_1 (c : Dev nD) : V3 D0 D1 m c main_v0_1 = (D0 (V0 m) c).arrAt 2 cfg0.N :=
  calc W3 D0 D1 m c (Proc.devRef .tc main_v0_1)
    _ = W2 D0 D1 m c (Proc.devRef .tc main_v0_1) := StableHlo.after_of_writes_sub (r := main_v0_1) hostOps2 _ hostOps2_writes (by decide)
    _ = W1 D0 m c (Proc.devRef .tc main_v0_1) := W2_of_ne D0 D1 m c main_v0_1 (by decide)
    _ = (D0 (V0 m) c).arrAt 2 cfg0.N := W1_arr D0 m c 2
include h0 h1 h2 h3 h4 in
/-- Region 2 reads `main_v1` as region 1 left it. -/
theorem V3_main_v1 (c : Dev nD) : V3 D0 D1 m c main_v1 = (D1 (V1 D0 m) c).arrAt 3 cfg1.N :=
  calc W3 D0 D1 m c (Proc.devRef .tc main_v1)
    _ = W2 D0 D1 m c (Proc.devRef .tc main_v1) := StableHlo.after_of_writes_sub (r := main_v1) hostOps2 _ hostOps2_writes (by decide)
    _ = (D1 (V1 D0 m) c).arrAt 3 cfg1.N := W2_arr D0 D1 m c 3
include h0 h1 h2 h3 h4 in
/-- Region 2 reads `main_v0_0` as region 0 left it. -/
theorem V3_main_v0_0 (c : Dev nD) : V3 D0 D1 m c main_v0_0 = (D0 (V0 m) c).arrAt 1 cfg0.N :=
  calc W3 D0 D1 m c (Proc.devRef .tc main_v0_0)
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
include h0 h1 h2 h3 h4 in
/-- The first host stretch reads `main_arg3` as launched. -/
theorem V2_main_arg3 (c : Dev nD) : V2 D0 D1 m c main_arg3 = m ((c : Thread nD τ).loc main_arg3) :=
  calc W2 D0 D1 m c (Proc.devRef .tc main_arg3)
    _ = W1 D0 m c (Proc.devRef .tc main_arg3) := W2_of_ne D0 D1 m c main_arg3 (by decide)
    _ = W0 m c (Proc.devRef .tc main_arg3) := W1_of_ne D0 m c main_arg3 (by decide)
    _ = m ((c : Thread nD τ).loc main_arg3) := rfl
include h0 h1 h2 h3 h4 in
/-- Region 2 reads in `main_v2` the first bias, `main_arg3` as launched, recast to one row. -/
theorem V3_main_v2 (c : Dev nD) :
    (V3 D0 D1 m c main_v2 : S1x512.Idx → Elt F .f32) = shapeCast S1x512 (m ((c : Thread nD τ).loc main_arg3) : S512.Idx → Elt F .f32) shapeCasts_S512_S1x512 := by
  rw [← V2_main_arg3 D0 D1 D2 D3 D4 m h0 h1 h2 h3 h4 c]
  show StableHlo.after hostOps2 (W2 D0 D1 m c) (Proc.devRef .tc main_v2) = _
  after_results
  rfl
/-- Region 2 leaves its output in `main_v3`. -/
theorem V4_main_v3 (c : Dev nD) : V4 D0 D1 D2 m c main_v3 = (D2 (V3 D0 D1 m) c).arrAt 4 cfg2.N := W4_arr D0 D1 D2 m c 4
include h0 h1 h2 h3 h4 in
/-- Region 3 reads `main_arg4` as launched. -/
theorem V4_main_arg4 (c : Dev nD) : V4 D0 D1 D2 m c main_arg4 = m ((c : Thread nD τ).loc main_arg4) :=
  calc W4 D0 D1 D2 m c (Proc.devRef .tc main_arg4)
    _ = W3 D0 D1 m c (Proc.devRef .tc main_arg4) := W4_of_ne D0 D1 D2 m c main_arg4 (by decide)
    _ = W2 D0 D1 m c (Proc.devRef .tc main_arg4) := StableHlo.after_of_writes_sub (r := main_arg4) hostOps2 _ hostOps2_writes (by decide)
    _ = W1 D0 m c (Proc.devRef .tc main_arg4) := W2_of_ne D0 D1 m c main_arg4 (by decide)
    _ = W0 m c (Proc.devRef .tc main_arg4) := W1_of_ne D0 m c main_arg4 (by decide)
    _ = m ((c : Thread nD τ).loc main_arg4) := rfl
include h0 h1 h2 h3 h4 in
/-- Region 3 reads `main_v0_0` as region 0 left it. -/
theorem V4_main_v0_0 (c : Dev nD) : V4 D0 D1 D2 m c main_v0_0 = (D0 (V0 m) c).arrAt 1 cfg0.N :=
  calc W4 D0 D1 D2 m c (Proc.devRef .tc main_v0_0)
    _ = W3 D0 D1 m c (Proc.devRef .tc main_v0_0) := W4_in D0 D1 D2 m h2 c 2 rfl
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
/-- Region 3 leaves its output in `main_v4`. -/
theorem V5_main_v4 (c : Dev nD) : V5 D0 D1 D2 D3 m c main_v4 = (D3 (V4 D0 D1 D2 m) c).arrAt 3 cfg3.N := W5_arr D0 D1 D2 D3 m c 3
include h0 h1 h2 h3 h4 in
/-- Region 4 reads `main_v0_1` as region 0 left it. -/
theorem V6_main_v0_1 (c : Dev nD) : V6 D0 D1 D2 D3 m c main_v0_1 = (D0 (V0 m) c).arrAt 2 cfg0.N :=
  calc W6 D0 D1 D2 D3 m c (Proc.devRef .tc main_v0_1)
    _ = W5 D0 D1 D2 D3 m c (Proc.devRef .tc main_v0_1) := StableHlo.after_of_writes_sub (r := main_v0_1) hostOps4 _ hostOps4_writes (by decide)
    _ = W4 D0 D1 D2 m c (Proc.devRef .tc main_v0_1) := W5_of_ne D0 D1 D2 D3 m c main_v0_1 (by decide)
    _ = W3 D0 D1 m c (Proc.devRef .tc main_v0_1) := W4_in D0 D1 D2 m h2 c 0 rfl
    _ = W2 D0 D1 m c (Proc.devRef .tc main_v0_1) := StableHlo.after_of_writes_sub (r := main_v0_1) hostOps2 _ hostOps2_writes (by decide)
    _ = W1 D0 m c (Proc.devRef .tc main_v0_1) := W2_of_ne D0 D1 m c main_v0_1 (by decide)
    _ = (D0 (V0 m) c).arrAt 2 cfg0.N := W1_arr D0 m c 2
include h0 h1 h2 h3 h4 in
/-- Region 4 reads `main_v4` as region 3 left it. -/
theorem V6_main_v4 (c : Dev nD) : V6 D0 D1 D2 D3 m c main_v4 = (D3 (V4 D0 D1 D2 m) c).arrAt 3 cfg3.N :=
  calc W6 D0 D1 D2 D3 m c (Proc.devRef .tc main_v4)
    _ = W5 D0 D1 D2 D3 m c (Proc.devRef .tc main_v4) := StableHlo.after_of_writes_sub (r := main_v4) hostOps4 _ hostOps4_writes (by decide)
    _ = (D3 (V4 D0 D1 D2 m) c).arrAt 3 cfg3.N := W5_arr D0 D1 D2 D3 m c 3
include h0 h1 h2 h3 h4 in
/-- Region 4 reads `main_v0_0` as region 0 left it. -/
theorem V6_main_v0_0 (c : Dev nD) : V6 D0 D1 D2 D3 m c main_v0_0 = (D0 (V0 m) c).arrAt 1 cfg0.N :=
  calc W6 D0 D1 D2 D3 m c (Proc.devRef .tc main_v0_0)
    _ = W5 D0 D1 D2 D3 m c (Proc.devRef .tc main_v0_0) := StableHlo.after_of_writes_sub (r := main_v0_0) hostOps4 _ hostOps4_writes (by decide)
    _ = W4 D0 D1 D2 m c (Proc.devRef .tc main_v0_0) := W5_in D0 D1 D2 D3 m h3 c 2 rfl
    _ = W3 D0 D1 m c (Proc.devRef .tc main_v0_0) := W4_in D0 D1 D2 m h2 c 2 rfl
    _ = W2 D0 D1 m c (Proc.devRef .tc main_v0_0) := StableHlo.after_of_writes_sub (r := main_v0_0) hostOps2 _ hostOps2_writes (by decide)
    _ = W1 D0 m c (Proc.devRef .tc main_v0_0) := W2_in D0 D1 m h1 c 2 rfl
    _ = (D0 (V0 m) c).arrAt 1 cfg0.N := W1_arr D0 m c 1
include h0 h1 h2 h3 h4 in
/-- The second host stretch reads `main_arg5` as launched. -/
theorem V5_main_arg5 (c : Dev nD) : V5 D0 D1 D2 D3 m c main_arg5 = m ((c : Thread nD τ).loc main_arg5) :=
  calc W5 D0 D1 D2 D3 m c (Proc.devRef .tc main_arg5)
    _ = W4 D0 D1 D2 m c (Proc.devRef .tc main_arg5) := W5_of_ne D0 D1 D2 D3 m c main_arg5 (by decide)
    _ = W3 D0 D1 m c (Proc.devRef .tc main_arg5) := W4_of_ne D0 D1 D2 m c main_arg5 (by decide)
    _ = W2 D0 D1 m c (Proc.devRef .tc main_arg5) := StableHlo.after_of_writes_sub (r := main_arg5) hostOps2 _ hostOps2_writes (by decide)
    _ = W1 D0 m c (Proc.devRef .tc main_arg5) := W2_of_ne D0 D1 m c main_arg5 (by decide)
    _ = W0 m c (Proc.devRef .tc main_arg5) := W1_of_ne D0 m c main_arg5 (by decide)
    _ = m ((c : Thread nD τ).loc main_arg5) := rfl
include h0 h1 h2 h3 h4 in
/-- Region 4 reads in `main_v5` the second bias, `main_arg5` as launched, recast to one row. -/
theorem V6_main_v5 (c : Dev nD) :
    (V6 D0 D1 D2 D3 m c main_v5 : S1x512.Idx → Elt F .f32) = shapeCast S1x512 (m ((c : Thread nD τ).loc main_arg5) : S512.Idx → Elt F .f32) shapeCasts_S512_S1x512 := by
  rw [← V5_main_arg5 D0 D1 D2 D3 D4 m h0 h1 h2 h3 h4 c]
  show StableHlo.after hostOps4 (W5 D0 D1 D2 D3 m c) (Proc.devRef .tc main_v5) = _
  after_results
  rfl
/-- The result: region 4 leaves its output in `main_v6`. -/
theorem V7_main_v6 (c : Dev nD) : V7 D0 D1 D2 D3 D4 m c main_v6 = (D4 (V6 D0 D1 D2 D3 m) c).arrAt 4 cfg4.N := W7_arr D0 D1 D2 D3 D4 m c 4

/-! ## The proof data family and the thread state -/

/-- Every region's proof data, each at its entry contents. -/
def pdats : (p : Fin 5) → (c : Dev nD) → Dat τ (Elt F) Unit ℕ (UR sig nD τ) ℕ (Pipeline.pin (pcfgs (F := F)) adm p) c
  | ⟨0, _⟩ => fun c => D0 (V0 m) c
  | ⟨1, _⟩ => fun c => D1 (V1 D0 m) c
  | ⟨2, _⟩ => fun c => D2 (V3 D0 D1 m) c
  | ⟨3, _⟩ => fun c => D3 (V4 D0 D1 D2 m) c
  | ⟨4, _⟩ => fun c => D4 (V6 D0 D1 D2 D3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A host stretch as a segment: the operations run over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register at some state. -/
abbrev Tₙ (c : Dev nD) : sProp 𝕄 :=
  iprop(StableHlo.held (c : Thread nD τ) (Pipeline.ucRefs τ sig) (W7 D0 D1 D2 D3 D4 m c) ∗ ∃ r, prngReg c r)

/-! ## The regions as segments -/

-- A region takes over the core's dues together with the pairs its earlier waits have recorded, a set the regions
-- before it have grown and nobody names: so at its first point each region's bound on that set must allow every pair.
variable (hrec0 : ∀ (V : Entry F) (c : Dev nD), (D0 V c).recorded 0 = Set.univ) (hrec1 : ∀ (V : Entry F) (c : Dev nD), (D1 V c).recorded 0 = Set.univ)
  (hrec2 : ∀ (V : Entry F) (c : Dev nD), (D2 V c).recorded 0 = Set.univ) (hrec3 : ∀ (V : Entry F) (c : Dev nD), (D3 V c).recorded 0 = Set.univ)
  (hrec4 : ∀ (V : Entry F) (c : Dev nD), (D4 V c).recorded 0 = Set.univ)

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers at entry and put back at exit at what the write-backs leave; the generator
    register and the scoped buffers no window stages enter the region's invariant and come back; nothing is owed. -/
def reg0 : Pipeline.RegionSeg (pcfgs (F := F)) adm (pdats D0 D1 D2 D3 D4 m) () defs₀ 𝒱₀ L lv 0 where
  win := launch0.win.to₀
  block_pos := launch0.block_pos
  stage_whole := launch0.stage_whole
  K := PEmpty
  osem k := k.elim
  ho := Pipeline.OwnSemFacts.none _
  hbody c := (h0.body (V0 m) c).loose
  hwaits := Pipeline.hwaits_of_owed_zero _ _ _ _ L lv 0 fun c t => h0.owed (V0 m) c t
  pre c := iprop(StableHlo.held (c : Thread nD τ) (Pipeline.ucRefs τ sig) (W0 m c) ∗ R c)
  post c := iprop(StableHlo.held (c : Thread nD τ) (Pipeline.ucRefs τ sig) (W1 D0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    have hO : (pdats D0 D1 D2 D3 D4 m 0 c).owed 0 = 0 := h0.owed (V0 m) c 0
    have hR : (pdats D0 D1 D2 D3 D4 m 0 c).recorded 0 = Set.univ := hrec0 (V0 m) c
    rw [Pipeline.ownSems0_none]
    have hsplit := Pipeline.arrays_of_unscopedBufs (p := 0) (pcfgs (F := F)) adm (pdats D0 D1 D2 D3 D4 m) launch0.win launch0.arr_whole c
      ((pdats D0 D1 D2 D3 D4 m 0 c).share_full fun w => h0.q (V0 m) c w) (V0 m c) fun w => h0.A (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h0.Φin (V0 m) c)
    iintro ⟨Hp, -, Hr⟩
    isplitl [Hp]; · iexact Hp
    iexact Hr
  hout c := by
    rw [Pipeline.ownSems0_none]
    refine BIBase.Entails.trans (h0.Φout (V0 m) c) ?_
    iintro ⟨Hp, Hr⟩
    isplitl [Hp]; · iexact Hp
    isplitr; · iempintro
    iexact Hr
  hexit c := by
    have hO : (pdats D0 D1 D2 D3 D4 m 0 c).owed (Fin.last (Pipeline.pin (pcfgs (F := F)) adm 0).N) = 0 := h0.owed (V0 m) c (Fin.last _)
    have hjoin := Pipeline.unscopedBufs_of_arrays (p := 0) (pcfgs (F := F)) adm (Ix := Unit) (Name := ℕ) (U := UR sig nD τ) (Lvl := ℕ)
      launch0.win launch0.arr_whole c (pdats D0 D1 D2 D3 D4 m) ((pdats D0 D1 D2 D3 D4 m 0 c).share_full fun w => h0.q (V0 m) c w)
      (V0 m c) (V1 D0 m c) ((pdats D0 D1 D2 D3 D4 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W1`, left at `W2`. Its arrays are
    split out of the unscoped buffers at entry and put back at exit at what the write-backs leave; the generator
    register and the scoped buffers no window stages enter the region's invariant and come back; nothing is owed. -/
def reg1 : Pipeline.RegionSeg (pcfgs (F := F)) adm (pdats D0 D1 D2 D3 D4 m) () defs₀ 𝒱₀ L lv 1 where
  win := launch1.win.to₀
  block_pos := launch1.block_pos
  stage_whole := launch1.stage_whole
  K := PEmpty
  osem k := k.elim
  ho := Pipeline.OwnSemFacts.none _
  hbody c := (h1.body (V1 D0 m) c).loose
  hwaits := Pipeline.hwaits_of_owed_zero _ _ _ _ L lv 1 fun c t => h1.owed (V1 D0 m) c t
  pre c := iprop(StableHlo.held (c : Thread nD τ) (Pipeline.ucRefs τ sig) (W1 D0 m c) ∗ R c)
  post c := iprop(StableHlo.held (c : Thread nD τ) (Pipeline.ucRefs τ sig) (W2 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V1 D0 m c)
  hentry c := by
    have hO : (pdats D0 D1 D2 D3 D4 m 1 c).owed 0 = 0 := h1.owed (V1 D0 m) c 0
    have hR : (pdats D0 D1 D2 D3 D4 m 1 c).recorded 0 = Set.univ := hrec1 (V1 D0 m) c
    rw [Pipeline.ownSems0_none]
    have hsplit := Pipeline.arrays_of_unscopedBufs (p := 1) (pcfgs (F := F)) adm (pdats D0 D1 D2 D3 D4 m) launch1.win launch1.arr_whole c
      ((pdats D0 D1 D2 D3 D4 m 1 c).share_full fun w => h1.q (V1 D0 m) c w) (V1 D0 m c) fun w => h1.A (V1 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h1.Φin (V1 D0 m) c)
    iintro ⟨Hp, -, Hr⟩
    isplitl [Hp]; · iexact Hp
    iexact Hr
  hout c := by
    rw [Pipeline.ownSems0_none]
    refine BIBase.Entails.trans (h1.Φout (V1 D0 m) c) ?_
    iintro ⟨Hp, Hr⟩
    isplitl [Hp]; · iexact Hp
    isplitr; · iempintro
    iexact Hr
  hexit c := by
    have hO : (pdats D0 D1 D2 D3 D4 m 1 c).owed (Fin.last (Pipeline.pin (pcfgs (F := F)) adm 1).N) = 0 := h1.owed (V1 D0 m) c (Fin.last _)
    have hjoin := Pipeline.unscopedBufs_of_arrays (p := 1) (pcfgs (F := F)) adm (Ix := Unit) (Name := ℕ) (U := UR sig nD τ) (Lvl := ℕ)
      launch1.win launch1.arr_whole c (pdats D0 D1 D2 D3 D4 m) ((pdats D0 D1 D2 D3 D4 m 1 c).share_full fun w => h1.q (V1 D0 m) c w)
      (V1 D0 m c) (V2 D0 D1 m c) ((pdats D0 D1 D2 D3 D4 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W3`, left at `W4`. Its arrays are
    split out of the unscoped buffers at entry and put back at exit at what the write-backs leave; the generator
    register and the scoped buffers no window stages enter the region's invariant and come back; nothing is owed. -/
def reg2 : Pipeline.RegionSeg (pcfgs (F := F)) adm (pdats D0 D1 D2 D3 D4 m) () defs₀ 𝒱₀ L lv 2 where
  win := launch2.win.to₀
  block_pos := launch2.block_pos
  stage_whole := launch2.stage_whole
  K := PEmpty
  osem k := k.elim
  ho := Pipeline.OwnSemFacts.none _
  hbody c := (h2.body (V3 D0 D1 m) c).loose
  hwaits := Pipeline.hwaits_of_owed_zero _ _ _ _ L lv 2 fun c t => h2.owed (V3 D0 D1 m) c t
  pre c := iprop(StableHlo.held (c : Thread nD τ) (Pipeline.ucRefs τ sig) (W3 D0 D1 m c) ∗ R c)
  post c := iprop(StableHlo.held (c : Thread nD τ) (Pipeline.ucRefs τ sig) (W4 D0 D1 D2 m c) ∗ R c)
  X c := iprop(∃ r, prngReg c r)
  Y c := iprop(∃ r, prngReg c r)
  Z c := Pipeline.unscopedRest (Ix := Unit) (Name := ℕ) (U := UR sig nD τ) (Lvl := ℕ) spec2 c (V3 D0 D1 m c)
  hentry c := by
    have hO : (pdats D0 D1 D2 D3 D4 m 2 c).owed 0 = 0 := h2.owed (V3 D0 D1 m) c 0
    have hR : (pdats D0 D1 D2 D3 D4 m 2 c).recorded 0 = Set.univ := hrec2 (V3 D0 D1 m) c
    rw [Pipeline.ownSems0_none]
    have hsplit := Pipeline.arrays_of_unscopedBufs (p := 2) (pcfgs (F := F)) adm (pdats D0 D1 D2 D3 D4 m) launch2.win launch2.arr_whole c
      ((pdats D0 D1 D2 D3 D4 m 2 c).share_full fun w => h2.q (V3 D0 D1 m) c w) (V3 D0 D1 m c) fun w => h2.A (V3 D0 D1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h2.Φin (V3 D0 D1 m) c)
    iintro ⟨Hp, -, Hr⟩
    isplitl [Hp]; · iexact Hp
    iexact Hr
  hout c := by
    rw [Pipeline.ownSems0_none]
    refine BIBase.Entails.trans (h2.Φout (V3 D0 D1 m) c) ?_
    iintro ⟨Hp, Hr⟩
    isplitl [Hp]; · iexact Hp
    isplitr; · iempintro
    iexact Hr
  hexit c := by
    have hO : (pdats D0 D1 D2 D3 D4 m 2 c).owed (Fin.last (Pipeline.pin (pcfgs (F := F)) adm 2).N) = 0 := h2.owed (V3 D0 D1 m) c (Fin.last _)
    have hjoin := Pipeline.unscopedBufs_of_arrays (p := 2) (pcfgs (F := F)) adm (Ix := Unit) (Name := ℕ) (U := UR sig nD τ) (Lvl := ℕ)
      launch2.win launch2.arr_whole c (pdats D0 D1 D2 D3 D4 m) ((pdats D0 D1 D2 D3 D4 m 2 c).share_full fun w => h2.q (V3 D0 D1 m) c w)
      (V3 D0 D1 m c) (V4 D0 D1 D2 m c) ((pdats D0 D1 D2 D3 D4 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W4`, left at `W5`. Its arrays are
    split out of the unscoped buffers at entry and put back at exit at what the write-backs leave; the generator
    register and the scoped buffers no window stages enter the region's invariant and come back; nothing is owed. -/
def reg3 : Pipeline.RegionSeg (pcfgs (F := F)) adm (pdats D0 D1 D2 D3 D4 m) () defs₀ 𝒱₀ L lv 3 where
  win := launch3.win.to₀
  block_pos := launch3.block_pos
  stage_whole := launch3.stage_whole
  K := PEmpty
  osem k := k.elim
  ho := Pipeline.OwnSemFacts.none _
  hbody c := (h3.body (V4 D0 D1 D2 m) c).loose
  hwaits := Pipeline.hwaits_of_owed_zero _ _ _ _ L lv 3 fun c t => h3.owed (V4 D0 D1 D2 m) c t
  pre c := iprop(StableHlo.held (c : Thread nD τ) (Pipeline.ucRefs τ sig) (W4 D0 D1 D2 m c) ∗ R c)
  post c := iprop(StableHlo.held (c : Thread nD τ) (Pipeline.ucRefs τ sig) (W5 D0 D1 D2 D3 m c) ∗ R c)
  X c := iprop(∃ r, prngReg c r)
  Y c := iprop(∃ r, prngReg c r)
  Z c := Pipeline.unscopedRest (Ix := Unit) (Name := ℕ) (U := UR sig nD τ) (Lvl := ℕ) spec3 c (V4 D0 D1 D2 m c)
  hentry c := by
    have hO : (pdats D0 D1 D2 D3 D4 m 3 c).owed 0 = 0 := h3.owed (V4 D0 D1 D2 m) c 0
    have hR : (pdats D0 D1 D2 D3 D4 m 3 c).recorded 0 = Set.univ := hrec3 (V4 D0 D1 D2 m) c
    rw [Pipeline.ownSems0_none]
    have hsplit := Pipeline.arrays_of_unscopedBufs (p := 3) (pcfgs (F := F)) adm (pdats D0 D1 D2 D3 D4 m) launch3.win launch3.arr_whole c
      ((pdats D0 D1 D2 D3 D4 m 3 c).share_full fun w => h3.q (V4 D0 D1 D2 m) c w) (V4 D0 D1 D2 m c) fun w => h3.A (V4 D0 D1 D2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h3.Φin (V4 D0 D1 D2 m) c)
    iintro ⟨Hp, -, Hr⟩
    isplitl [Hp]; · iexact Hp
    iexact Hr
  hout c := by
    rw [Pipeline.ownSems0_none]
    refine BIBase.Entails.trans (h3.Φout (V4 D0 D1 D2 m) c) ?_
    iintro ⟨Hp, Hr⟩
    isplitl [Hp]; · iexact Hp
    isplitr; · iempintro
    iexact Hr
  hexit c := by
    have hO : (pdats D0 D1 D2 D3 D4 m 3 c).owed (Fin.last (Pipeline.pin (pcfgs (F := F)) adm 3).N) = 0 := h3.owed (V4 D0 D1 D2 m) c (Fin.last _)
    have hjoin := Pipeline.unscopedBufs_of_arrays (p := 3) (pcfgs (F := F)) adm (Ix := Unit) (Name := ℕ) (U := UR sig nD τ) (Lvl := ℕ)
      launch3.win launch3.arr_whole c (pdats D0 D1 D2 D3 D4 m) ((pdats D0 D1 D2 D3 D4 m 3 c).share_full fun w => h3.q (V4 D0 D1 D2 m) c w)
      (V4 D0 D1 D2 m c) (V5 D0 D1 D2 D3 m c) ((pdats D0 D1 D2 D3 D4 m 3 c).arrAt · cfg3.N) (hF3 D0 D1 D2 D3 m c) (hrest3 D0 D1 D2 D3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at `W6`, left at `W7`. Its arrays are
    split out of the unscoped buffers at entry and put back at exit at what the write-backs leave; the generator
    register and the scoped buffers no window stages enter the region's invariant and come back; nothing is owed. -/
def reg4 : Pipeline.RegionSeg (pcfgs (F := F)) adm (pdats D0 D1 D2 D3 D4 m) () defs₀ 𝒱₀ L lv 4 where
  win := launch4.win.to₀
  block_pos := launch4.block_pos
  stage_whole := launch4.stage_whole
  K := PEmpty
  osem k := k.elim
  ho := Pipeline.OwnSemFacts.none _
  hbody c := (h4.body (V6 D0 D1 D2 D3 m) c).loose
  hwaits := Pipeline.hwaits_of_owed_zero _ _ _ _ L lv 4 fun c t => h4.owed (V6 D0 D1 D2 D3 m) c t
  pre c := iprop(StableHlo.held (c : Thread nD τ) (Pipeline.ucRefs τ sig) (W6 D0 D1 D2 D3 m c) ∗ R c)
  post c := iprop(Tₙ D0 D1 D2 D3 D4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 D0 D1 D2 D3 m c)
  hentry c := by
    have hO : (pdats D0 D1 D2 D3 D4 m 4 c).owed 0 = 0 := h4.owed (V6 D0 D1 D2 D3 m) c 0
    have hR : (pdats D0 D1 D2 D3 D4 m 4 c).recorded 0 = Set.univ := hrec4 (V6 D0 D1 D2 D3 m) c
    rw [Pipeline.ownSems0_none]
    have hsplit := Pipeline.arrays_of_unscopedBufs (p := 4) (pcfgs (F := F)) adm (pdats D0 D1 D2 D3 D4 m) launch4.win launch4.arr_whole c
      ((pdats D0 D1 D2 D3 D4 m 4 c).share_full fun w => h4.q (V6 D0 D1 D2 D3 m) c w) (V6 D0 D1 D2 D3 m c) fun w => h4.A (V6 D0 D1 D2 D3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact fun x _ => Or.inl (hR ▸ Set.mem_univ x)
      iexact HO
    isplitl [Hp]; · iexact Hp
    iexact Hrest
  hin c := by
    refine BIBase.Entails.trans ?_ (h4.Φin (V6 D0 D1 D2 D3 m) c)
    iintro ⟨Hp, -, Hr⟩
    isplitl [Hp]; · iexact Hp
    iexact Hr
  hout c := by
    rw [Pipeline.ownSems0_none]
    refine BIBase.Entails.trans (h4.Φout (V6 D0 D1 D2 D3 m) c) ?_
    iintro ⟨Hp, Hr⟩
    isplitl [Hp]; · iexact Hp
    isplitr; · iempintro
    iexact Hr
  hexit c := by
    have hO : (pdats D0 D1 D2 D3 D4 m 4 c).owed (Fin.last (Pipeline.pin (pcfgs (F := F)) adm 4).N) = 0 := h4.owed (V6 D0 D1 D2 D3 m) c (Fin.last _)
    have hjoin := Pipeline.unscopedBufs_of_arrays (p := 4) (pcfgs (F := F)) adm (Ix := Unit) (Name := ℕ) (U := UR sig nD τ) (Lvl := ℕ)
      launch4.win launch4.arr_whole c (pdats D0 D1 D2 D3 D4 m) ((pdats D0 D1 D2 D3 D4 m 4 c).share_full fun w => h4.q (V6 D0 D1 D2 D3 m) c w)
      (V6 D0 D1 D2 D3 m c) (V7 D0 D1 D2 D3 D4 m c) ((pdats D0 D1 D2 D3 D4 m 4 c).arrAt · cfg4.N) (hF4 D0 D1 D2 D3 D4 m c) (hrest4 D0 D1 D2 D3 D4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hO]
    icases HO with ⟨%W, -, HO⟩; iexists W; iexact HO

/-! ## The program as segments, and the launch -/

/-- The program's seven items in order: a region per kernel call, a host segment per stretch from its boundary's contents. -/
abbrev segs : List (Pipeline.Seg (pcfgs (F := F)) adm (pdats D0 D1 D2 D3 D4 m) () defs₀ 𝒱₀ L lv) :=
  [ .region (reg0 D0 D1 D2 D3 D4 m h0 hrec0),
    .region (reg1 D0 D1 D2 D3 D4 m h1 hrec1),
    .host (hseg hostOps2 hostOps2_sub hostOps2_fresh (W2 D0 D1 m)),
    .region (reg2 D0 D1 D2 D3 D4 m h2 hrec2),
    .region (reg3 D0 D1 D2 D3 D4 m h3 hrec3),
    .host (hseg hostOps4 hostOps4_sub hostOps4_fresh (W5 D0 D1 D2 D3 m)),
    .region (reg4 D0 D1 D2 D3 D4 m h4 hrec4) ]

/-- The program is the run of its segments. -/
theorem main_run (c : Dev nD) : main (F := F) c = Pipeline.Seg.run (segs D0 D1 D2 D3 D4 m h0 h1 h2 h3 h4 hrec0 hrec1 hrec2 hrec3 hrec4) :=
  main_segs adm (pdats D0 D1 D2 D3 D4 m) () 𝒱₀ L lv
    (hseg hostOps2 hostOps2_sub hostOps2_fresh (W2 D0 D1 m)) (hseg hostOps4 hostOps4_sub hostOps4_fresh (W5 D0 D1 D2 D3 m))
    (reg0 D0 D1 D2 D3 D4 m h0 hrec0) (reg1 D0 D1 D2 D3 D4 m h1 hrec1) (reg2 D0 D1 D2 D3 D4 m h2 hrec2) (reg3 D0 D1 D2 D3 D4 m h3 hrec3) (reg4 D0 D1 D2 D3 D4 m h4 hrec4) rfl rfl c

include h0 h1 h2 h3 h4 hrec0 hrec1 hrec2 hrec3 hrec4 in
-- the launch theorem's implicit arguments are found by unifying its conclusion with this one, which takes unfolding
-- plain definitions in a metavariable's type
set_option backward.isDefEq.respectTransparency.types false in
/-- THE RUN. At the compiled mesh, from any memory with zero counters, every weakly fair execution of the program on
    the TensorCores terminates, nothing faulting, and every final memory holds each unscoped buffer at the last
    valuation of the fold. -/
theorem run : θ_run defs (onTc (τ := τ) (main (F := F))) ⟨m, fun _ => 0, ρ⟩ (fun r => ∀ c : Dev nD, ∀ b ∈ Pipeline.ucRefs τ sig,
      r.2.mem (((c : Thread nD τ)).1, b) = W7 D0 D1 D2 D3 D4 m c b) :=
  Pipeline.θ_run_regions_kit (pcfgs (F := F)) adm (pdats D0 D1 D2 D3 D4 m) () cellOf_inj emb₁ defs₀ 𝒱₀ L lv m ρ main (segs D0 D1 D2 D3 D4 m h0 h1 h2 h3 h4 hrec0 hrec1 hrec2 hrec3 hrec4)
    (fun c Q => by rw [main_run D0 D1 D2 D3 D4 m h0 h1 h2 h3 h4 hrec0 hrec1 hrec2 hrec3 hrec4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1 D2 D3 D4 m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 D0 D1 D2 D3 D4 m c b)
    (hfin := fun c s' => by
      iintro ⟨⟨Hh, -⟩, HSI⟩
      unfold StableHlo.held
      imodintro
      iapply (pointsTo_read_all (Pipeline.ucRefs τ sig) (fun b => (((c : Thread nD τ)).1, b)) (W7 D0 D1 D2 D3 D4 m c) s')
      isplitl [Hh] <;> iassumption)
    (hQ := fun s h c => h c)

/-! ## The two readings of the run -/

include h0 h1 h2 h3 h4 hrec0 hrec1 hrec2 hrec3 hrec4 in
/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_arg0 (by decide))).trans (V7_main_arg0 D0 D1 D2 D3 D4 m h0 h1 h2 h3 h4 c),
        (h c _ (mem_uc main_arg1 (by decide))).trans (V7_main_arg1 D0 D1 D2 D3 D4 m h0 h1 h2 h3 h4 c),
        (h c _ (mem_uc main_arg2 (by decide))).trans (V7_main_arg2 D0 D1 D2 D3 D4 m h0 h1 h2 h3 h4 c),
        (h c _ (mem_uc main_arg3 (by decide))).trans (V7_main_arg3 D0 D1 D2 D3 D4 m h0 h1 h2 h3 h4 c),
        (h c _ (mem_uc main_arg4 (by decide))).trans (V7_main_arg4 D0 D1 D2 D3 D4 m h0 h1 h2 h3 h4 c),
        (h c _ (mem_uc main_arg5 (by decide))).trans (V7_main_arg5 D0 D1 D2 D3 D4 m h0 h1 h2 h3 h4 c)⟩)
    (run D0 D1 D2 D3 D4 m ρ h0 h1 h2 h3 h4 hrec0 hrec1 hrec2 hrec3 hrec4)

include h0 h1 h2 h3 h4 hrec0 hrec1 hrec2 hrec3 hrec4 in
/-- THE VALUE: the program runs, its result array ends at what the last region's write-backs leave, and every
    argument array ends as launched. -/
theorem run_value : θ_run defs (onTc (τ := τ) (main (F := F))) ⟨m, fun _ => 0, ρ⟩ (fun r => ∀ c : Dev nD,
      r.2.mem ((c.tc : Thread nD τ).loc main_v6) = (D4 (V6 D0 D1 D2 D3 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v6 (by decide))).trans (V7_main_v6 D0 D1 D2 D3 D4 m c),
        (h c _ (mem_uc main_arg0 (by decide))).trans (V7_main_arg0 D0 D1 D2 D3 D4 m h0 h1 h2 h3 h4 c),
        (h c _ (mem_uc main_arg1 (by decide))).trans (V7_main_arg1 D0 D1 D2 D3 D4 m h0 h1 h2 h3 h4 c),
        (h c _ (mem_uc main_arg2 (by decide))).trans (V7_main_arg2 D0 D1 D2 D3 D4 m h0 h1 h2 h3 h4 c),
        (h c _ (mem_uc main_arg3 (by decide))).trans (V7_main_arg3 D0 D1 D2 D3 D4 m h0 h1 h2 h3 h4 c),
        (h c _ (mem_uc main_arg4 (by decide))).trans (V7_main_arg4 D0 D1 D2 D3 D4 m h0 h1 h2 h3 h4 c),
        (h c _ (mem_uc main_arg5 (by decide))).trans (V7_main_arg5 D0 D1 D2 D3 D4 m h0 h1 h2 h3 h4 c)⟩)
    (run D0 D1 D2 D3 D4 m ρ h0 h1 h2 h3 h4 hrec0 hrec1 hrec2 hrec3 hrec4)

end Cert.Kernel.Hand

end
-- ==== Proof.WDegreeRegion.lean ====
/-
  Region 0, the degree kernel, on its grid of 32 row blocks: from a 256 x 8192 block of the adjacency matrix the
  body stores the column of reciprocal square roots of the block's row sums and a half-precision copy of the
  block. This module states what the body leaves in its two output buffers as closed functions of the input
  block, proves the body's triple at every grid point, and packs the region's proof data and its facts.
-/
import proofs.«171514_j71725953843990_2_alg».proof.Proof.WRegionFacts
import proofs.«171514_j71725953843990_2_alg».proof.Proof.Gen.Kernel.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place: fetched there it is the block by definition, and
    not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

/-- The whole 256 x 8192 block (the load of the input, the store of the copy). -/
abbrev r0_0 : Rect S256x8192 := Rect.unit (s := S256x8192) ![0, 0] S256x8192.size inb_S256x8192_S256x8192_0_0
/-- The whole 256 x 1 column (the store of the scalings). -/
abbrev r0_1 : Rect S256x1 := Rect.unit (s := S256x1) ![0, 0] S256x1.size inb_S256x1_S256x1_0_0

/-! ## What the body leaves in each output buffer -/

/-- The column buffer after the body: its one store, the reciprocal square roots of the row sums of the block. -/
def out0_1 (x0 : Vec F S256x8192 .f32) : Vec F S256x1 .f32 :=
  View.canon [⟨r0_1, k0_pay1 (View.ld x0 r0_0)⟩]

/-- The copy buffer after the body: its one store, the block rounded to half precision. -/
def out0_2 (x0 : Vec F S256x8192 .f32) : Vec F S256x8192 .bf16 :=
  View.canon [⟨r0_0, k0_pay2 (View.ld x0 r0_0)⟩]

/-- The one store of the column covers its buffer. -/
theorem cover0_1 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-- The one store of the copy covers its buffer. -/
theorem cover0_2 (p0 : Vec F S256x8192 .bf16) (y : S256x8192.Idx) :
    ∃ pc ∈ ([⟨r0_0, p0⟩] : List (View.Piece (Elt F) S256x8192 .bf16)), y ∈ pc.1.set :=
  View.cover_of_tiled [⟨r0_0, p0⟩] S256x8192.size (by rfl) y

/-! ## The body's triple -/

set_option maxHeartbeats 1000000 in
/-- The body on whole staging memrefs, the input's at read contents `x0` and the outputs' at anything, runs to the
    continuation holding the input's as it was and each output's at `out0_W x0`: the loads read `x0` and what the
    outputs happened to hold (unused), and each store overwrites the whole of its buffer. -/
theorem sound_kernel0 (c : Dev nD) (E : Set ℕ) (i : grid0.Coords)
    (arg1 : Memref sig .tc .vmem S256x8192 .f32) (harg1 : arg1.IsWhole) (arg2 : Memref sig .tc .vmem S256x1 .f32) (harg2 : arg2.IsWhole)
    (arg3 : Memref sig .tc .vmem S256x8192 .bf16) (harg3 : arg3.IsWhole)
    (x0 : Vec F S256x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- The proof data of the region on core `c`: the arrays as the region finds them; after the body at point `t` the
    input's buffer at its block and each output's at `out0_W` of that block; the invariant the core's other scoped
    buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The region's half -/

/-- Region 0's facts: its arrays are the entry contents, held whole, nothing owed; its invariant is entered from
    the generator register and the scoped buffers no window stages, and gives them back; the body's triple holds
    at every point. -/
theorem half0 : Half cfg0 (dat0 (F := F)) where
  A V c w := A_eq0 V c w
  q _ _ _ := rfl
  owed _ _ _ := rfl
  Φin V c := by
    rw [show (dat0 V c).Φ 0 = Pipeline.ΦA spec0 c from rfl]; unfold Pipeline.ΦA
    iintro ⟨Hp, Hr⟩
    isplitl [Hr]; · iexact Hr
    iexact Hp
  Φout V c := by
    rw [show (dat0 V c).Φ (Fin.last _) = Pipeline.ΦA spec0 c from rfl]; unfold Pipeline.ΦA
    iintro ⟨Hr, Hp⟩
    isplitl [Hp]; · iexact Hp
    iexact Hr
  body V c := body_obligation0 V c

end Cert.Kernel.Hand

end
-- ==== Proof.WSupportRegion1.lean ====
/-
  Region 1, a scaled matrix product, on its grid of 8 row blocks: from a 1024 x 512 block of the features, the
  whole 512 x 512 weight matrix and the 1024 x 1 block of the scaling column, the body stores the product of
  the two matrices with every row multiplied by its scaling, rounded to half precision. This module states what
  the body leaves in its output buffer as a closed function of the three input blocks, proves the body's triple
  at every grid point, and packs the region's proof data and its facts.
-/
import proofs.«171514_j71725953843990_2_alg».proof.Proof.WRegionFacts
import proofs.«171514_j71725953843990_2_alg».proof.Proof.Gen.Kernel.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    the entry contents and whose body leaves the block in place: fetched there it is the block by definition, and
    not fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of the weight window, whose one block is the whole matrix: it is fetched at the first point only, and
    at every later point its block index is the one it had before, so the buffer still holds that block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of the scaling column's window, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

/-- The whole 1024 x 512 block (the load of the features, the store of the result). -/
abbrev r1_0 : Rect S1024x512 := Rect.unit (s := S1024x512) ![0, 0] S1024x512.size inb_S1024x512_S1024x512_0_0
/-- The whole 512 x 512 weight matrix. -/
abbrev r1_1 : Rect S512x512 := Rect.unit (s := S512x512) ![0, 0] S512x512.size inb_S512x512_S512x512_0_0
/-- The whole 1024 x 1 scaling column. -/
abbrev r1_2 : Rect S1024x1 := Rect.unit (s := S1024x1) ![0, 0] S1024x1.size inb_S1024x1_S1024x1_0_0

/-! ## What the body leaves in the output buffer -/

/-- The output buffer after the body: its one store, the row-scaled product of the feature block and the weights. -/
def out1_3 (x0 : Vec F S1024x512 .f32) (x1 : Vec F S512x512 .f32) (x2 : Vec F S1024x1 .f32) : Vec F S1024x512 .bf16 :=
  View.canon [⟨r1_0, k1_pay1 (View.ld x0 r1_0) (View.ld x1 r1_1) (View.ld x2 r1_2)⟩]

/-- The one store covers the buffer. -/
theorem cover1_3 (p0 : Vec F S1024x512 .bf16) (y : S1024x512.Idx) :
    ∃ pc ∈ ([⟨r1_0, p0⟩] : List (View.Piece (Elt F) S1024x512 .bf16)), y ∈ pc.1.set :=
  View.cover_of_tiled [⟨r1_0, p0⟩] S1024x512.size (by rfl) y

/-! ## The body's triple -/

set_option maxHeartbeats 1000000 in
/-- The body on whole staging memrefs, the inputs' at read contents `x0`, `x1`, `x2` and the output's at anything,
    runs to the continuation holding the inputs' as they were and the output's at `out1_3 x0 x1 x2`: the loads read
    the three inputs and what the output happened to hold (unused), and the store overwrites the whole buffer. -/
theorem sound_kernel1 (c : Dev nD) (E : Set ℕ) (i : grid1.Coords)
    (arg1 : Memref sig .tc .vmem S1024x512 .f32) (harg1 : arg1.IsWhole) (arg2 : Memref sig .tc .vmem S512x512 .f32) (harg2 : arg2.IsWhole)
    (arg3 : Memref sig .tc .vmem S1024x1 .f32) (harg3 : arg3.IsWhole) (arg4 : Memref sig .tc .vmem S1024x512 .bf16) (harg4 : arg4.IsWhole)
    (x0 : Vec F S1024x512 .f32) (x1 : Vec F S512x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The proof data of the region on core `c`: the arrays as the region finds them; after the body at point `t` each
    input's buffer at its block and the output's at `out1_3` of the three blocks; the invariant the core's other
    scoped buffers and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The region's half -/

/-- Region 1's facts: its arrays are the entry contents, held whole, nothing owed; its invariant is entered from
    the generator register and the scoped buffers no window stages, and gives them back; the body's triple holds
    at every point. -/
theorem half1 : Half cfg1 (dat1 (F := F)) where
  A V c w := A_eq1 V c w
  q _ _ _ := rfl
  owed _ _ _ := rfl
  Φin V c := by
    rw [show (dat1 V c).Φ 0 = Pipeline.ΦA spec1 c from rfl]; unfold Pipeline.ΦA
    iintro ⟨Hp, Hr⟩
    isplitl [Hr]; · iexact Hr
    iexact Hp
  Φout V c := by
    rw [show (dat1 V c).Φ (Fin.last _) = Pipeline.ΦA spec1 c from rfl]; unfold Pipeline.ΦA
    iintro ⟨Hr, Hp⟩
    isplitl [Hp]; · iexact Hp
    iexact Hr
  body V c := body_obligation1 V c

end Cert.Kernel.Hand

end
-- ==== Proof.WSupportRegion3.lean ====
/-
  Region 3, a scaled matrix product, on its grid of 8 row blocks: from a 1024 x 512 block of the features, the
  whole 512 x 512 weight matrix and the 1024 x 1 block of the scaling column, the body stores the product of
  the two matrices with every row multiplied by its scaling, rounded to half precision. This module states what
  the body leaves in its output buffer as a closed function of the three input blocks, proves the body's triple
  at every grid point, and packs the region's proof data and its facts.
-/
import proofs.«171514_j71725953843990_2_alg».proof.Proof.WRegionFacts
import proofs.«171514_j71725953843990_2_alg».proof.Proof.Gen.Kernel.Skeleton
import Idealize.ShloMosaic.Lib.Pipeline.FrameBody
import Idealize.ShloMosaic.Lib.Ring
import Idealize.ShloMosaic.Lib.Tactic

-- membership in a rectangle with an axis of several thousand coordinates: the elaborator's structural look
-- recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : Entry F)

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's current staging buffer holds its block at every point, for any proof data whose array is
    the entry contents and whose body leaves the block in place: fetched there it is the block by definition, and
    not fetched the block index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of the weight window, whose one block is the whole matrix: it is fetched at the first point only, and
    at every later point its block index is the one it had before, so the buffer still holds that block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of the scaling column's window, fetched at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

/-- The whole 1024 x 512 block (the load of the features, the store of the result). -/
abbrev r3_0 : Rect S1024x512 := Rect.unit (s := S1024x512) ![0, 0] S1024x512.size inb_S1024x512_S1024x512_0_0
/-- The whole 512 x 512 weight matrix. -/
abbrev r3_1 : Rect S512x512 := Rect.unit (s := S512x512) ![0, 0] S512x512.size inb_S512x512_S512x512_0_0
/-- The whole 1024 x 1 scaling column. -/
abbrev r3_2 : Rect S1024x1 := Rect.unit (s := S1024x1) ![0, 0] S1024x1.size inb_S1024x1_S1024x1_0_0

/-! ## What the body leaves in the output buffer -/

/-- The output buffer after the body: its one store, the row-scaled product of the feature block and the weights. -/
def out3_3 (x0 : Vec F S1024x512 .f32) (x1 : Vec F S512x512 .f32) (x2 : Vec F S1024x1 .f32) : Vec F S1024x512 .bf16 :=
  View.canon [⟨r3_0, k3_pay1 (View.ld x0 r3_0) (View.ld x1 r3_1) (View.ld x2 r3_2)⟩]

/-- The one store covers the buffer. -/
theorem cover3_3 (p0 : Vec F S1024x512 .bf16) (y : S1024x512.Idx) :
    ∃ pc ∈ ([⟨r3_0, p0⟩] : List (View.Piece (Elt F) S1024x512 .bf16)), y ∈ pc.1.set :=
  View.cover_of_tiled [⟨r3_0, p0⟩] S1024x512.size (by rfl) y

/-! ## The body's triple -/

set_option maxHeartbeats 1000000 in
/-- The body on whole staging memrefs, the inputs' at read contents `x0`, `x1`, `x2` and the output's at anything,
    runs to the continuation holding the inputs' as they were and the output's at `out3_3 x0 x1 x2`: the loads read
    the three inputs and what the output happened to hold (unused), and the store overwrites the whole buffer. -/
theorem sound_kernel3 (c : Dev nD) (E : Set ℕ) (i : grid3.Coords)
    (arg1 : Memref sig .tc .vmem S1024x512 .f32) (harg1 : arg1.IsWhole) (arg2 : Memref sig .tc .vmem S512x512 .f32) (harg2 : arg2.IsWhole)
    (arg3 : Memref sig .tc .vmem S1024x1 .f32) (harg3 : arg3.IsWhole) (arg4 : Memref sig .tc .vmem S1024x512 .bf16) (harg4 : arg4.IsWhole)
    (x0 : Vec F S1024x512 .f32) (x1 : Vec F S512x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__scaled_matmul_kernel i arg1 harg1 arg2 harg2 arg3 harg3 arg4 harg4) K := by
  simp only [cc3__scaled_matmul_kernel_eq_skeleton]; unfold cc3__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The region's proof data -/

/-- The proof data of the region on core `c`: the arrays as the region finds them; after the body at point `t` each
    input's buffer at its block and the output's at `out3_3` of the three blocks; the invariant the core's other
    scoped buffers and its generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The region's half -/

/-- Region 3's facts: its arrays are the entry contents, held whole, nothing owed; its invariant is entered from
    the generator register and the scoped buffers no window stages, and gives them back; the body's triple holds
    at every point. -/
theorem half3 : Half cfg3 (dat3 (F := F)) where
  A V c w := A_eq3 V c w
  q _ _ _ := rfl
  owed _ _ _ := rfl
  Φin V c := by
    rw [show (dat3 V c).Φ 0 = Pipeline.ΦA spec3 c from rfl]; unfold Pipeline.ΦA
    iintro ⟨Hp, Hr⟩
    isplitl [Hr]; · iexact Hr
    iexact Hp
  Φout V c := by
    rw [show (dat3 V c).Φ (Fin.last _) = Pipeline.ΦA spec3 c from rfl]; unfold Pipeline.ΦA
    iintro ⟨Hr, Hp⟩
    isplitl [Hp]; · iexact Hp
    iexact Hr
  body V c := body_obligation3 V c

end Cert.Kernel.Hand

end
-- ==== Proof.WAggregateCases2.lean ====
/-
  The aggregation launch 2 (out = (A · S) ⊙ d + bias over a 16 × 4 grid, the contraction cut into four column
  blocks of 2048 accumulated in a scratch buffer): what its three kinds of grid point share. A point (i, k)
  zeroes the accumulator when k = 0, always adds its block product, and when k = 3 scales by the degree column,
  adds the bias, rectifies and stores the row block. Here: each window's block at a point, that an input
  window's buffer holds its block whether or not it was fetched there, the two branch conditions in closed form
  over the grid, where the output window is left untouched, and the invariant's shape with the accumulator split
  off the other scoped buffers.
-/
import proofs.«171514_j71725953843990_2_alg».proof.Proof.WRegionFacts
import proofs.«171514_j71725953843990_2_alg».proof.Proof.Gen.Kernel.Skeleton
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block (window 0) is in its buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The whole support matrix (window 1, one block, fetched once) is in its buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The degree column's row block (window 2, refetched when the row block changes) is in its buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The bias row (window 3, one block, fetched once) is in its buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- "This is the first column block": the accumulator is zeroed. -/
abbrev first2 (i : grid2.Coords) : Prop := (Scalar.cmpi .ne (Scalar.extui (Scalar.cmpi .eq (BitVec.ofNat 32 (i 1).val) 0#32)) 0#32) = 1#1
/-- It holds exactly at the points ≡ 0 (mod 4). -/
theorem first2_iff : ∀ t : Fin cfg2.N, first2 (grid2.coords t) ↔ t.val % 4 = 0 :=
  (by decide +kernel : ∀ t : Fin grid2.N, first2 (grid2.coords t) ↔ t.val % 4 = 0)
/-- "This is the last column block": the row block is finished and stored. -/
abbrev last2 (i : grid2.Coords) : Prop := k2_cond2 i = 1#1
/-- It holds exactly at the points ≡ 3 (mod 4). -/
theorem last2_iff : ∀ t : Fin cfg2.N, last2 (grid2.coords t) ↔ t.val % 4 = 3 :=
  (by decide +kernel : ∀ t : Fin grid2.N, last2 (grid2.coords t) ↔ t.val % 4 = 3)

/-! ## Where the windows are left untouched -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last column block nothing is stored into the output window and its block is not written back. -/
theorem idle2_4 : ∀ t : Fin cfg2.N, ¬last2 (grid2.coords t) → cfg2.idle 4 (grid2.coords t) = true := by decide +kernel
theorem noFlush2_4 : ∀ t : Fin cfg2.N, ¬last2 (grid2.coords t) → (cfg2.win 4).flush t = false := by decide +kernel
/-- At the last column block the output window is stored whole. -/
theorem live2_4 : ∀ t : Fin cfg2.N, last2 (grid2.coords t) → cfg2.idle 4 (grid2.coords t) = false := by decide +kernel

/-! ## The memrefs the body is called with -/

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The accumulator: a whole scoped buffer of the launch's own, passed beside the windows. -/
abbrev acc2 : Memref sig .tc .vmem S512x512 .f32 := Memref.whole cc2_scratch0
/-- Views through which the output buffer's and the accumulator's contents are stated. -/
abbrev outView2 : View sig .tc .vmem S512x512 .f32 := (Memref.whole cc2_stg4_0 : Memref sig .tc .vmem S512x512 .f32).view
abbrev accView2 : View sig .tc .vmem S512x512 .f32 := (acc2).view

/-- The scoped buffers no window stages, with the accumulator split off. -/
abbrev others2 (c : Dev nD) : sProp 𝕄 :=
  Pipeline.scopedRestBut (Ix := Unit) (Name := ℕ) (U := UR sig nD τ) (Lvl := ℕ) (Val := Elt F) spec2 c [cc2_scratch0]

/-- The plain invariant (every scoped buffer no window stages at some contents, the generator register at some
    state) with the accumulator owned as a memref. -/
theorem plain2_eq (c : Dev nD) :
    (Pipeline.ΦA spec2 c : sProp 𝕄)
      = iprop(iprop(iprop((∃ d, owns (c : Thread nD τ) (acc2) fullShare d)) ∗ others2 (F := F) c) ∗ (∃ r, prngReg c r)) := by
  unfold Pipeline.ΦA; rw [scopedRest2_split]; simp only [acc2, owns_whole]; try rfl

end Cert.Kernel.Hand

end
-- ==== Proof.WAggregateRunFirst2.lean ====
/-
  The aggregation launch 2: its body run whole at one kind of grid point.
-/
import proofs.«171514_j71725953843990_2_alg».proof.Proof.WAggregateCases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column block (k = 0, not the last): the accumulator, whatever it held, is zeroed and then holds the
    block product added to zero; the output buffer is handed back as found. The stores into the accumulator, last
    first, are the witness the run finds. -/
noncomputable def runFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WAggregateRunMid2.lean ====
/-
  The aggregation launch 2: its body run whole at one kind of grid point.
-/
import proofs.«171514_j71725953843990_2_alg».proof.Proof.WAggregateCases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column block (k = 1, 2): the accumulator, holding `xs`, ends holding `xs` plus the block product;
    the output buffer is handed back as found. -/
noncomputable def runMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WAggregateRunLast2.lean ====
/-
  The aggregation launch 2: its body run whole at one kind of grid point.
-/
import proofs.«171514_j71725953843990_2_alg».proof.Proof.WAggregateCases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column block (k = 3): the accumulator, holding `xs`, ends holding `xs` plus the block product, and the
    output buffer, whatever it held, is stored whole with the finished row block. -/
noncomputable def runLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.WAggregateRegion2.lean ====
/-
  The aggregation launch 2: what the accumulator and the output buffer hold after every grid point — the kind of
  point the closed forms select, run on the point's blocks over what the point before left in the accumulator —,
  the proof data built on that, and the body's triple at every point. Between points the invariant keeps the
  accumulator at the contents the last point left; before the first point and after the last it is the plain one.
-/
import proofs.«171514_j71725953843990_2_alg».proof.Proof.WAggregateRunFirst2
import proofs.«171514_j71725953843990_2_alg».proof.Proof.WAggregateRunMid2
import proofs.«171514_j71725953843990_2_alg».proof.Proof.WAggregateRunLast2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What each kind of point leaves -/

/-- The stores into the accumulator at such a point tile it. -/
theorem accCoverFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) (y : S512x512.Idx) :
    ∃ pc ∈ (runFirst2 c i arg2 harg2 arg3 harg3 arg4 harg4 arg5 harg5 arg6 harg6 arg7 harg7 hc0 hc1 x0 x1 x2 x3).2.1, y ∈ pc.1.set :=
  View.cover_of_tiledL (runFirst2 c i arg2 harg2 arg3 harg3 arg4 harg4 arg5 harg5 arg6 harg6 arg7 harg7 hc0 hc1 x0 x1 x2 x3).2.1 S512x512.size (by sl_kernel_rfl) y
/-- What such a point leaves in the accumulator: its stores read back. -/
def accFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) : Vec F S512x512 .f32 :=
  (accView2).read (Elt F) ((accView2).writes (Elt F) (accView2).junk (runFirst2 c i arg2 harg2 arg3 harg3 arg4 harg4 arg5 harg5 arg6 harg6 arg7 harg7 hc0 hc1 x0 x1 x2 x3).2.1)
/-- What such a point leaves in the output buffer (nothing is stored: a placeholder no one reads). -/
def outFirst2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) : Vec F S512x512 .f32 :=
  (outView2).read (Elt F) ((outView2).writes (Elt F) (outView2).junk (runFirst2 c i arg2 harg2 arg3 harg3 arg4 harg4 arg5 harg5 arg6 harg6 arg7 harg7 hc0 hc1 x0 x1 x2 x3).1)

/-- The stores into the accumulator at such a point tile it. -/
theorem accCoverMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runMid2 c i arg2 harg2 arg3 harg3 arg4 harg4 arg5 harg5 arg6 harg6 arg7 harg7 hc0 hc1 x0 x1 x2 x3 xs).2.1, y ∈ pc.1.set :=
  View.cover_of_tiledL (runMid2 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) : Vec F S512x512 .f32 :=
  (accView2).read (Elt F) ((accView2).writes (Elt F) (accView2).junk (runMid2 c i arg2 harg2 arg3 harg3 arg4 harg4 arg5 harg5 arg6 harg6 arg7 harg7 hc0 hc1 x0 x1 x2 x3 xs).2.1)
/-- What such a point leaves in the output buffer (nothing is stored: a placeholder no one reads). -/
def outMid2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) : Vec F S512x512 .f32 :=
  (outView2).read (Elt F) ((outView2).writes (Elt F) (outView2).junk (runMid2 c i arg2 harg2 arg3 harg3 arg4 harg4 arg5 harg5 arg6 harg6 arg7 harg7 hc0 hc1 x0 x1 x2 x3 xs).1)

/-- The stores into the accumulator at such a point tile it. -/
theorem accCoverLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast2 c i arg2 harg2 arg3 harg3 arg4 harg4 arg5 harg5 arg6 harg6 arg7 harg7 hc0 hc1 x0 x1 x2 x3 xs).2.1, y ∈ pc.1.set :=
  View.cover_of_tiledL (runLast2 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) : Vec F S512x512 .f32 :=
  (accView2).read (Elt F) ((accView2).writes (Elt F) (accView2).junk (runLast2 c i arg2 harg2 arg3 harg3 arg4 harg4 arg5 harg5 arg6 harg6 arg7 harg7 hc0 hc1 x0 x1 x2 x3 xs).2.1)
/-- The store into the output buffer at a last column block covers it. -/
theorem outCoverLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast2 c i arg2 harg2 arg3 harg3 arg4 harg4 arg5 harg5 arg6 harg6 arg7 harg7 hc0 hc1 x0 x1 x2 x3 xs).1, y ∈ pc.1.set :=
  View.cover_of_tiledL (runLast2 c i arg2 harg2 arg3 harg3 arg4 harg4 arg5 harg5 arg6 harg6 arg7 harg7 hc0 hc1 x0 x1 x2 x3 xs).1 S512x512.size (by sl_kernel_rfl) y
/-- What such a point leaves in the output buffer: its store read back. -/
def outLast2 (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) : Vec F S512x512 .f32 :=
  (outView2).read (Elt F) ((outView2).writes (Elt F) (outView2).junk (runLast2 c i arg2 harg2 arg3 harg3 arg4 harg4 arg5 harg5 arg6 harg6 arg7 harg7 hc0 hc1 x0 x1 x2 x3 xs).1)

/-! ## Point by point -/

/-- A first column block at point `t`: (output buffer, accumulator). -/
def firstAt2 (c : Dev nD) (t : Fin cfg2.N) (h0 : t.val % 4 = 0) (h1 : ¬t.val % 4 = 3) : Vec F S512x512 .f32 × Vec F S512x512 .f32 :=
  (outFirst2 c (grid2.coords t) (ms2_0 t) (hs2_0 t) (ms2_1 t) (hs2_1 t) (ms2_2 t) (hs2_2 t) (ms2_3 t) (hs2_3 t) (ms2_4 t) (hs2_4 t) (acc2) (Memref.isWhole_whole _) ((first2_iff t).mpr h0) (fun h => h1 ((last2_iff t).mp h)) (iblk2 V c 0 t) (iblk2 V c 1 t) (iblk2 V c 2 t) (iblk2 V c 3 t),
   accFirst2 c (grid2.coords t) (ms2_0 t) (hs2_0 t) (ms2_1 t) (hs2_1 t) (ms2_2 t) (hs2_2 t) (ms2_3 t) (hs2_3 t) (ms2_4 t) (hs2_4 t) (acc2) (Memref.isWhole_whole _) ((first2_iff t).mpr h0) (fun h => h1 ((last2_iff t).mp h)) (iblk2 V c 0 t) (iblk2 V c 1 t) (iblk2 V c 2 t) (iblk2 V c 3 t))
/-- A middle column block at point `t`, the accumulator entered at `xs`. -/
def midAt2 (c : Dev nD) (t : Fin cfg2.N) (h0 : ¬t.val % 4 = 0) (h1 : ¬t.val % 4 = 3) (xs : Vec F S512x512 .f32) : Vec F S512x512 .f32 × Vec F S512x512 .f32 :=
  (outMid2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) (fun h => h1 ((last2_iff t).mp h)) (iblk2 V c 0 t) (iblk2 V c 1 t) (iblk2 V c 2 t) (iblk2 V c 3 t) xs,
   accMid2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) (fun h => h1 ((last2_iff t).mp h)) (iblk2 V c 0 t) (iblk2 V c 1 t) (iblk2 V c 2 t) (iblk2 V c 3 t) xs)
/-- A last column block at point `t`, the accumulator entered at `xs`. -/
def lastAt2 (c : Dev nD) (t : Fin cfg2.N) (h0 : ¬t.val % 4 = 0) (h1 : t.val % 4 = 3) (xs : Vec F S512x512 .f32) : Vec F S512x512 .f32 × Vec F S512x512 .f32 :=
  (outLast2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) ((last2_iff t).mpr h1) (iblk2 V c 0 t) (iblk2 V c 1 t) (iblk2 V c 2 t) (iblk2 V c 3 t) xs,
   accLast2 c (grid2.coords t) (ms2_0 t) (hs2_0 t) (ms2_1 t) (hs2_1 t) (ms2_2 t) (hs2_2 t) (ms2_3 t) (hs2_3 t) (ms2_4 t) (hs2_4 t) (acc2) (Memref.isWhole_whole _) (fun h => h0 ((first2_iff t).mp h)) ((last2_iff t).mpr h1) (iblk2 V c 0 t) (iblk2 V c 1 t) (iblk2 V c 2 t) (iblk2 V c 3 t) xs)

/-- THE ACCUMULATION: the output buffer and the accumulator after the body at position `n`. -/
def outsAt2 (c : Dev nD) : (n : ℕ) → n < cfg2.N → Vec F S512x512 .f32 × Vec F S512x512 .f32
  | 0, hn => firstAt2 V c ⟨0, hn⟩ (Nat.zero_mod _) (fun h => Nat.succ_ne_zero 2 (h.symm.trans (Nat.zero_mod 4)))
  | n + 1, hn =>
    if h0 : (n + 1) % 4 = 0 then
      if h1 : (n + 1) % 4 = 3 then False.elim (by omega)
      else firstAt2 V c ⟨n + 1, hn⟩ h0 h1
    else
      if h1 : (n + 1) % 4 = 3 then lastAt2 V c ⟨n + 1, hn⟩ h0 h1 (outsAt2 c n (Nat.lt_of_succ_lt hn)).2
      else midAt2 V c ⟨n + 1, hn⟩ h0 h1 (outsAt2 c n (Nat.lt_of_succ_lt hn)).2

theorem outsAt2_first (c : Dev nD) (t : Fin cfg2.N) (h0 : t.val % 4 = 0) (h1 : ¬t.val % 4 = 3) :
    outsAt2 V c t.val t.isLt = firstAt2 V c t h0 h1 := by
  obtain ⟨n, hn⟩ := t
  cases n with
  | zero => exact rfl
  | succ n => exact (dif_pos h0).trans ((dif_neg h1).trans rfl)
theorem outsAt2_mid (c : Dev nD) (t : Fin cfg2.N) (h0 : ¬t.val % 4 = 0) (h1 : ¬t.val % 4 = 3) :
    outsAt2 V c t.val t.isLt = midAt2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt2_last (c : Dev nD) (t : Fin cfg2.N) (h0 : ¬t.val % 4 = 0) (h1 : t.val % 4 = 3) :
    outsAt2 V c t.val t.isLt = lastAt2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the plain invariant; after point `n` the accumulator at what that point left, the other
    scoped buffers at anything, the generator register at some state. -/
def inv2 (c : Dev nD) : (n : ℕ) → n ≤ cfg2.N → sProp 𝕄
  | 0, _ => Pipeline.ΦA spec2 c
  | n + 1, hn => iprop(iprop(owns (c : Thread nD τ) (acc2) fullShare ((outsAt2 V c n hn).2) ∗ others2 (F := F) c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop(iprop(owns (c : Thread nD τ) (acc2) fullShare ((outsAt2 V c n hn).2) ∗ others2 (F := F) c) ∗ (∃ r, prngReg c r)) := rfl
theorem inv2_pos (c : Dev nD) (n : ℕ) (h : n ≤ cfg2.N) (hz : n ≠ 0) :
    inv2 V c n h = iprop(iprop(owns (c : Thread nD τ) (acc2) fullShare ((outsAt2 V c (n - 1) (by omega)).2) ∗ others2 (F := F) c) ∗ (∃ r, prngReg c r)) := by
  cases n with
  | zero => exact absurd rfl hz
  | succ n => rfl

/-! ## The proof data -/

/-- The arrays as the launch finds them; after the body each input window at its block, the output window at the
    accumulation's first component; the invariant `inv2`; nothing owed; full shares. -/
def dat2 (V : Entry F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem inv2_castSucc (c : Dev nD) (t : Fin cfg2.N) :
    (dat2 V c).Φ t.castSucc = inv2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body's triple at a point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The closed forms say which kind of point `t` is; the input windows hold their blocks; the invariant hands the
    body the accumulator at what the point before left (at anything at the very first point) and takes it back at
    this point's contents; away from a last column block the output buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = inv2 V c (t.val + 1) t.isLt from rfl, inv2_succ]
  have hN : t.val < 64 := lt_of_lt_of_eq t.isLt (show cfg2.N = 64 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4 t (fun h => h1 ((last2_iff t).mp h))) (noFlush2_4 t (fun h => h1 ((last2_iff t).mp h)))]
      rw [outsAt2_first V c t h0 h1]
      unfold firstAt2 accFirst2; (try dsimp only)
      by_cases hz : t.val = 0
      · rw [inv2_castSucc V c t, inv2_zero V c _ _ hz, plain2_eq]
        iintro ⟨⟨⟨HS, Hoth⟩, Hg⟩, Ho, ⟨%d0, H0⟩, ⟨%d1, H1⟩, ⟨%d2, H2⟩, ⟨%d3, H3⟩, ⟨%d4, H4⟩⟩
        iapply ((runFirst2 c (grid2.coords t) _ _ _ _ _ _ _ _ _ _ _ _ ((first2_iff t).mpr h0) (fun h => h1 ((last2_iff t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst2 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [inv2_castSucc V c t, inv2_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst2 c (grid2.coords t) _ _ _ _ _ _ _ _ _ _ _ _ ((first2_iff t).mpr h0) (fun h => h1 ((last2_iff t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst2 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [live2_4 t ((last2_iff t).mpr h1)], after2_4]
      rw [outsAt2_last V c t h0 h1]
      unfold lastAt2 outLast2 accLast2; (try dsimp only)
      rw [inv2_castSucc V c t, inv2_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast2 c (grid2.coords t) _ _ _ _ _ _ _ _ _ _ _ _ (fun h => h0 ((first2_iff t).mp h)) ((last2_iff t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast2 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast2 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4 t (fun h => h1 ((last2_iff t).mp h))) (noFlush2_4 t (fun h => h1 ((last2_iff t).mp h)))]
      rw [outsAt2_mid V c t h0 h1]
      unfold midAt2 accMid2; (try dsimp only)
      rw [inv2_castSucc V c t, inv2_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid2 c (grid2.coords t) _ _ _ _ _ _ _ _ _ _ _ _ (fun h => h0 ((first2_iff t).mp h)) (fun h => h1 ((last2_iff t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid2 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body's triple at every point, in the launch rule's form. -/
theorem body_obligation2 (c : Dev nD) : BodyObligation (dat2 (F := F) V c) (defs₀ (F := F)) Variants.none () Set.univ := fun t => by
  rw [bigSep_W2, bigSep_W2]
  exact sound_body2 V c t

/-! ## The record -/

theorem inv2_out (c : Dev nD) (t : Fin (cfg2.N + 1)) (ht : t.val ≠ 0) : (dat2 V c).Φ t ⊢ Pipeline.ΦA spec2 c := by
  rw [show (dat2 V c).Φ t = inv2 V c t.val (Nat.le_of_lt_succ t.isLt) from rfl, inv2_pos V c _ _ ht, plain2_eq]
  iintro ⟨⟨HS, Hoth⟩, Hg⟩
  isplitl [HS Hoth]
  · isplitl [HS]
    · iexists _; iexact HS
    iexact Hoth
  iexact Hg

/-- The aggregation launch 2's half. -/
theorem half2 : Half cfg2 (dat2 (F := F)) where
  A V c w := A_eq2 V c w
  q _ _ _ := rfl
  owed _ _ _ := rfl
  Φin V c := by
    rw [show (dat2 V c).Φ 0 = inv2 V c 0 (Nat.zero_le _) from rfl, inv2_zero V c 0 _ rfl]
    unfold Pipeline.ΦA
    iintro ⟨Hp, Hr⟩
    isplitl [Hr]; · iexact Hr
    iexact Hp
  Φout V c := by
    refine (inv2_out V c (Fin.last cfg2.N) (by rw [Fin.val_last]; have : cfg2.N = 64 := N_2; omega)).trans ?_
    unfold Pipeline.ΦA
    iintro ⟨Hr, Hp⟩
    isplitl [Hp]; · iexact Hp
    iexact Hr
  body V c := body_obligation2 V c

end Cert.Kernel.Hand

end
-- ==== Proof.WAggregateCases4.lean ====
/-
  The aggregation launch 4 (out = (A · S) ⊙ d + bias over a 16 × 4 grid, the contraction cut into four column
  blocks of 2048 accumulated in a scratch buffer): what its three kinds of grid point share. A point (i, k)
  zeroes the accumulator when k = 0, always adds its block product, and when k = 3 scales by the degree column,
  adds the bias and stores the row block. Here: each window's block at a point, that an input
  window's buffer holds its block whether or not it was fetched there, the two branch conditions in closed form
  over the grid, where the output window is left untouched, and the invariant's shape with the accumulator split
  off the other scoped buffers.
-/
import proofs.«171514_j71725953843990_2_alg».proof.Proof.WRegionFacts
import proofs.«171514_j71725953843990_2_alg».proof.Proof.Gen.Kernel.Skeleton
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The windows' blocks -/

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The adjacency block (window 0) is in its buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The whole support matrix (window 1, one block, fetched once) is in its buffer at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The degree column's row block (window 2, refetched when the row block changes) is in its buffer at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The bias row (window 3, one block, fetched once) is in its buffer at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions -/

/-- "This is the first column block": the accumulator is zeroed. -/
abbrev first4 (i : grid4.Coords) : Prop := (Scalar.cmpi .ne (Scalar.extui (Scalar.cmpi .eq (BitVec.ofNat 32 (i 1).val) 0#32)) 0#32) = 1#1
/-- It holds exactly at the points ≡ 0 (mod 4). -/
theorem first4_iff : ∀ t : Fin cfg4.N, first4 (grid4.coords t) ↔ t.val % 4 = 0 :=
  (by decide +kernel : ∀ t : Fin grid4.N, first4 (grid4.coords t) ↔ t.val % 4 = 0)
/-- "This is the last column block": the row block is finished and stored. -/
abbrev last4 (i : grid4.Coords) : Prop := k4_cond2 i = 1#1
/-- It holds exactly at the points ≡ 3 (mod 4). -/
theorem last4_iff : ∀ t : Fin cfg4.N, last4 (grid4.coords t) ↔ t.val % 4 = 3 :=
  (by decide +kernel : ∀ t : Fin grid4.N, last4 (grid4.coords t) ↔ t.val % 4 = 3)

/-! ## Where the windows are left untouched -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Away from the last column block nothing is stored into the output window and its block is not written back. -/
theorem idle4_4 : ∀ t : Fin cfg4.N, ¬last4 (grid4.coords t) → cfg4.idle 4 (grid4.coords t) = true := by decide +kernel
theorem noFlush4_4 : ∀ t : Fin cfg4.N, ¬last4 (grid4.coords t) → (cfg4.win 4).flush t = false := by decide +kernel
/-- At the last column block the output window is stored whole. -/
theorem live4_4 : ∀ t : Fin cfg4.N, last4 (grid4.coords t) → cfg4.idle 4 (grid4.coords t) = false := by decide +kernel

/-! ## The memrefs the body is called with -/

abbrev ms4_0 (t : Fin cfg4.N) : Memref sig .tc .vmem S512x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x512 .f32 := win4_4.stage (cfg4.slots t 4)
abbrev hs4_4 (t : Fin cfg4.N) : (ms4_4 t).IsWhole := hstage4_4 ((cfg4.slots t 4).cast nbuf4_4)
/-- The accumulator: a whole scoped buffer of the launch's own, passed beside the windows. -/
abbrev acc4 : Memref sig .tc .vmem S512x512 .f32 := Memref.whole cc4_scratch0
/-- Views through which the output buffer's and the accumulator's contents are stated. -/
abbrev outView4 : View sig .tc .vmem S512x512 .f32 := (Memref.whole cc4_stg4_0 : Memref sig .tc .vmem S512x512 .f32).view
abbrev accView4 : View sig .tc .vmem S512x512 .f32 := (acc4).view

/-- The scoped buffers no window stages, with the accumulator split off. -/
abbrev others4 (c : Dev nD) : sProp 𝕄 :=
  Pipeline.scopedRestBut (Ix := Unit) (Name := ℕ) (U := UR sig nD τ) (Lvl := ℕ) (Val := Elt F) spec4 c [cc4_scratch0]

/-- The plain invariant (every scoped buffer no window stages at some contents, the generator register at some
    state) with the accumulator owned as a memref. -/
theorem plain4_eq (c : Dev nD) :
    (Pipeline.ΦA spec4 c : sProp 𝕄)
      = iprop(iprop(iprop((∃ d, owns (c : Thread nD τ) (acc4) fullShare d)) ∗ others4 (F := F) c) ∗ (∃ r, prngReg c r)) := by
  unfold Pipeline.ΦA; rw [scopedRest4_split]; simp only [acc4, owns_whole]; try rfl

end Cert.Kernel.Hand

end
-- ==== Proof.WAggregateRunFirst4.lean ====
/-
  The aggregation launch 4: its body run whole at one kind of grid point.
-/
import proofs.«171514_j71725953843990_2_alg».proof.Proof.WAggregateCases4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column block (k = 0, not the last): the accumulator, whatever it held, is zeroed and then holds the
    block product added to zero; the output buffer is handed back as found. The stores into the accumulator, last
    first, are the witness the run finds. -/
noncomputable def runFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨[], ?_, fun xi4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WAggregateRunMid4.lean ====
/-
  The aggregation launch 4: its body run whole at one kind of grid point.
-/
import proofs.«171514_j71725953843990_2_alg».proof.Proof.WAggregateCases4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column block (k = 1, 2): the accumulator, holding `xs`, ends holding `xs` plus the block product;
    the output buffer is handed back as found. -/
noncomputable def runMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨[], ?_, fun xi4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WAggregateRunLast4.lean ====
/-
  The aggregation launch 4: its body run whole at one kind of grid point.
-/
import proofs.«171514_j71725953843990_2_alg».proof.Proof.WAggregateCases4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column block (k = 3): the accumulator, holding `xs`, ends holding `xs` plus the block product, and the
    output buffer, whatever it held, is stored whole with the finished row block. -/
noncomputable def runLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg2 harg2 arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.WAggregateRegion4.lean ====
/-
  The aggregation launch 4: what the accumulator and the output buffer hold after every grid point — the kind of
  point the closed forms select, run on the point's blocks over what the point before left in the accumulator —,
  the proof data built on that, and the body's triple at every point. Between points the invariant keeps the
  accumulator at the contents the last point left; before the first point and after the last it is the plain one.
-/
import proofs.«171514_j71725953843990_2_alg».proof.Proof.WAggregateRunFirst4
import proofs.«171514_j71725953843990_2_alg».proof.Proof.WAggregateRunMid4
import proofs.«171514_j71725953843990_2_alg».proof.Proof.WAggregateRunLast4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What each kind of point leaves -/

/-- The stores into the accumulator at such a point tile it. -/
theorem accCoverFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) (y : S512x512.Idx) :
    ∃ pc ∈ (runFirst4 c i arg2 harg2 arg3 harg3 arg4 harg4 arg5 harg5 arg6 harg6 arg7 harg7 hc0 hc1 x0 x1 x2 x3).2.1, y ∈ pc.1.set :=
  View.cover_of_tiledL (runFirst4 c i arg2 harg2 arg3 harg3 arg4 harg4 arg5 harg5 arg6 harg6 arg7 harg7 hc0 hc1 x0 x1 x2 x3).2.1 S512x512.size (by sl_kernel_rfl) y
/-- What such a point leaves in the accumulator: its stores read back. -/
def accFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) : Vec F S512x512 .f32 :=
  (accView4).read (Elt F) ((accView4).writes (Elt F) (accView4).junk (runFirst4 c i arg2 harg2 arg3 harg3 arg4 harg4 arg5 harg5 arg6 harg6 arg7 harg7 hc0 hc1 x0 x1 x2 x3).2.1)
/-- What such a point leaves in the output buffer (nothing is stored: a placeholder no one reads). -/
def outFirst4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) : Vec F S512x512 .f32 :=
  (outView4).read (Elt F) ((outView4).writes (Elt F) (outView4).junk (runFirst4 c i arg2 harg2 arg3 harg3 arg4 harg4 arg5 harg5 arg6 harg6 arg7 harg7 hc0 hc1 x0 x1 x2 x3).1)

/-- The stores into the accumulator at such a point tile it. -/
theorem accCoverMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runMid4 c i arg2 harg2 arg3 harg3 arg4 harg4 arg5 harg5 arg6 harg6 arg7 harg7 hc0 hc1 x0 x1 x2 x3 xs).2.1, y ∈ pc.1.set :=
  View.cover_of_tiledL (runMid4 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) : Vec F S512x512 .f32 :=
  (accView4).read (Elt F) ((accView4).writes (Elt F) (accView4).junk (runMid4 c i arg2 harg2 arg3 harg3 arg4 harg4 arg5 harg5 arg6 harg6 arg7 harg7 hc0 hc1 x0 x1 x2 x3 xs).2.1)
/-- What such a point leaves in the output buffer (nothing is stored: a placeholder no one reads). -/
def outMid4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) : Vec F S512x512 .f32 :=
  (outView4).read (Elt F) ((outView4).writes (Elt F) (outView4).junk (runMid4 c i arg2 harg2 arg3 harg3 arg4 harg4 arg5 harg5 arg6 harg6 arg7 harg7 hc0 hc1 x0 x1 x2 x3 xs).1)

/-- The stores into the accumulator at such a point tile it. -/
theorem accCoverLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast4 c i arg2 harg2 arg3 harg3 arg4 harg4 arg5 harg5 arg6 harg6 arg7 harg7 hc0 hc1 x0 x1 x2 x3 xs).2.1, y ∈ pc.1.set :=
  View.cover_of_tiledL (runLast4 c i arg2 harg2 arg3 harg3 arg4 harg4 arg5 harg5 arg6 harg6 arg7 harg7 hc0 hc1 x0 x1 x2 x3 xs).2.1 S512x512.size (by sl_kernel_rfl) y
/-- What such a point leaves in the accumulator: its stores read back. -/
def accLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) : Vec F S512x512 .f32 :=
  (accView4).read (Elt F) ((accView4).writes (Elt F) (accView4).junk (runLast4 c i arg2 harg2 arg3 harg3 arg4 harg4 arg5 harg5 arg6 harg6 arg7 harg7 hc0 hc1 x0 x1 x2 x3 xs).2.1)
/-- The store into the output buffer at a last column block covers it. -/
theorem outCoverLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) (y : S512x512.Idx) :
    ∃ pc ∈ (runLast4 c i arg2 harg2 arg3 harg3 arg4 harg4 arg5 harg5 arg6 harg6 arg7 harg7 hc0 hc1 x0 x1 x2 x3 xs).1, y ∈ pc.1.set :=
  View.cover_of_tiledL (runLast4 c i arg2 harg2 arg3 harg3 arg4 harg4 arg5 harg5 arg6 harg6 arg7 harg7 hc0 hc1 x0 x1 x2 x3 xs).1 S512x512.size (by sl_kernel_rfl) y
/-- What such a point leaves in the output buffer: its store read back. -/
def outLast4 (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) : Vec F S512x512 .f32 :=
  (outView4).read (Elt F) ((outView4).writes (Elt F) (outView4).junk (runLast4 c i arg2 harg2 arg3 harg3 arg4 harg4 arg5 harg5 arg6 harg6 arg7 harg7 hc0 hc1 x0 x1 x2 x3 xs).1)

/-! ## Point by point -/

/-- A first column block at point `t`: (output buffer, accumulator). -/
def firstAt4 (c : Dev nD) (t : Fin cfg4.N) (h0 : t.val % 4 = 0) (h1 : ¬t.val % 4 = 3) : Vec F S512x512 .f32 × Vec F S512x512 .f32 :=
  (outFirst4 c (grid4.coords t) (ms4_0 t) (hs4_0 t) (ms4_1 t) (hs4_1 t) (ms4_2 t) (hs4_2 t) (ms4_3 t) (hs4_3 t) (ms4_4 t) (hs4_4 t) (acc4) (Memref.isWhole_whole _) ((first4_iff t).mpr h0) (fun h => h1 ((last4_iff t).mp h)) (iblk4 V c 0 t) (iblk4 V c 1 t) (iblk4 V c 2 t) (iblk4 V c 3 t),
   accFirst4 c (grid4.coords t) (ms4_0 t) (hs4_0 t) (ms4_1 t) (hs4_1 t) (ms4_2 t) (hs4_2 t) (ms4_3 t) (hs4_3 t) (ms4_4 t) (hs4_4 t) (acc4) (Memref.isWhole_whole _) ((first4_iff t).mpr h0) (fun h => h1 ((last4_iff t).mp h)) (iblk4 V c 0 t) (iblk4 V c 1 t) (iblk4 V c 2 t) (iblk4 V c 3 t))
/-- A middle column block at point `t`, the accumulator entered at `xs`. -/
def midAt4 (c : Dev nD) (t : Fin cfg4.N) (h0 : ¬t.val % 4 = 0) (h1 : ¬t.val % 4 = 3) (xs : Vec F S512x512 .f32) : Vec F S512x512 .f32 × Vec F S512x512 .f32 :=
  (outMid4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) (fun h => h1 ((last4_iff t).mp h)) (iblk4 V c 0 t) (iblk4 V c 1 t) (iblk4 V c 2 t) (iblk4 V c 3 t) xs,
   accMid4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) (fun h => h1 ((last4_iff t).mp h)) (iblk4 V c 0 t) (iblk4 V c 1 t) (iblk4 V c 2 t) (iblk4 V c 3 t) xs)
/-- A last column block at point `t`, the accumulator entered at `xs`. -/
def lastAt4 (c : Dev nD) (t : Fin cfg4.N) (h0 : ¬t.val % 4 = 0) (h1 : t.val % 4 = 3) (xs : Vec F S512x512 .f32) : Vec F S512x512 .f32 × Vec F S512x512 .f32 :=
  (outLast4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) ((last4_iff t).mpr h1) (iblk4 V c 0 t) (iblk4 V c 1 t) (iblk4 V c 2 t) (iblk4 V c 3 t) xs,
   accLast4 c (grid4.coords t) (ms4_0 t) (hs4_0 t) (ms4_1 t) (hs4_1 t) (ms4_2 t) (hs4_2 t) (ms4_3 t) (hs4_3 t) (ms4_4 t) (hs4_4 t) (acc4) (Memref.isWhole_whole _) (fun h => h0 ((first4_iff t).mp h)) ((last4_iff t).mpr h1) (iblk4 V c 0 t) (iblk4 V c 1 t) (iblk4 V c 2 t) (iblk4 V c 3 t) xs)

/-- THE ACCUMULATION: the output buffer and the accumulator after the body at position `n`. -/
def outsAt4 (c : Dev nD) : (n : ℕ) → n < cfg4.N → Vec F S512x512 .f32 × Vec F S512x512 .f32
  | 0, hn => firstAt4 V c ⟨0, hn⟩ (Nat.zero_mod _) (fun h => Nat.succ_ne_zero 2 (h.symm.trans (Nat.zero_mod 4)))
  | n + 1, hn =>
    if h0 : (n + 1) % 4 = 0 then
      if h1 : (n + 1) % 4 = 3 then False.elim (by omega)
      else firstAt4 V c ⟨n + 1, hn⟩ h0 h1
    else
      if h1 : (n + 1) % 4 = 3 then lastAt4 V c ⟨n + 1, hn⟩ h0 h1 (outsAt4 c n (Nat.lt_of_succ_lt hn)).2
      else midAt4 V c ⟨n + 1, hn⟩ h0 h1 (outsAt4 c n (Nat.lt_of_succ_lt hn)).2

theorem outsAt4_first (c : Dev nD) (t : Fin cfg4.N) (h0 : t.val % 4 = 0) (h1 : ¬t.val % 4 = 3) :
    outsAt4 V c t.val t.isLt = firstAt4 V c t h0 h1 := by
  obtain ⟨n, hn⟩ := t
  cases n with
  | zero => exact rfl
  | succ n => exact (dif_pos h0).trans ((dif_neg h1).trans rfl)
theorem outsAt4_mid (c : Dev nD) (t : Fin cfg4.N) (h0 : ¬t.val % 4 = 0) (h1 : ¬t.val % 4 = 3) :
    outsAt4 V c t.val t.isLt = midAt4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt4_last (c : Dev nD) (t : Fin cfg4.N) (h0 : ¬t.val % 4 = 0) (h1 : t.val % 4 = 3) :
    outsAt4 V c t.val t.isLt = lastAt4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the plain invariant; after point `n` the accumulator at what that point left, the other
    scoped buffers at anything, the generator register at some state. -/
def inv4 (c : Dev nD) : (n : ℕ) → n ≤ cfg4.N → sProp 𝕄
  | 0, _ => Pipeline.ΦA spec4 c
  | n + 1, hn => iprop(iprop(owns (c : Thread nD τ) (acc4) fullShare ((outsAt4 V c n hn).2) ∗ others4 (F := F) c) ∗ (∃ r, prngReg c r))

theorem inv4_zero (c : Dev nD) (n : ℕ) (h : n ≤ cfg4.N) (hz : n = 0) : inv4 V c n h = Pipeline.ΦA spec4 c := by
  subst hz; rfl
theorem inv4_succ (c : Dev nD) (n : ℕ) (hn : n < cfg4.N) :
    inv4 V c (n + 1) hn = iprop(iprop(owns (c : Thread nD τ) (acc4) fullShare ((outsAt4 V c n hn).2) ∗ others4 (F := F) c) ∗ (∃ r, prngReg c r)) := rfl
theorem inv4_pos (c : Dev nD) (n : ℕ) (h : n ≤ cfg4.N) (hz : n ≠ 0) :
    inv4 V c n h = iprop(iprop(owns (c : Thread nD τ) (acc4) fullShare ((outsAt4 V c (n - 1) (by omega)).2) ∗ others4 (F := F) c) ∗ (∃ r, prngReg c r)) := by
  cases n with
  | zero => exact absurd rfl hz
  | succ n => rfl

/-! ## The proof data -/

/-- The arrays as the launch finds them; after the body each input window at its block, the output window at the
    accumulation's first component; the invariant `inv4`; nothing owed; full shares. -/
def dat4 (V : Entry F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem inv4_castSucc (c : Dev nD) (t : Fin cfg4.N) :
    (dat4 V c).Φ t.castSucc = inv4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body's triple at a point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The closed forms say which kind of point `t` is; the input windows hold their blocks; the invariant hands the
    body the accumulator at what the point before left (at anything at the very first point) and takes it back at
    this point's contents; away from a last column block the output buffer passes through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = inv4 V c (t.val + 1) t.isLt from rfl, inv4_succ]
  have hN : t.val < 64 := lt_of_lt_of_eq t.isLt (show cfg4.N = 64 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [Dat.leavesExact_idle (dat4 V c) 4 t (idle4_4 t (fun h => h1 ((last4_iff t).mp h))) (noFlush4_4 t (fun h => h1 ((last4_iff t).mp h)))]
      rw [outsAt4_first V c t h0 h1]
      unfold firstAt4 accFirst4; (try dsimp only)
      by_cases hz : t.val = 0
      · rw [inv4_castSucc V c t, inv4_zero V c _ _ hz, plain4_eq]
        iintro ⟨⟨⟨HS, Hoth⟩, Hg⟩, Ho, ⟨%d0, H0⟩, ⟨%d1, H1⟩, ⟨%d2, H2⟩, ⟨%d3, H3⟩, ⟨%d4, H4⟩⟩
        iapply ((runFirst4 c (grid4.coords t) _ _ _ _ _ _ _ _ _ _ _ _ ((first4_iff t).mpr h0) (fun h => h1 ((last4_iff t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst4 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [inv4_castSucc V c t, inv4_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst4 c (grid4.coords t) _ _ _ _ _ _ _ _ _ _ _ _ ((first4_iff t).mpr h0) (fun h => h1 ((last4_iff t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst4 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [show (dat4 V c).leavesExact 4 t = owns (c : Thread nD τ) (ms4_4 t) fullShare ((dat4 V c).after 4 t) from by
        unfold Dat.leavesExact; rw [live4_4 t ((last4_iff t).mpr h1)], after4_4]
      rw [outsAt4_last V c t h0 h1]
      unfold lastAt4 outLast4 accLast4; (try dsimp only)
      rw [inv4_castSucc V c t, inv4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast4 c (grid4.coords t) _ _ _ _ _ _ _ _ _ _ _ _ (fun h => h0 ((first4_iff t).mp h)) ((last4_iff t).mpr h1) (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast4 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast4 c _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t], after4_2]
      rw [show (dat4 V c).leavesExact 3 t = owns (c : Thread nD τ) (ms4_3 t) fullShare ((dat4 V c).after 3 t) from by
        unfold Dat.leavesExact; rw [live4_3 t], after4_3]
      rw [Dat.leavesExact_idle (dat4 V c) 4 t (idle4_4 t (fun h => h1 ((last4_iff t).mp h))) (noFlush4_4 t (fun h => h1 ((last4_iff t).mp h)))]
      rw [outsAt4_mid V c t h0 h1]
      unfold midAt4 accMid4; (try dsimp only)
      rw [inv4_castSucc V c t, inv4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid4 c (grid4.coords t) _ _ _ _ _ _ _ _ _ _ _ _ (fun h => h0 ((first4_iff t).mp h)) (fun h => h1 ((last4_iff t).mp h)) (iblk4 V c 0 t) (iblk4 V c 1 t) (iblk4 V c 2 t) (iblk4 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid4 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body's triple at every point, in the launch rule's form. -/
theorem body_obligation4 (c : Dev nD) : BodyObligation (dat4 (F := F) V c) (defs₀ (F := F)) Variants.none () Set.univ := fun t => by
  rw [bigSep_W4, bigSep_W4]
  exact sound_body4 V c t

/-! ## The record -/

theorem inv4_out (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, plain4_eq]
  iintro ⟨⟨HS, Hoth⟩, Hg⟩
  isplitl [HS Hoth]
  · isplitl [HS]
    · iexists _; iexact HS
    iexact Hoth
  iexact Hg

/-- The aggregation launch 4's half. -/
theorem half4 : Half cfg4 (dat4 (F := F)) where
  A V c w := A_eq4 V c w
  q _ _ _ := rfl
  owed _ _ _ := rfl
  Φin V c := by
    rw [show (dat4 V c).Φ 0 = inv4 V c 0 (Nat.zero_le _) from rfl, inv4_zero V c 0 _ rfl]
    unfold Pipeline.ΦA
    iintro ⟨Hp, Hr⟩
    isplitl [Hr]; · iexact Hr
    iexact Hp
  Φout V c := by
    refine (inv4_out V c (Fin.last cfg4.N) (by rw [Fin.val_last]; have : cfg4.N = 64 := N_4; omega)).trans ?_
    unfold Pipeline.ΦA
    iintro ⟨Hr, Hp⟩
    isplitl [Hp]; · iexact Hp
    iexact Hr
  body V c := body_obligation4 V c

end Cert.Kernel.Hand

end
-- ==== Proof.Frames.lean ====
/-
  The three frame claims. Each kernel program (word level and idealized: the same argument, stated once for any
  float instance and copied) runs as seven items — the degree launch, the first support launch, a reshape of the
  first bias, the first aggregation launch, the second support launch, a reshape of the second bias, the second
  aggregation launch — and no item writes an argument array. The reference is a straight line of host operations.
-/
import proofs.«171514_j71725953843990_2_alg».proof.Defs
import proofs.«171514_j71725953843990_2_alg».proof.Proof.Segments
import proofs.«171514_j71725953843990_2_alg».proof.Proof.DegreeRegion
import proofs.«171514_j71725953843990_2_alg».proof.Proof.SupportRegion1
import proofs.«171514_j71725953843990_2_alg».proof.Proof.SupportRegion3
import proofs.«171514_j71725953843990_2_alg».proof.Proof.AggregateRegion2
import proofs.«171514_j71725953843990_2_alg».proof.Proof.AggregateRegion4
import proofs.«171514_j71725953843990_2_alg».proof.Proof.WSegments
import proofs.«171514_j71725953843990_2_alg».proof.Proof.WDegreeRegion
import proofs.«171514_j71725953843990_2_alg».proof.Proof.WSupportRegion1
import proofs.«171514_j71725953843990_2_alg».proof.Proof.WSupportRegion3
import proofs.«171514_j71725953843990_2_alg».proof.Proof.WAggregateRegion2
import proofs.«171514_j71725953843990_2_alg».proof.Proof.WAggregateRegion4
import proofs.«171514_j71725953843990_2_alg».proof.Proof.Gen.Kernel
import proofs.«171514_j71725953843990_2_alg».proof.Proof.Gen.KernelIdeal
import proofs.«171514_j71725953843990_2_alg».proof.Proof.Gen.ReferenceIdeal
import proofs.«171514_j71725953843990_2_alg».proof.Proof.Gen.ReferenceIdeal.Run
import proofs.«171514_j71725953843990_2_alg».proof.Proof.Gen.Pre_finite_inputs

noncomputable section

namespace Cert.Proof.Frames

open Idealize.ShloMosaic Idealize.SL.Sem

/-- The word-level kernel program runs and leaves its arguments unchanged. -/
theorem frame_kernel : Cert.frame_Kernel := fun m ρ _ =>
  Cert.Kernel.Hand.frame Cert.Kernel.Hand.dat0 Cert.Kernel.Hand.dat1 Cert.Kernel.Hand.dat2 Cert.Kernel.Hand.dat3 Cert.Kernel.Hand.dat4 m ρ
    Cert.Kernel.Hand.half0 Cert.Kernel.Hand.half1 Cert.Kernel.Hand.half2 Cert.Kernel.Hand.half3 Cert.Kernel.Hand.half4
    (fun _ _ => rfl) (fun _ _ => rfl) (fun _ _ => rfl) (fun _ _ => rfl) (fun _ _ => rfl)

/-- The idealized kernel program runs and leaves its arguments unchanged. -/
theorem frame_kernelIdeal : Cert.frame_KernelIdeal := fun m ρ _ =>
  Cert.KernelIdeal.Hand.frame Cert.KernelIdeal.Hand.dat0 Cert.KernelIdeal.Hand.dat1 Cert.KernelIdeal.Hand.dat2 Cert.KernelIdeal.Hand.dat3 Cert.KernelIdeal.Hand.dat4 m ρ
    Cert.KernelIdeal.Hand.half0 Cert.KernelIdeal.Hand.half1 Cert.KernelIdeal.Hand.half2 Cert.KernelIdeal.Hand.half3 Cert.KernelIdeal.Hand.half4
    (fun _ _ => rfl) (fun _ _ => rfl) (fun _ _ => rfl) (fun _ _ => rfl) (fun _ _ => rfl)

/-- The idealized reference runs and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.AggregatePieces2.lean ====
/-
  The aggregation launch 2: what each kind of grid point leaves, as the kernel's arithmetic of the point's
  blocks. A first column block leaves the block product added to the zero block in the accumulator; a later one
  adds its block product to what the accumulator held; the last one also stores, into the output buffer, the
  finished accumulator scaled by the degree column plus the bias, rectified.
-/
import proofs.«171514_j71725953843990_2_alg».proof.Proof.AggregateRegion2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl

/-- The 2048 rows of the support matrix that column block `i 1` of the adjacency meets. -/
abbrev rows2 (i : grid2.Coords) : Rect S8192x512 := Rect.unit (s := S8192x512) (k2_off1 i) S2048x512.size (k2_off1_inb i)

theorem accMid2_eq (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : ¬last2 i)
    (x0 : Vec F S512x2048 .bf16) (x1 : Vec F S8192x512 .bf16) (x2 : Vec F S512x1 .f32) (x3 : Vec F S1x512 .f32) (xs : Vec F S512x512 .f32) :
    accMid2 c i arg2 harg2 arg3 harg3 arg4 harg4 arg5 harg5 arg6 harg6 arg7 harg7 hc0 hc1 x0 x1 x2 x3 xs
      = k2_pay2 x0 (View.ld x1 (rows2 i)) xs := by
  unfold accMid2
  rw [View.read_writes_eq_canon _ _ _ (accCoverMid2 c i arg2 harg2 arg3 harg3 arg4 harg4 arg5 harg5 arg6 harg6 arg7 harg7 hc0 hc1 x0 x1 x2 x3 xs)]
  unfold runMid2
  dsimp only
  rw [View.canon_unit_zero zeroOff2]
  simp only [View.readAt_eq_ld, harg2.read_unread, harg3.read_unread, harg7.read_unread,
    View.ld_unit_zero (S := S512x2048) zeroOff2, View.ld_unit_zero (S := S512x512) zeroOff2]

theorem accLast2_eq (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) :
    accLast2 c i arg2 harg2 arg3 harg3 arg4 harg4 arg5 harg5 arg6 harg6 arg7 harg7 hc0 hc1 x0 x1 x2 x3 xs
      = k2_pay2 x0 (View.ld x1 (rows2 i)) xs := by
  unfold accLast2
  rw [View.read_writes_eq_canon _ _ _ (accCoverLast2 c i arg2 harg2 arg3 harg3 arg4 harg4 arg5 harg5 arg6 harg6 arg7 harg7 hc0 hc1 x0 x1 x2 x3 xs)]
  unfold runLast2
  dsimp only
  sl_unfold_run_names
  rw [View.canon_unit_zero zeroOff2]
  simp only [View.readAt_eq_ld, harg2.read_unread, harg3.read_unread, harg7.read_unread,
    View.ld_unit_zero (S := S512x2048) zeroOff2, View.ld_unit_zero (S := S512x512) zeroOff2]

theorem outLast2_eq (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first2 i) (hc1 : last2 i)
    (x0 : Vec F S512x2048 .bf16) (x1 : Vec F S8192x512 .bf16) (x2 : Vec F S512x1 .f32) (x3 : Vec F S1x512 .f32) (xs : Vec F S512x512 .f32) :
    outLast2 c i arg2 harg2 arg3 harg3 arg4 harg4 arg5 harg5 arg6 harg6 arg7 harg7 hc0 hc1 x0 x1 x2 x3 xs
      = k2_pay3 (k2_pay2 x0 (View.ld x1 (rows2 i)) xs) x2 x3 := by
  unfold outLast2
  rw [View.read_writes_eq_canon _ _ _ (outCoverLast2 c i arg2 harg2 arg3 harg3 arg4 harg4 arg5 harg5 arg6 harg6 arg7 harg7 hc0 hc1 x0 x1 x2 x3 xs)]
  unfold runLast2
  dsimp only
  sl_unfold_run_names
  rw [View.canon_unit_zero zeroOff2, View.readCov_unit_zero (S := S512x512) _ zeroOff2]
  simp only [View.readAt_eq_ld, harg2.read_unread, harg3.read_unread, harg4.read_unread, harg5.read_unread, harg7.read_unread,
    View.ld_unit_zero (S := S512x2048) zeroOff2, View.ld_unit_zero (S := S512x512) zeroOff2,
    View.ld_unit_zero (S := S512x1) zeroOff2, View.ld_unit_zero (S := S1x512) zeroOff2]

theorem accFirst2_eq (c : Dev nD) (i : grid2.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first2 i) (hc1 : ¬last2 i)
    (x0 : Vec F S512x2048 .bf16) (x1 : Vec F S8192x512 .bf16) (x2 : Vec F S512x1 .f32) (x3 : Vec F S1x512 .f32) :
    accFirst2 c i arg2 harg2 arg3 harg3 arg4 harg4 arg5 harg5 arg6 harg6 arg7 harg7 hc0 hc1 x0 x1 x2 x3
      = k2_pay2 x0 (View.ld x1 (rows2 i)) (k2_pay1 (F := F)) := by
  unfold accFirst2
  rw [View.read_writes_eq_canon _ _ _ (accCoverFirst2 c i arg2 harg2 arg3 harg3 arg4 harg4 arg5 harg5 arg6 harg6 arg7 harg7 hc0 hc1 x0 x1 x2 x3)]
  unfold runFirst2
  dsimp only
  sl_unfold_run_names
  rw [View.canon_cons_unit_zero (S := S512x512) zeroOff2, View.readCov_unit_zero (S := S512x512) _ zeroOff2]
  simp only [View.readAt_eq_ld, harg2.read_unread, harg3.read_unread,
    View.ld_unit_zero (S := S512x2048) zeroOff2, View.ld_unit_zero (S := S512x512) zeroOff2]

end Cert.KernelIdeal.Hand

end
-- ==== Proof.AggregatePayload.lean ====
/-
  The values the two aggregation kernels store, read one element at a time at the ideal values (extended
  reals, every operation exact). Each store's payload is a function of the vectors the body loaded before it:
  the accumulator's reset is the zero matrix; the accumulation step adds to the accumulator, at (p, q), the
  sum over the block's 2048 columns j of A(p, j) · S(j, q); the final step scales row p by the degree factor
  of that row and adds the bias of column q (then, in the first layer only, takes the maximum with zero).
  Last, a load of 2048 consecutive rows of an [8192, 512] array reads, at (j, q), the array at (o + j, q).
-/
import proofs.«171514_j71725953843990_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Idealize.ShloMosaic Idealize.ShloMosaic.ValueIdx
open scoped BigOperators

/-! ## The accumulator's reset -/

/-- The reset stores the zero matrix: a splat of the zero word, through a cast to its own shape. -/
theorem pay1_apply2 (p q : Fin 512) : Gen.k2_pay1 (F := Ideal) (ix2 p q) = 0 := by
  unfold Gen.k2_pay1
  rw [shapeCast_self]
  exact Ideal.ofBits_zero_f32

theorem pay1_apply4 (p q : Fin 512) : Gen.k4_pay1 (F := Ideal) (ix2 p q) = 0 := by
  unfold Gen.k4_pay1
  rw [shapeCast_self]
  exact Ideal.ofBits_zero_f32

/-! ## The accumulation step -/

/-- The left operand's row index of the block product is the output's row … -/
theorem lhs_block_0 (i : S512x512.Idx) (c : dot_S512x2048_S2048x512_S512x512_1_0_0_1_n_n.contr.Idx) :
    (dot_S512x2048_S2048x512_S512x512_1_0_0_1_n_n.lhsIdx i c 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
/-- … its column index the contraction position … -/
theorem lhs_block_1 (i : S512x512.Idx) (c : dot_S512x2048_S2048x512_S512x512_1_0_0_1_n_n.contr.Idx) :
    (dot_S512x2048_S2048x512_S512x512_1_0_0_1_n_n.lhsIdx i c 1).val = (c ⟨0, by decide⟩).val :=
  dot_S512x2048_S2048x512_S512x512_1_0_0_1_n_n.lhsIdx_val_of_single rfl i c
/-- … the right operand's row index the contraction position … -/
theorem rhs_block_0 (i : S512x512.Idx) (c : dot_S512x2048_S2048x512_S512x512_1_0_0_1_n_n.contr.Idx) :
    (dot_S512x2048_S2048x512_S512x512_1_0_0_1_n_n.rhsIdx i c 0).val = (c ⟨0, by decide⟩).val :=
  dot_S512x2048_S2048x512_S512x512_1_0_0_1_n_n.rhsIdx_val_of_single rfl i c
/-- … and its column index the output's column. -/
theorem rhs_block_1 (i : S512x512.Idx) (c : dot_S512x2048_S2048x512_S512x512_1_0_0_1_n_n.contr.Idx) :
    (dot_S512x2048_S2048x512_S512x512_1_0_0_1_n_n.rhsIdx i c 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- So at output (p, q) and contraction position k the left operand is read at (p, k) … -/
theorem lhsIdx_block (p q : Fin 512) (c : dot_S512x2048_S2048x512_S512x512_1_0_0_1_n_n.contr.Idx) (k : Fin 2048) (hc : (c ⟨0, by decide⟩).val = k.val) :
    dot_S512x2048_S2048x512_S512x512_1_0_0_1_n_n.lhsIdx (ix2 p q) c = ix2 p k :=
  funext fun a => Fin.ext (by
    match a with
    | ⟨0, _⟩ => exact lhs_block_0 _ _
    | ⟨1, _⟩ => exact (lhs_block_1 _ _).trans hc)
/-- … and the right operand at (k, q). -/
theorem rhsIdx_block (p q : Fin 512) (c : dot_S512x2048_S2048x512_S512x512_1_0_0_1_n_n.contr.Idx) (k : Fin 2048) (hc : (c ⟨0, by decide⟩).val = k.val) :
    dot_S512x2048_S2048x512_S512x512_1_0_0_1_n_n.rhsIdx (ix2 p q) c = ix2 k q :=
  funext fun a => Fin.ext (by
    match a with
    | ⟨0, _⟩ => exact (rhs_block_0 _ _).trans hc
    | ⟨1, _⟩ => exact rhs_block_1 _ _)

/-- The accumulation step at (p, q): the accumulator there plus the sum over the block's columns of the
    adjacency block's row p against the support block's column q. -/
theorem pay2_apply2 (x0 : Vec Ideal S512x2048 .bf16) (x8 : Vec Ideal S2048x512 .bf16) (x10 : Vec Ideal S512x512 .f32)
    (p q : Fin 512) :
    Gen.k2_pay2 x0 x8 x10 (ix2 p q) = x10 (ix2 p q) + ∑ j : Fin 2048, x0 (ix2 p j) * x8 (ix2 j q) := by
  unfold Gen.k2_pay2
  rw [shapeCast_self, shapeCast_self, shapeCast_self]
  refine (addf_apply _ _ _).trans (congrArg (x10 (ix2 p q) + ·) ?_)
  refine (Ideal.matmul_constant_zero_apply (φ₁ := .bf16) (φ₂ := .bf16)
    dot_S512x2048_S2048x512_S512x512_1_0_0_1_n_n none x0 x8 (ix2 p q)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  rw [lhsIdx_block p q _ k hk, rhsIdx_block p q _ k hk]

/-- The accumulation step at (p, q): the accumulator there plus the sum over the block's columns of the
    adjacency block's row p against the support block's column q. -/
theorem pay2_apply4 (x0 : Vec Ideal S512x2048 .bf16) (x8 : Vec Ideal S2048x512 .bf16) (x10 : Vec Ideal S512x512 .f32)
    (p q : Fin 512) :
    Gen.k4_pay2 x0 x8 x10 (ix2 p q) = x10 (ix2 p q) + ∑ j : Fin 2048, x0 (ix2 p j) * x8 (ix2 j q) := by
  unfold Gen.k4_pay2
  rw [shapeCast_self, shapeCast_self, shapeCast_self]
  refine (addf_apply _ _ _).trans (congrArg (x10 (ix2 p q) + ·) ?_)
  refine (Ideal.matmul_constant_zero_apply (φ₁ := .bf16) (φ₂ := .bf16)
    dot_S512x2048_S2048x512_S512x512_1_0_0_1_n_n none x0 x8 (ix2 p q)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  rw [lhsIdx_block p q _ k hk, rhsIdx_block p q _ k hk]

/-! ## The final step -/

/-- A `[a, 1]` array broadcast to `[a, b]` reads, at `(p, c)`, the operand's one column at row `p`. -/
theorem columnBroadcast_at {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The final step at (p, q): the accumulator there times row p's degree factor, plus column q's bias, and the
    maximum of that with zero. -/
theorem pay3_apply2 (v19 : Vec Ideal S512x512 .f32) (v20 : Vec Ideal S512x1 .f32) (v24 : Vec Ideal S1x512 .f32)
    (p q : Fin 512) :
    Gen.k2_pay3 v19 v20 v24 (ix2 p q) = max (v19 (ix2 p q) * v20 (ix2 p 0) + v24 (ix2 0 q)) 0 := by
  unfold Gen.k2_pay3
  rw [shapeCast_self, shapeCast_self]
  refine (maximumf_apply _ _ _).trans ?_
  refine congrArg₂ max ?_ Ideal.ofBits_zero_f32
  refine (addf_apply _ _ _).trans ?_
  refine congrArg₂ (· + ·) ((mulf_apply _ _ _).trans (congrArg (v19 (ix2 p q) * ·) ?_)) ?_
  · exact columnBroadcast_at v20 _ p q
  · exact broadcastTo_1b_ab_apply v24 _ p q

/-- The final step at (p, q): the accumulator there times row p's degree factor, plus column q's bias. -/
theorem pay3_apply4 (v19 : Vec Ideal S512x512 .f32) (v20 : Vec Ideal S512x1 .f32) (v24 : Vec Ideal S1x512 .f32)
    (p q : Fin 512) :
    Gen.k4_pay3 v19 v20 v24 (ix2 p q) = v19 (ix2 p q) * v20 (ix2 p 0) + v24 (ix2 0 q) := by
  unfold Gen.k4_pay3
  rw [shapeCast_self, shapeCast_self]
  refine (addf_apply _ _ _).trans ?_
  refine congrArg₂ (· + ·) ((mulf_apply _ _ _).trans (congrArg (v19 (ix2 p q) * ·) ?_)) ?_
  · exact columnBroadcast_at v20 _ p q
  · exact broadcastTo_1b_ab_apply v24 _ p q

/-! ## A load of 2048 consecutive rows -/

/-- A load of the 2048 rows from row `o` of an `[8192, 512]` array reads, at `(j, q)`, the array at `(o + j, q)`. -/
theorem ld_rows {Val : EltTy → Type} {e : EltTy} (X : S8192x512.Idx → Val e) (o : ℕ)
    (h : ∀ a, (![o, 0] : Fin 2 → ℕ) a + S2048x512.size a ≤ S8192x512.size a) (j : Fin 2048) (q : Fin 512) :
    View.ld X (Rect.unit (s := S8192x512) ![o, 0] S2048x512.size h) (ix2 j q)
      = X (ix2 (⟨o + j.val, Nat.lt_of_lt_of_le (Nat.add_lt_add_left j.isLt o) (h 0)⟩ : Fin 8192) q) := by
  refine congrArg X (funext fun a => Fin.ext ?_)
  match a with
  | ⟨0, _⟩ => show o + 1 * j.val = o + j.val; rw [Nat.one_mul]
  | ⟨1, _⟩ => show 0 + 1 * q.val = q.val; rw [Nat.one_mul, Nat.zero_add]

end Cert.KernelIdeal.HandValue
-- ==== Proof.GcnLaw.lean ====
/-
  The two arrangements of a two-layer graph convolution over extended reals, as pure functions of the six
  arrays, and the law that they agree when every entry is a real number and every row sum of the adjacency is
  positive.

  Write rs i for the i-th row sum of A. The first arrangement normalises the adjacency on both sides,
  nA i j = (rs i ^ (-1/2) * A i j) * rs j ^ (-1/2), and applies it to X W1 and then to relu(...) W2. The second
  scales the rows of X W1 by rsqrt (rs i), applies A itself, and scales the rows of the product again; likewise in
  the second layer. Over the reals both are the same sums, by distributivity and commutativity of the product.
-/
import Idealize.ShloMosaic.PureOps.Ideal
import Idealize.ShloMosaic.PureOps.Ideal.Laws
import Idealize.ShloMosaic.Lib.ValueIdx

noncomputable section

open scoped BigOperators

namespace Cert.GcnLaw

open Idealize.ShloMosaic

/-! ## Arrays as functions of their coordinates -/

/-- A rank-2 array as a function of its two coordinates. -/
abbrev mat {n0 n1 : Nat} (x : (⟨2, ![n0, n1]⟩ : Shape).Idx → EReal) : Fin n0 → Fin n1 → EReal :=
  fun a b => x (ValueIdx.ix2 a b)

/-- A rank-1 array as a function of its coordinate. -/
abbrev vec {n : Nat} (x : (⟨1, ![n]⟩ : Shape).Idx → EReal) : Fin n → EReal :=
  fun a => x (ValueIdx.ix1 a)

/-! ## The row sums -/

/-- The i-th row sum of the adjacency. -/
def rs (A : Fin 8192 → Fin 8192 → EReal) (i : Fin 8192) : EReal := ∑ j : Fin 8192, A i j

/-! ## The first arrangement: the adjacency normalised on both sides -/

/-- The exponent -1/2 as an extended real. -/
def negHalf : EReal := ((-(1 / 2) : ℝ) : EReal)

/-- rs i to the power -1/2. -/
def dr (A : Fin 8192 → Fin 8192 → EReal) (i : Fin 8192) : EReal := Ideal.pow (rs A i) negHalf

/-- The normalised adjacency, (dr i * A i j) * dr j. -/
def nA (A : Fin 8192 → Fin 8192 → EReal) (i j : Fin 8192) : EReal := (dr A i * A i j) * dr A j

/-- The first layer: relu (nA (X W1) + b1). -/
def out1 (X : Fin 8192 → Fin 512 → EReal) (A : Fin 8192 → Fin 8192 → EReal) (W1 : Fin 512 → Fin 512 → EReal)
    (b1 : Fin 512 → EReal) (i : Fin 8192) (c : Fin 512) : EReal :=
  max (∑ j : Fin 8192, nA A i j * (∑ k : Fin 512, X j k * W1 k c) + b1 c) 0

/-- The second layer: nA (out1 W2) + b2. -/
def refOut (X : Fin 8192 → Fin 512 → EReal) (A : Fin 8192 → Fin 8192 → EReal) (W1 : Fin 512 → Fin 512 → EReal)
    (b1 : Fin 512 → EReal) (W2 : Fin 512 → Fin 512 → EReal) (b2 : Fin 512 → EReal) (i : Fin 8192) (c : Fin 512) : EReal :=
  ∑ j : Fin 8192, nA A i j * (∑ k : Fin 512, out1 X A W1 b1 j k * W2 k c) + b2 c

/-! ## The second arrangement: rows scaled before and after the plain adjacency -/

/-- The reciprocal square root of rs i. -/
def dk (A : Fin 8192 → Fin 8192 → EReal) (i : Fin 8192) : EReal := Ideal.rsqrt (rs A i)

/-- The scaled support of the first layer, (X W1) i c * dk i. -/
def S1 (X : Fin 8192 → Fin 512 → EReal) (A : Fin 8192 → Fin 8192 → EReal) (W1 : Fin 512 → Fin 512 → EReal)
    (i : Fin 8192) (c : Fin 512) : EReal :=
  (∑ k : Fin 512, X i k * W1 k c) * dk A i

/-- The first layer: relu ((A S1) i c * dk i + b1 c). -/
def O1 (X : Fin 8192 → Fin 512 → EReal) (A : Fin 8192 → Fin 8192 → EReal) (W1 : Fin 512 → Fin 512 → EReal)
    (b1 : Fin 512 → EReal) (i : Fin 8192) (c : Fin 512) : EReal :=
  max ((∑ j : Fin 8192, A i j * S1 X A W1 j c) * dk A i + b1 c) 0

/-- The scaled support of the second layer, (O1 W2) i c * dk i. -/
def S2 (X : Fin 8192 → Fin 512 → EReal) (A : Fin 8192 → Fin 8192 → EReal) (W1 : Fin 512 → Fin 512 → EReal)
    (b1 : Fin 512 → EReal) (W2 : Fin 512 → Fin 512 → EReal) (i : Fin 8192) (c : Fin 512) : EReal :=
  (∑ k : Fin 512, O1 X A W1 b1 i k * W2 k c) * dk A i

/-- The second layer: (A S2) i c * dk i + b2 c. -/
def kerOut (X : Fin 8192 → Fin 512 → EReal) (A : Fin 8192 → Fin 8192 → EReal) (W1 : Fin 512 → Fin 512 → EReal)
    (b1 : Fin 512 → EReal) (W2 : Fin 512 → Fin 512 → EReal) (b2 : Fin 512 → EReal) (i : Fin 8192) (c : Fin 512) : EReal :=
  (∑ j : Fin 8192, A i j * S2 X A W1 b1 W2 j c) * dk A i + b2 c

/-! ## Coercions from the reals -/

/-- The coercion commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion commutes with the maximum with zero. -/
theorem max_coe_zero (a : ℝ) : max (a : EReal) 0 = ((max a 0 : ℝ) : EReal) := by
  rcases le_total a 0 with h | h
  · rw [max_eq_right h, max_eq_right (by exact_mod_cast h), EReal.coe_zero]
  · rw [max_eq_left h, max_eq_left (by exact_mod_cast h)]

/-- Over the reals: normalising the adjacency on both sides and applying it to t is applying the adjacency itself to
    the rows of t scaled by d, and scaling the result's row by d. -/
theorem agg_real {ι : Type*} [Fintype ι] (d : ι → ℝ) (a : ι → ι → ℝ) (t : ι → ℝ) (i : ι) :
    ∑ j, (d i * a i j * d j) * t j = (∑ j, a i j * (t j * d j)) * d i := by
  rw [Finset.sum_mul]
  exact Finset.sum_congr rfl fun j _ => by ring

/-! ## The law -/

/-- When every entry is a real number and every row sum of the adjacency is positive, the two arrangements agree. -/
theorem ref_eq_ker (X : Fin 8192 → Fin 512 → EReal) (A : Fin 8192 → Fin 8192 → EReal) (W1 : Fin 512 → Fin 512 → EReal)
    (b1 : Fin 512 → EReal) (W2 : Fin 512 → Fin 512 → EReal) (b2 : Fin 512 → EReal)
    (hX : ∀ i k, ∃ r : ℝ, X i k = (r : EReal)) (hA : ∀ i j, ∃ r : ℝ, A i j = (r : EReal))
    (hW1 : ∀ k c, ∃ r : ℝ, W1 k c = (r : EReal)) (hb1 : ∀ c, ∃ r : ℝ, b1 c = (r : EReal))
    (hW2 : ∀ k c, ∃ r : ℝ, W2 k c = (r : EReal)) (hb2 : ∀ c, ∃ r : ℝ, b2 c = (r : EReal))
    (hrs : ∀ i, 0 < rs A i) (i : Fin 8192) (c : Fin 512) :
    refOut X A W1 b1 W2 b2 i c = kerOut X A W1 b1 W2 b2 i c := by
  choose x hx using hX
  choose a ha using hA
  choose w1 hw1 using hW1
  choose v1 hv1 using hb1
  choose w2 hw2 using hW2
  choose v2 hv2 using hb2
  -- the row sums are positive reals
  have hr : ∀ i, rs A i = ((∑ j, a i j : ℝ) : EReal) := fun i => by
    rw [rs, coe_sum]; exact Finset.sum_congr rfl fun j _ => ha i j
  have hpos : ∀ i, 0 < ∑ j, a i j := fun i => by
    have h := hrs i; rw [hr] at h; exact_mod_cast h
  -- both scalings are the real (√ rs)⁻¹
  have hdk : ∀ i, dk A i = (((Real.sqrt (∑ j, a i j))⁻¹ : ℝ) : EReal) := fun i => by
    rw [dk, hr, Ideal.rsqrt_coe, if_neg (not_lt.mpr (hpos i).le), if_neg (hpos i).ne']
  have hdr : ∀ i, dr A i = (((Real.sqrt (∑ j, a i j))⁻¹ : ℝ) : EReal) := fun i => by
    rw [dr, hr, negHalf, Ideal.pow_coe_coe]
    refine congrArg _ ?_
    show (∑ j, a i j) ^ (-(1 / 2) : ℝ) = (Real.sqrt (∑ j, a i j))⁻¹
    rw [Real.rpow_neg (hpos i).le, Real.sqrt_eq_rpow]
  obtain ⟨d, hdk, hdr⟩ : ∃ d : Fin 8192 → ℝ, (∀ i, dk A i = (d i : EReal)) ∧ ∀ i, dr A i = (d i : EReal) :=
    ⟨fun i => (Real.sqrt (∑ j, a i j))⁻¹, hdk, hdr⟩
  -- every subterm is the coercion of a real one
  simp only [refOut, kerOut, out1, O1, S1, S2, nA, hdk, hdr, hx, ha, hw1, hv1, hw2, hv2,
    ← EReal.coe_mul, ← coe_sum, ← EReal.coe_add, max_coe_zero]
  congr 1
  -- the law over the reals, layer by layer
  simp only [agg_real d a]

/-! ## A row of 8192 terms as four consecutive blocks of 2048 -/

/-- The t-th index of the b-th block of 2048. -/
abbrev blockIx (b : Fin 4) (t : Fin 2048) : Fin 8192 := ⟨b.val * 2048 + t.val, by omega⟩

/-- Block and offset, as a bijection onto the 8192 indices. -/
def blockEquiv : Fin 4 × Fin 2048 ≃ Fin 8192 where
  toFun p := blockIx p.1 p.2
  invFun j := (⟨j.val / 2048, by omega⟩, ⟨j.val % 2048, by omega⟩)
  left_inv := by
    rintro ⟨⟨b, hb⟩, ⟨t, ht⟩⟩
    refine Prod.ext (Fin.ext ?_) (Fin.ext ?_)
    · show (b * 2048 + t) / 2048 = b
      omega
    · show (b * 2048 + t) % 2048 = t
      omega
  right_inv := by
    rintro ⟨j, hj⟩
    refine Fin.ext ?_
    show j / 2048 * 2048 + j % 2048 = j
    omega

/-- A sum over the 8192 indices is the sum of its four block sums. -/
theorem sum_blocks {M : Type*} [AddCommMonoid M] (f : Fin 8192 → M) :
    ∑ j, f j = ∑ b : Fin 4, ∑ t : Fin 2048, f (blockIx b t) := by
  rw [← Equiv.sum_comp blockEquiv f, Fintype.sum_prod_type]
  rfl

/-- An accumulator that starts at zero and adds the four block sums in order holds the whole sum. -/
theorem acc_blocks {M : Type*} [AddCommMonoid M] (f : Fin 8192 → M) :
    (((0 + ∑ t : Fin 2048, f (blockIx 0 t)) + ∑ t : Fin 2048, f (blockIx 1 t)) + ∑ t : Fin 2048, f (blockIx 2 t))
      + ∑ t : Fin 2048, f (blockIx 3 t) = ∑ j, f j := by
  rw [sum_blocks, Fin.sum_univ_four, zero_add]

end Cert.GcnLaw

end
-- ==== Proof.AggregateValue2.lean ====
/-
  The aggregation launch 2 at the ideal values: its result array, index by index. Row block m of the result is
  finished at the fourth of its grid points: the accumulator then holds, at (p, q), the four block products of row
  512 m + p of the adjacency with column q of the support matrix added one after the other to zero — which is the
  whole contraction over the 8192 columns —, and the store scales it by the degree column's entry of that row and
  adds the bias entry of column q, then takes the maximum with zero. The sixteen finished row blocks cover the array.
-/
import proofs.«171514_j71725953843990_2_alg».proof.Proof.AggregatePieces2
import proofs.«171514_j71725953843990_2_alg».proof.Proof.AggregatePayload
import proofs.«171514_j71725953843990_2_alg».proof.Proof.GcnLaw
import Idealize.ShloMosaic.PureOps.Ideal.Laws
import Idealize.ShloMosaic.Lib.ValueIdx
import Idealize.ShloMosaic.Lib.Pipeline.Value

set_option maxRecDepth 65536

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Entries by number -/

/-- Entry (i, j) of a matrix, by the numbers of its row and column; zero outside the matrix. -/
def entry2 {a b : ℕ} (x : (⟨2, ![a, b]⟩ : Shape).Idx → EReal) (i j : ℕ) : EReal :=
  if h : i < a ∧ j < b then x (ix2 ⟨i, h.1⟩ ⟨j, h.2⟩) else 0

theorem entry2_eq {a b : ℕ} (x : (⟨2, ![a, b]⟩ : Shape).Idx → EReal) (i : Fin a) (j : Fin b) (i' j' : ℕ) (hi : i' = i.val) (hj : j' = j.val) :
    entry2 x i' j' = x (ix2 i j) := by
  subst hi hj; unfold entry2; rw [dif_pos ⟨i.isLt, j.isLt⟩]

/-- The product of row r of A with column q of S over column block b of A. -/
def blockProd2 (A : S8192x8192.Idx → EReal) (S : S8192x512.Idx → EReal) (r q b : ℕ) : EReal :=
  ∑ t : Fin 2048, entry2 A r (b * 2048 + t.val) * entry2 S (b * 2048 + t.val) q

/-- The accumulator's entry after column blocks 0 … k: the block products added one after the other to zero. -/
def partSum2 (A : S8192x8192.Idx → EReal) (S : S8192x512.Idx → EReal) (r q : ℕ) : ℕ → EReal
  | 0 => 0 + blockProd2 A S r q 0
  | k + 1 => partSum2 A S r q k + blockProd2 A S r q (k + 1)

/-- After all four column blocks the accumulator's entry is the whole contraction. -/
theorem partSum2_three (A : S8192x8192.Idx → EReal) (S : S8192x512.Idx → EReal) (i : Fin 8192) (q : Fin 512) :
    partSum2 A S i.val q.val 3 = ∑ j : Fin 8192, A (ix2 i j) * S (ix2 j q) := by
  have hb : ∀ b : Fin 4, blockProd2 A S i.val q.val b.val = ∑ t : Fin 2048, (fun j : Fin 8192 => A (ix2 i j) * S (ix2 j q)) (Cert.GcnLaw.blockIx b t) := by
    intro b
    unfold blockProd2
    refine Finset.sum_congr rfl fun t _ => ?_
    have hlt : b.val * 2048 + t.val < 8192 := by have := b.isLt; have := t.isLt; omega
    rw [entry2_eq A i ⟨b.val * 2048 + t.val, hlt⟩ i.val (b.val * 2048 + t.val) rfl rfl, entry2_eq S ⟨b.val * 2048 + t.val, hlt⟩ q (b.val * 2048 + t.val) q.val rfl rfl]
  have h := Cert.GcnLaw.acc_blocks (fun j : Fin 8192 => A (ix2 i j) * S (ix2 j q))
  rw [← h]
  show ((0 + blockProd2 A S i.val q.val 0 + blockProd2 A S i.val q.val 1) + blockProd2 A S i.val q.val 2) + blockProd2 A S i.val q.val 3 = _
  rw [show blockProd2 A S i.val q.val 0 = _ from hb 0, show blockProd2 A S i.val q.val 1 = _ from hb 1,
    show blockProd2 A S i.val q.val 2 = _ from hb 2, show blockProd2 A S i.val q.val 3 = _ from hb 3]

/-! ## The blocks on the grid -/

/-- The printed index maps over the 64 points (point t is row block t / 4, column block t % 4). -/
theorem idx_facts2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0
    ∧ ((grid2.coords t) 1).val = t.val % 4 :=
  (by decide +kernel : ∀ t : Fin grid2.N, _)

variable (V : Entry Ideal)

/-- The adjacency block at point t: entry (p, j) is entry (512 (t/4) + p, 2048 (t%4) + j) of the matrix. -/
theorem adjBlock2_at (c : Dev nD) (t : Fin cfg2.N) (p : Fin 512) (j : Fin 2048) :
    (iblk2 V c 0 t : Vec Ideal S512x2048 .bf16) (ix2 p j)
      = entry2 (V c main_v0_1 : S8192x8192.Idx → EReal) (512 * (t.val / 4) + p.val) ((t.val % 4) * 2048 + j.val) := by
  obtain ⟨e0, e1, -⟩ := idx_facts2 t
  have ht : t.val < 64 := lt_of_lt_of_eq t.isLt (show cfg2.N = 64 from N_2)
  rw [entry2_eq _ ⟨512 * (t.val / 4) + p.val, by have := p.isLt; omega⟩ ⟨(t.val % 4) * 2048 + j.val, by have := j.isLt; omega⟩ (512 * (t.val / 4) + p.val) ((t.val % 4) * 2048 + j.val) rfl rfl]
  show V c main_v0_1 (((cfg2.win 0).blk t).view.emb (ix2 p j)) = _
  refine congrArg _ (funext fun a => Fin.ext ?_)
  match a with
  | ⟨0, _⟩ => show win2_0.index t (0 : Fin 2) * 512 + 1 * p.val = 512 * (t.val / 4) + p.val; rw [e0]; omega
  | ⟨1, _⟩ => show win2_0.index t (1 : Fin 2) * 2048 + 1 * j.val = (t.val % 4) * 2048 + j.val; rw [e1]; omega

/-- The rows of the support matrix that point t's column block meets: entry (j, q) is entry (2048 (t%4) + j, q). -/
theorem supRows2_at (c : Dev nD) (t : Fin cfg2.N) (j : Fin 2048) (q : Fin 512) :
    View.ld (iblk2 V c 1 t : Vec Ideal S8192x512 .bf16) (rows2 (grid2.coords t)) (ix2 j q)
      = entry2 (V c main_v1 : S8192x512.Idx → EReal) ((t.val % 4) * 2048 + j.val) q.val := by
  obtain ⟨-, -, e2, e3, -, -, -, -, -, -, eg⟩ := idx_facts2 t
  have ht : t.val < 64 := lt_of_lt_of_eq t.isLt (show cfg2.N = 64 from N_2)
  rw [entry2_eq _ ⟨(t.val % 4) * 2048 + j.val, by have := j.isLt; omega⟩ q ((t.val % 4) * 2048 + j.val) q.val rfl rfl]
  show V c main_v1 (((cfg2.win 1).blk t).view.emb ((rows2 (grid2.coords t)).idx (ix2 j q))) = _
  refine congrArg _ (funext fun a => Fin.ext ?_)
  match a with
  | ⟨0, _⟩ =>
    show win2_1.index t (0 : Fin 2) * 8192 + 1 * (k2_off1 (grid2.coords t) 0 + 1 * j.val) = (t.val % 4) * 2048 + j.val
    rw [e2, congrFun (k2_off1_eq (grid2.coords t)) 0]
    show 0 * 8192 + 1 * (2048 * ((grid2.coords t) 1).val + 1 * j.val) = _
    rw [eg]; omega
  | ⟨1, _⟩ =>
    show win2_1.index t (1 : Fin 2) * 512 + 1 * (k2_off1 (grid2.coords t) 1 + 1 * q.val) = q.val
    rw [e3, congrFun (k2_off1_eq (grid2.coords t)) 1]
    show 0 * 512 + 1 * (0 + 1 * q.val) = _
    omega

/-- The degree column's block at point t: entry (p, 0) is entry (512 (t/4) + p, 0) of the column. -/
theorem degBlock2_at (c : Dev nD) (t : Fin cfg2.N) (p : Fin 512) (z : Fin 1) :
    (iblk2 V c 2 t : Vec Ideal S512x1 .f32) (ix2 p z)
      = entry2 (V c main_v0_0 : S8192x1.Idx → EReal) (512 * (t.val / 4) + p.val) 0 := by
  obtain ⟨-, -, -, -, e4, e5, -⟩ := idx_facts2 t
  have ht : t.val < 64 := lt_of_lt_of_eq t.isLt (show cfg2.N = 64 from N_2)
  have hz : z.val = 0 := by omega
  rw [entry2_eq _ ⟨512 * (t.val / 4) + p.val, by have := p.isLt; omega⟩ (0 : Fin 1) (512 * (t.val / 4) + p.val) 0 rfl rfl]
  show V c main_v0_0 (((cfg2.win 2).blk t).view.emb (ix2 p z)) = _
  refine congrArg _ (funext fun a => Fin.ext ?_)
  match a with
  | ⟨0, _⟩ => show win2_2.index t (0 : Fin 2) * 512 + 1 * p.val = 512 * (t.val / 4) + p.val; rw [e4]; omega
  | ⟨1, _⟩ => show win2_2.index t (1 : Fin 2) * 1 + 1 * z.val = 0; rw [e5, hz]

/-- The bias row at any point: entry (0, q) is entry (0, q) of the row. -/
theorem biasBlock2_at (c : Dev nD) (t : Fin cfg2.N) (z : Fin 1) (q : Fin 512) :
    (iblk2 V c 3 t : Vec Ideal S1x512 .f32) (ix2 z q)
      = entry2 (V c main_v2 : S1x512.Idx → EReal) 0 q.val := by
  obtain ⟨-, -, -, -, -, -, e6, e7, -⟩ := idx_facts2 t
  have hz : z.val = 0 := by omega
  rw [entry2_eq _ (0 : Fin 1) q 0 q.val rfl rfl]
  show V c main_v2 (((cfg2.win 3).blk t).view.emb (ix2 z q)) = _
  refine congrArg _ (funext fun a => Fin.ext ?_)
  match a with
  | ⟨0, _⟩ => show win2_3.index t (0 : Fin 2) * 1 + 1 * z.val = 0; rw [e6, hz]
  | ⟨1, _⟩ => show win2_3.index t (1 : Fin 2) * 512 + 1 * q.val = q.val; rw [e7]; omega

/-! ## The accumulator point by point -/

/-- One more block product on top of what the accumulator held. -/
theorem step2_at (c : Dev nD) (t : Fin cfg2.N) (xs : Vec Ideal S512x512 .f32) (p q : Fin 512) :
    k2_pay2 (iblk2 V c 0 t) (View.ld (iblk2 V c 1 t) (rows2 (grid2.coords t))) xs (ix2 p q)
      = xs (ix2 p q) + blockProd2 (V c main_v0_1) (V c main_v1) (512 * (t.val / 4) + p.val) q.val (t.val % 4) := by
  refine (pay2_apply2 _ _ _ p q).trans ?_
  refine congrArg (xs (ix2 p q) + ·) ?_
  unfold blockProd2
  exact Finset.sum_congr rfl fun j _ => by rw [adjBlock2_at V c t p j, supRows2_at V c t j q]

/-- THE ACCUMULATOR after point n, at (p, q): the block products of row 512 (n/4) + p up to column block n % 4. -/
theorem acc2_at (c : Dev nD) : ∀ (n : ℕ) (h : n < cfg2.N) (p q : Fin 512),
    (outsAt2 V c n h).2 (ix2 p q) = partSum2 (V c main_v0_1) (V c main_v1) (512 * (n / 4) + p.val) q.val (n % 4)
  | 0, h, p, q => by
    rw [show outsAt2 V c 0 h = firstAt2 V c ⟨0, h⟩ (Nat.zero_mod _) (fun h => Nat.succ_ne_zero 2 (h.symm.trans (Nat.zero_mod 4))) from rfl]
    unfold firstAt2
    rw [accFirst2_eq]
    refine (step2_at V c ⟨0, h⟩ _ p q).trans ?_
    rw [pay1_apply2]
    rfl
  | n + 1, h, p, q => by
    have hN : n + 1 < 64 := lt_of_lt_of_eq h (show cfg2.N = 64 from N_2)
    by_cases h0 : (n + 1) % 4 = 0
    · have h1 : ¬(n + 1) % 4 = 3 := by omega
      rw [outsAt2_first V c ⟨n + 1, h⟩ h0 h1]
      unfold firstAt2
      rw [accFirst2_eq]
      refine (step2_at V c ⟨n + 1, h⟩ _ p q).trans ?_
      rw [pay1_apply2]
      show 0 + blockProd2 _ _ (512 * ((n + 1) / 4) + p.val) q.val ((n + 1) % 4) = partSum2 _ _ (512 * ((n + 1) / 4) + p.val) q.val ((n + 1) % 4)
      rw [h0]; rfl
    · have ih := acc2_at c n (Nat.lt_of_succ_lt h) p q
      have hd : (n + 1) / 4 = n / 4 := by omega
      have hm : (n + 1) % 4 = n % 4 + 1 := by omega
      have key : ∀ xs : Vec Ideal S512x512 .f32, xs = (outsAt2 V c n (Nat.lt_of_succ_lt h)).2 →
          k2_pay2 (iblk2 V c 0 ⟨n + 1, h⟩) (View.ld (iblk2 V c 1 ⟨n + 1, h⟩) (rows2 (grid2.coords ⟨n + 1, h⟩))) xs (ix2 p q)
            = partSum2 (V c main_v0_1) (V c main_v1) (512 * ((n + 1) / 4) + p.val) q.val ((n + 1) % 4) := by
        intro xs hxs
        refine (step2_at V c ⟨n + 1, h⟩ xs p q).trans ?_
        show xs (ix2 p q) + blockProd2 _ _ (512 * ((n + 1) / 4) + p.val) q.val ((n + 1) % 4) = _
        rw [hxs, ih, hd, hm]
        rfl
      by_cases h1 : (n + 1) % 4 = 3
      · rw [outsAt2_last V c ⟨n + 1, h⟩ h0 h1]
        unfold lastAt2
        rw [accLast2_eq]
        exact key _ rfl
      · rw [outsAt2_mid V c ⟨n + 1, h⟩ h0 h1]
        unfold midAt2
        rw [accMid2_eq]
        exact key _ rfl

/-! ## The result array -/

/-- The result, index by index: the contraction of row i of the adjacency with column q of the support matrix,
    scaled by the degree column's entry of row i, plus the bias entry of column q, rectified. -/
def aggregated2 (A : S8192x8192.Idx → EReal) (S : S8192x512.Idx → EReal) (d : S8192x1.Idx → EReal) (b : S1x512.Idx → EReal) :
    S8192x512.Idx → EReal :=
  fun i => max (partSum2 A S (i 0).val (i 1).val 3 * entry2 d (i 0).val 0 + entry2 b 0 (i 1).val) 0

theorem aggregated2_apply (A : S8192x8192.Idx → EReal) (S : S8192x512.Idx → EReal) (d : S8192x1.Idx → EReal) (b : S1x512.Idx → EReal)
    (i : Fin 8192) (q : Fin 512) :
    aggregated2 A S d b (ix2 i q) = max ((∑ j : Fin 8192, A (ix2 i j) * S (ix2 j q)) * d (ix2 i (0 : Fin 1)) + b (ix2 (0 : Fin 1) q)) 0 := by
  show max (partSum2 A S i.val q.val 3 * entry2 d i.val 0 + entry2 b 0 q.val) 0 = _
  rw [partSum2_three, entry2_eq d i (0 : Fin 1) i.val 0 rfl rfl, entry2_eq b (0 : Fin 1) q 0 q.val rfl rfl]

/-- What a finishing point writes back is its block of the result. -/
theorem flushed2_eq (c : Dev nD) (t : Fin cfg2.N) (hf : (cfg2.win 4).flush t = true) :
    (dat2 V c).flushed 4 t
      = ((cfg2.win 4).blk t).view.read (Elt Ideal) (aggregated2 (V c main_v0_1) (V c main_v1) (V c main_v0_0) (V c main_v2)) := by
  have h1 : t.val % 4 = 3 := (flush2_4 t).mp hf
  have h0 : ¬t.val % 4 = 0 := by omega
  have ht : t.val < 64 := lt_of_lt_of_eq t.isLt (show cfg2.N = 64 from N_2)
  obtain ⟨-, -, -, -, -, -, -, -, e8, e9, -⟩ := idx_facts2 t
  show (cfg2.win 4).cut (grid2.coords t) ((dat2 V c).after 4 t) = _
  rw [after2_4, outsAt2_last V c t h0 h1]
  unfold lastAt2
  rw [outLast2_eq]
  funext y
  obtain ⟨p, q, rfl⟩ : ∃ (p : Fin 512) (q : Fin 512), y = ix2 p q := ⟨y 0, y 1, eq_ix2 y⟩
  have hprev : t.val - 1 < cfg2.N := Nat.lt_of_le_of_lt (Nat.sub_le _ _) t.isLt
  have hacc := acc2_at V c (t.val - 1) hprev
  show k2_pay3 (k2_pay2 (iblk2 V c 0 t) (View.ld (iblk2 V c 1 t) (rows2 (grid2.coords t))) (outsAt2 V c (t.val - 1) hprev).2) (iblk2 V c 2 t) (iblk2 V c 3 t) (ix2 p q)
    = aggregated2 (V c main_v0_1) (V c main_v1) (V c main_v0_0) (V c main_v2) (((cfg2.win 4).blk t).view.emb (ix2 p q))
  rw [pay3_apply2, step2_at V c t _ p q, hacc p q, degBlock2_at V c t p 0, biasBlock2_at V c t 0 q]
  have hd : (t.val - 1) / 4 = t.val / 4 := by omega
  have hm : (t.val - 1) % 4 = 2 := by omega
  rw [hd, hm, h1]
  have hemb0 : ((((cfg2.win 4).blk t).view.emb (ix2 p q)) 0).val = 512 * (t.val / 4) + p.val := by
    show win2_4.index t (0 : Fin 2) * 512 + 1 * p.val = _; rw [e8]; omega
  have hemb1 : ((((cfg2.win 4).blk t).view.emb (ix2 p q)) 1).val = q.val := by
    show win2_4.index t (1 : Fin 2) * 512 + 1 * q.val = _; rw [e9]; omega
  show _ = max (partSum2 _ _ ((((cfg2.win 4).blk t).view.emb (ix2 p q)) 0).val ((((cfg2.win 4).blk t).view.emb (ix2 p q)) 1).val 3 * entry2 _ ((((cfg2.win 4).blk t).view.emb (ix2 p q)) 0).val 0 + entry2 _ 0 ((((cfg2.win 4).blk t).view.emb (ix2 p q)) 1).val) 0
  rw [hemb0, hemb1]
  rfl

theorem mem_blk2_4 (t : Fin cfg2.N) (i : S8192x512.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v3).slice (win2_4.rect t)).set ↔ _
  rw [View.set_slice_whole, Rect.mem_set_unit]
  exact Iff.rfl

/-- Row i of the result is in the block of the finishing point of row block i / 512. -/
theorem covered2_4 (i : S8192x512.Idx) : ∃ t : Fin cfg2.N, (cfg2.win 4).flush t = true ∧ i ∈ ((cfg2.win 4).blk t).view.set := by
  have hi0 : (i 0).val < 8192 := (i 0).isLt
  have hi1 : (i 1).val < 512 := (i 1).isLt
  have hN : cfg2.N = 64 := N_2
  obtain ⟨t, ht⟩ : ∃ t : Fin cfg2.N, t.val = 4 * ((i 0).val / 512) + 3 := ⟨⟨4 * ((i 0).val / 512) + 3, by rw [hN]; omega⟩, rfl⟩
  obtain ⟨-, -, -, -, -, -, -, -, e8, e9, -⟩ := idx_facts2 t
  refine ⟨t, (flush2_4 t).mpr (by rw [ht]; omega), ?_⟩
  rw [mem_blk2_4]
  intro a
  match a with
  | ⟨0, _⟩ => show win2_4.index t (0 : Fin 2) * 512 ≤ (i 0).val ∧ (i 0).val < win2_4.index t (0 : Fin 2) * 512 + 512; rw [e8, ht]; omega
  | ⟨1, _⟩ => show win2_4.index t (1 : Fin 2) * 512 ≤ (i 1).val ∧ (i 1).val < win2_4.index t (1 : Fin 2) * 512 + 512; rw [e9]; omega

/-- The result array after the launch. -/
theorem aggregate2_result (c : Dev nD) :
    (dat2 V c).arrAt 4 cfg2.N = aggregated2 (V c main_v0_1) (V c main_v1) (V c main_v0_0) (V c main_v2) :=
  (dat2 V c).arrAt_eq_of_cover 4 _ (fun t hf => flushed2_eq V c t hf) covered2_4

end Cert.KernelIdeal.HandValue

end
-- ==== Proof.AggregatePieces4.lean ====
/-
  The aggregation launch 4: what each kind of grid point leaves, as the kernel's arithmetic of the point's
  blocks. A first column block leaves the block product added to the zero block in the accumulator; a later one
  adds its block product to what the accumulator held; the last one also stores, into the output buffer, the
  finished accumulator scaled by the degree column plus the bias.
-/
import proofs.«171514_j71725953843990_2_alg».proof.Proof.AggregateRegion4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff4 : (![0, 0] : Fin 2 → Nat) = fun _ => 0 := funext fun a => by fin_cases a <;> rfl

/-- The 2048 rows of the support matrix that column block `i 1` of the adjacency meets. -/
abbrev rows4 (i : grid4.Coords) : Rect S8192x512 := Rect.unit (s := S8192x512) (k4_off1 i) S2048x512.size (k4_off1_inb i)

theorem accMid4_eq (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : ¬last4 i)
    (x0 : Vec F S512x2048 .bf16) (x1 : Vec F S8192x512 .bf16) (x2 : Vec F S512x1 .f32) (x3 : Vec F S1x512 .f32) (xs : Vec F S512x512 .f32) :
    accMid4 c i arg2 harg2 arg3 harg3 arg4 harg4 arg5 harg5 arg6 harg6 arg7 harg7 hc0 hc1 x0 x1 x2 x3 xs
      = k4_pay2 x0 (View.ld x1 (rows4 i)) xs := by
  unfold accMid4
  rw [View.read_writes_eq_canon _ _ _ (accCoverMid4 c i arg2 harg2 arg3 harg3 arg4 harg4 arg5 harg5 arg6 harg6 arg7 harg7 hc0 hc1 x0 x1 x2 x3 xs)]
  unfold runMid4
  dsimp only
  rw [View.canon_unit_zero zeroOff4]
  simp only [View.readAt_eq_ld, harg2.read_unread, harg3.read_unread, harg7.read_unread,
    View.ld_unit_zero (S := S512x2048) zeroOff4, View.ld_unit_zero (S := S512x512) zeroOff4]

theorem accLast4_eq (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) :
    accLast4 c i arg2 harg2 arg3 harg3 arg4 harg4 arg5 harg5 arg6 harg6 arg7 harg7 hc0 hc1 x0 x1 x2 x3 xs
      = k4_pay2 x0 (View.ld x1 (rows4 i)) xs := by
  unfold accLast4
  rw [View.read_writes_eq_canon _ _ _ (accCoverLast4 c i arg2 harg2 arg3 harg3 arg4 harg4 arg5 harg5 arg6 harg6 arg7 harg7 hc0 hc1 x0 x1 x2 x3 xs)]
  unfold runLast4
  dsimp only
  sl_unfold_run_names
  rw [View.canon_unit_zero zeroOff4]
  simp only [View.readAt_eq_ld, harg2.read_unread, harg3.read_unread, harg7.read_unread,
    View.ld_unit_zero (S := S512x2048) zeroOff4, View.ld_unit_zero (S := S512x512) zeroOff4]

theorem outLast4_eq (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬first4 i) (hc1 : last4 i)
    (x0 : Vec F S512x2048 .bf16) (x1 : Vec F S8192x512 .bf16) (x2 : Vec F S512x1 .f32) (x3 : Vec F S1x512 .f32) (xs : Vec F S512x512 .f32) :
    outLast4 c i arg2 harg2 arg3 harg3 arg4 harg4 arg5 harg5 arg6 harg6 arg7 harg7 hc0 hc1 x0 x1 x2 x3 xs
      = k4_pay3 (k4_pay2 x0 (View.ld x1 (rows4 i)) xs) x2 x3 := by
  unfold outLast4
  rw [View.read_writes_eq_canon _ _ _ (outCoverLast4 c i arg2 harg2 arg3 harg3 arg4 harg4 arg5 harg5 arg6 harg6 arg7 harg7 hc0 hc1 x0 x1 x2 x3 xs)]
  unfold runLast4
  dsimp only
  sl_unfold_run_names
  rw [View.canon_unit_zero zeroOff4, View.readCov_unit_zero (S := S512x512) _ zeroOff4]
  simp only [View.readAt_eq_ld, harg2.read_unread, harg3.read_unread, harg4.read_unread, harg5.read_unread, harg7.read_unread,
    View.ld_unit_zero (S := S512x2048) zeroOff4, View.ld_unit_zero (S := S512x512) zeroOff4,
    View.ld_unit_zero (S := S512x1) zeroOff4, View.ld_unit_zero (S := S1x512) zeroOff4]

theorem accFirst4_eq (c : Dev nD) (i : grid4.Coords) (arg2 : Memref sig .tc .vmem S512x2048 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : first4 i) (hc1 : ¬last4 i)
    (x0 : Vec F S512x2048 .bf16) (x1 : Vec F S8192x512 .bf16) (x2 : Vec F S512x1 .f32) (x3 : Vec F S1x512 .f32) :
    accFirst4 c i arg2 harg2 arg3 harg3 arg4 harg4 arg5 harg5 arg6 harg6 arg7 harg7 hc0 hc1 x0 x1 x2 x3
      = k4_pay2 x0 (View.ld x1 (rows4 i)) (k4_pay1 (F := F)) := by
  unfold accFirst4
  rw [View.read_writes_eq_canon _ _ _ (accCoverFirst4 c i arg2 harg2 arg3 harg3 arg4 harg4 arg5 harg5 arg6 harg6 arg7 harg7 hc0 hc1 x0 x1 x2 x3)]
  unfold runFirst4
  dsimp only
  sl_unfold_run_names
  rw [View.canon_cons_unit_zero (S := S512x512) zeroOff4, View.readCov_unit_zero (S := S512x512) _ zeroOff4]
  simp only [View.readAt_eq_ld, harg2.read_unread, harg3.read_unread,
    View.ld_unit_zero (S := S512x2048) zeroOff4, View.ld_unit_zero (S := S512x512) zeroOff4]

end Cert.KernelIdeal.Hand

end
-- ==== Proof.AggregateValue4.lean ====
/-
  The aggregation launch 4 at the ideal values: its result array, index by index. Row block m of the result is
  finished at the fourth of its grid points: the accumulator then holds, at (p, q), the four block products of row
  512 m + p of the adjacency with column q of the support matrix added one after the other to zero — which is the
  whole contraction over the 8192 columns —, and the store scales it by the degree column's entry of that row and
  adds the bias entry of column q. The sixteen finished row blocks cover the array.
-/
import proofs.«171514_j71725953843990_2_alg».proof.Proof.AggregatePieces4
import proofs.«171514_j71725953843990_2_alg».proof.Proof.AggregatePayload
import proofs.«171514_j71725953843990_2_alg».proof.Proof.GcnLaw
import Idealize.ShloMosaic.PureOps.Ideal.Laws
import Idealize.ShloMosaic.Lib.ValueIdx
import Idealize.ShloMosaic.Lib.Pipeline.Value

set_option maxRecDepth 65536

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Entries by number -/

/-- Entry (i, j) of a matrix, by the numbers of its row and column; zero outside the matrix. -/
def entry4 {a b : ℕ} (x : (⟨2, ![a, b]⟩ : Shape).Idx → EReal) (i j : ℕ) : EReal :=
  if h : i < a ∧ j < b then x (ix2 ⟨i, h.1⟩ ⟨j, h.2⟩) else 0

theorem entry4_eq {a b : ℕ} (x : (⟨2, ![a, b]⟩ : Shape).Idx → EReal) (i : Fin a) (j : Fin b) (i' j' : ℕ) (hi : i' = i.val) (hj : j' = j.val) :
    entry4 x i' j' = x (ix2 i j) := by
  subst hi hj; unfold entry4; rw [dif_pos ⟨i.isLt, j.isLt⟩]

/-- The product of row r of A with column q of S over column block b of A. -/
def blockProd4 (A : S8192x8192.Idx → EReal) (S : S8192x512.Idx → EReal) (r q b : ℕ) : EReal :=
  ∑ t : Fin 2048, entry4 A r (b * 2048 + t.val) * entry4 S (b * 2048 + t.val) q

/-- The accumulator's entry after column blocks 0 … k: the block products added one after the other to zero. -/
def partSum4 (A : S8192x8192.Idx → EReal) (S : S8192x512.Idx → EReal) (r q : ℕ) : ℕ → EReal
  | 0 => 0 + blockProd4 A S r q 0
  | k + 1 => partSum4 A S r q k + blockProd4 A S r q (k + 1)

/-- After all four column blocks the accumulator's entry is the whole contraction. -/
theorem partSum4_three (A : S8192x8192.Idx → EReal) (S : S8192x512.Idx → EReal) (i : Fin 8192) (q : Fin 512) :
    partSum4 A S i.val q.val 3 = ∑ j : Fin 8192, A (ix2 i j) * S (ix2 j q) := by
  have hb : ∀ b : Fin 4, blockProd4 A S i.val q.val b.val = ∑ t : Fin 2048, (fun j : Fin 8192 => A (ix2 i j) * S (ix2 j q)) (Cert.GcnLaw.blockIx b t) := by
    intro b
    unfold blockProd4
    refine Finset.sum_congr rfl fun t _ => ?_
    have hlt : b.val * 2048 + t.val < 8192 := by have := b.isLt; have := t.isLt; omega
    rw [entry4_eq A i ⟨b.val * 2048 + t.val, hlt⟩ i.val (b.val * 2048 + t.val) rfl rfl, entry4_eq S ⟨b.val * 2048 + t.val, hlt⟩ q (b.val * 2048 + t.val) q.val rfl rfl]
  have h := Cert.GcnLaw.acc_blocks (fun j : Fin 8192 => A (ix2 i j) * S (ix2 j q))
  rw [← h]
  show ((0 + blockProd4 A S i.val q.val 0 + blockProd4 A S i.val q.val 1) + blockProd4 A S i.val q.val 2) + blockProd4 A S i.val q.val 3 = _
  rw [show blockProd4 A S i.val q.val 0 = _ from hb 0, show blockProd4 A S i.val q.val 1 = _ from hb 1,
    show blockProd4 A S i.val q.val 2 = _ from hb 2, show blockProd4 A S i.val q.val 3 = _ from hb 3]

/-! ## The blocks on the grid -/

/-- The printed index maps over the 64 points (point t is row block t / 4, column block t % 4). -/
theorem idx_facts4 : ∀ t : Fin cfg4.N,
    win4_0.index t (0 : Fin 2) = t.val / 4 ∧ win4_0.index t (1 : Fin 2) = t.val % 4
    ∧ win4_1.index t (0 : Fin 2) = 0 ∧ win4_1.index t (1 : Fin 2) = 0
    ∧ win4_2.index t (0 : Fin 2) = t.val / 4 ∧ win4_2.index t (1 : Fin 2) = 0
    ∧ win4_3.index t (0 : Fin 2) = 0 ∧ win4_3.index t (1 : Fin 2) = 0
    ∧ win4_4.index t (0 : Fin 2) = t.val / 4 ∧ win4_4.index t (1 : Fin 2) = 0
    ∧ ((grid4.coords t) 1).val = t.val % 4 :=
  (by decide +kernel : ∀ t : Fin grid4.N, _)

variable (V : Entry Ideal)

/-- The adjacency block at point t: entry (p, j) is entry (512 (t/4) + p, 2048 (t%4) + j) of the matrix. -/
theorem adjBlock4_at (c : Dev nD) (t : Fin cfg4.N) (p : Fin 512) (j : Fin 2048) :
    (iblk4 V c 0 t : Vec Ideal S512x2048 .bf16) (ix2 p j)
      = entry4 (V c main_v0_1 : S8192x8192.Idx → EReal) (512 * (t.val / 4) + p.val) ((t.val % 4) * 2048 + j.val) := by
  obtain ⟨e0, e1, -⟩ := idx_facts4 t
  have ht : t.val < 64 := lt_of_lt_of_eq t.isLt (show cfg4.N = 64 from N_4)
  rw [entry4_eq _ ⟨512 * (t.val / 4) + p.val, by have := p.isLt; omega⟩ ⟨(t.val % 4) * 2048 + j.val, by have := j.isLt; omega⟩ (512 * (t.val / 4) + p.val) ((t.val % 4) * 2048 + j.val) rfl rfl]
  show V c main_v0_1 (((cfg4.win 0).blk t).view.emb (ix2 p j)) = _
  refine congrArg _ (funext fun a => Fin.ext ?_)
  match a with
  | ⟨0, _⟩ => show win4_0.index t (0 : Fin 2) * 512 + 1 * p.val = 512 * (t.val / 4) + p.val; rw [e0]; omega
  | ⟨1, _⟩ => show win4_0.index t (1 : Fin 2) * 2048 + 1 * j.val = (t.val % 4) * 2048 + j.val; rw [e1]; omega

/-- The rows of the support matrix that point t's column block meets: entry (j, q) is entry (2048 (t%4) + j, q). -/
theorem supRows4_at (c : Dev nD) (t : Fin cfg4.N) (j : Fin 2048) (q : Fin 512) :
    View.ld (iblk4 V c 1 t : Vec Ideal S8192x512 .bf16) (rows4 (grid4.coords t)) (ix2 j q)
      = entry4 (V c main_v4 : S8192x512.Idx → EReal) ((t.val % 4) * 2048 + j.val) q.val := by
  obtain ⟨-, -, e2, e3, -, -, -, -, -, -, eg⟩ := idx_facts4 t
  have ht : t.val < 64 := lt_of_lt_of_eq t.isLt (show cfg4.N = 64 from N_4)
  rw [entry4_eq _ ⟨(t.val % 4) * 2048 + j.val, by have := j.isLt; omega⟩ q ((t.val % 4) * 2048 + j.val) q.val rfl rfl]
  show V c main_v4 (((cfg4.win 1).blk t).view.emb ((rows4 (grid4.coords t)).idx (ix2 j q))) = _
  refine congrArg _ (funext fun a => Fin.ext ?_)
  match a with
  | ⟨0, _⟩ =>
    show win4_1.index t (0 : Fin 2) * 8192 + 1 * (k4_off1 (grid4.coords t) 0 + 1 * j.val) = (t.val % 4) * 2048 + j.val
    rw [e2, congrFun (k4_off1_eq (grid4.coords t)) 0]
    show 0 * 8192 + 1 * (2048 * ((grid4.coords t) 1).val + 1 * j.val) = _
    rw [eg]; omega
  | ⟨1, _⟩ =>
    show win4_1.index t (1 : Fin 2) * 512 + 1 * (k4_off1 (grid4.coords t) 1 + 1 * q.val) = q.val
    rw [e3, congrFun (k4_off1_eq (grid4.coords t)) 1]
    show 0 * 512 + 1 * (0 + 1 * q.val) = _
    omega

/-- The degree column's block at point t: entry (p, 0) is entry (512 (t/4) + p, 0) of the column. -/
theorem degBlock4_at (c : Dev nD) (t : Fin cfg4.N) (p : Fin 512) (z : Fin 1) :
    (iblk4 V c 2 t : Vec Ideal S512x1 .f32) (ix2 p z)
      = entry4 (V c main_v0_0 : S8192x1.Idx → EReal) (512 * (t.val / 4) + p.val) 0 := by
  obtain ⟨-, -, -, -, e4, e5, -⟩ := idx_facts4 t
  have ht : t.val < 64 := lt_of_lt_of_eq t.isLt (show cfg4.N = 64 from N_4)
  have hz : z.val = 0 := by omega
  rw [entry4_eq _ ⟨512 * (t.val / 4) + p.val, by have := p.isLt; omega⟩ (0 : Fin 1) (512 * (t.val / 4) + p.val) 0 rfl rfl]
  show V c main_v0_0 (((cfg4.win 2).blk t).view.emb (ix2 p z)) = _
  refine congrArg _ (funext fun a => Fin.ext ?_)
  match a with
  | ⟨0, _⟩ => show win4_2.index t (0 : Fin 2) * 512 + 1 * p.val = 512 * (t.val / 4) + p.val; rw [e4]; omega
  | ⟨1, _⟩ => show win4_2.index t (1 : Fin 2) * 1 + 1 * z.val = 0; rw [e5, hz]

/-- The bias row at any point: entry (0, q) is entry (0, q) of the row. -/
theorem biasBlock4_at (c : Dev nD) (t : Fin cfg4.N) (z : Fin 1) (q : Fin 512) :
    (iblk4 V c 3 t : Vec Ideal S1x512 .f32) (ix2 z q)
      = entry4 (V c main_v5 : S1x512.Idx → EReal) 0 q.val := by
  obtain ⟨-, -, -, -, -, -, e6, e7, -⟩ := idx_facts4 t
  have hz : z.val = 0 := by omega
  rw [entry4_eq _ (0 : Fin 1) q 0 q.val rfl rfl]
  show V c main_v5 (((cfg4.win 3).blk t).view.emb (ix2 z q)) = _
  refine congrArg _ (funext fun a => Fin.ext ?_)
  match a with
  | ⟨0, _⟩ => show win4_3.index t (0 : Fin 2) * 1 + 1 * z.val = 0; rw [e6, hz]
  | ⟨1, _⟩ => show win4_3.index t (1 : Fin 2) * 512 + 1 * q.val = q.val; rw [e7]; omega

/-! ## The accumulator point by point -/

/-- One more block product on top of what the accumulator held. -/
theorem step4_at (c : Dev nD) (t : Fin cfg4.N) (xs : Vec Ideal S512x512 .f32) (p q : Fin 512) :
    k4_pay2 (iblk4 V c 0 t) (View.ld (iblk4 V c 1 t) (rows4 (grid4.coords t))) xs (ix2 p q)
      = xs (ix2 p q) + blockProd4 (V c main_v0_1) (V c main_v4) (512 * (t.val / 4) + p.val) q.val (t.val % 4) := by
  refine (pay2_apply4 _ _ _ p q).trans ?_
  refine congrArg (xs (ix2 p q) + ·) ?_
  unfold blockProd4
  exact Finset.sum_congr rfl fun j _ => by rw [adjBlock4_at V c t p j, supRows4_at V c t j q]

/-- THE ACCUMULATOR after point n, at (p, q): the block products of row 512 (n/4) + p up to column block n % 4. -/
theorem acc4_at (c : Dev nD) : ∀ (n : ℕ) (h : n < cfg4.N) (p q : Fin 512),
    (outsAt4 V c n h).2 (ix2 p q) = partSum4 (V c main_v0_1) (V c main_v4) (512 * (n / 4) + p.val) q.val (n % 4)
  | 0, h, p, q => by
    rw [show outsAt4 V c 0 h = firstAt4 V c ⟨0, h⟩ (Nat.zero_mod _) (fun h => Nat.succ_ne_zero 2 (h.symm.trans (Nat.zero_mod 4))) from rfl]
    unfold firstAt4
    rw [accFirst4_eq]
    refine (step4_at V c ⟨0, h⟩ _ p q).trans ?_
    rw [pay1_apply4]
    rfl
  | n + 1, h, p, q => by
    have hN : n + 1 < 64 := lt_of_lt_of_eq h (show cfg4.N = 64 from N_4)
    by_cases h0 : (n + 1) % 4 = 0
    · have h1 : ¬(n + 1) % 4 = 3 := by omega
      rw [outsAt4_first V c ⟨n + 1, h⟩ h0 h1]
      unfold firstAt4
      rw [accFirst4_eq]
      refine (step4_at V c ⟨n + 1, h⟩ _ p q).trans ?_
      rw [pay1_apply4]
      show 0 + blockProd4 _ _ (512 * ((n + 1) / 4) + p.val) q.val ((n + 1) % 4) = partSum4 _ _ (512 * ((n + 1) / 4) + p.val) q.val ((n + 1) % 4)
      rw [h0]; rfl
    · have ih := acc4_at c n (Nat.lt_of_succ_lt h) p q
      have hd : (n + 1) / 4 = n / 4 := by omega
      have hm : (n + 1) % 4 = n % 4 + 1 := by omega
      have key : ∀ xs : Vec Ideal S512x512 .f32, xs = (outsAt4 V c n (Nat.lt_of_succ_lt h)).2 →
          k4_pay2 (iblk4 V c 0 ⟨n + 1, h⟩) (View.ld (iblk4 V c 1 ⟨n + 1, h⟩) (rows4 (grid4.coords ⟨n + 1, h⟩))) xs (ix2 p q)
            = partSum4 (V c main_v0_1) (V c main_v4) (512 * ((n + 1) / 4) + p.val) q.val ((n + 1) % 4) := by
        intro xs hxs
        refine (step4_at V c ⟨n + 1, h⟩ xs p q).trans ?_
        show xs (ix2 p q) + blockProd4 _ _ (512 * ((n + 1) / 4) + p.val) q.val ((n + 1) % 4) = _
        rw [hxs, ih, hd, hm]
        rfl
      by_cases h1 : (n + 1) % 4 = 3
      · rw [outsAt4_last V c ⟨n + 1, h⟩ h0 h1]
        unfold lastAt4
        rw [accLast4_eq]
        exact key _ rfl
      · rw [outsAt4_mid V c ⟨n + 1, h⟩ h0 h1]
        unfold midAt4
        rw [accMid4_eq]
        exact key _ rfl

/-! ## The result array -/

/-- The result, index by index: the contraction of row i of the adjacency with column q of the support matrix,
    scaled by the degree column's entry of row i, plus the bias entry of column q. -/
def aggregated4 (A : S8192x8192.Idx → EReal) (S : S8192x512.Idx → EReal) (d : S8192x1.Idx → EReal) (b : S1x512.Idx → EReal) :
    S8192x512.Idx → EReal :=
  fun i => partSum4 A S (i 0).val (i 1).val 3 * entry4 d (i 0).val 0 + entry4 b 0 (i 1).val

theorem aggregated4_apply (A : S8192x8192.Idx → EReal) (S : S8192x512.Idx → EReal) (d : S8192x1.Idx → EReal) (b : S1x512.Idx → EReal)
    (i : Fin 8192) (q : Fin 512) :
    aggregated4 A S d b (ix2 i q) = (∑ j : Fin 8192, A (ix2 i j) * S (ix2 j q)) * d (ix2 i (0 : Fin 1)) + b (ix2 (0 : Fin 1) q) := by
  show partSum4 A S i.val q.val 3 * entry4 d i.val 0 + entry4 b 0 q.val = _
  rw [partSum4_three, entry4_eq d i (0 : Fin 1) i.val 0 rfl rfl, entry4_eq b (0 : Fin 1) q 0 q.val rfl rfl]

/-- What a finishing point writes back is its block of the result. -/
theorem flushed4_eq (c : Dev nD) (t : Fin cfg4.N) (hf : (cfg4.win 4).flush t = true) :
    (dat4 V c).flushed 4 t
      = ((cfg4.win 4).blk t).view.read (Elt Ideal) (aggregated4 (V c main_v0_1) (V c main_v4) (V c main_v0_0) (V c main_v5)) := by
  have h1 : t.val % 4 = 3 := (flush4_4 t).mp hf
  have h0 : ¬t.val % 4 = 0 := by omega
  have ht : t.val < 64 := lt_of_lt_of_eq t.isLt (show cfg4.N = 64 from N_4)
  obtain ⟨-, -, -, -, -, -, -, -, e8, e9, -⟩ := idx_facts4 t
  show (cfg4.win 4).cut (grid4.coords t) ((dat4 V c).after 4 t) = _
  rw [after4_4, outsAt4_last V c t h0 h1]
  unfold lastAt4
  rw [outLast4_eq]
  funext y
  obtain ⟨p, q, rfl⟩ : ∃ (p : Fin 512) (q : Fin 512), y = ix2 p q := ⟨y 0, y 1, eq_ix2 y⟩
  have hprev : t.val - 1 < cfg4.N := Nat.lt_of_le_of_lt (Nat.sub_le _ _) t.isLt
  have hacc := acc4_at V c (t.val - 1) hprev
  show k4_pay3 (k4_pay2 (iblk4 V c 0 t) (View.ld (iblk4 V c 1 t) (rows4 (grid4.coords t))) (outsAt4 V c (t.val - 1) hprev).2) (iblk4 V c 2 t) (iblk4 V c 3 t) (ix2 p q)
    = aggregated4 (V c main_v0_1) (V c main_v4) (V c main_v0_0) (V c main_v5) (((cfg4.win 4).blk t).view.emb (ix2 p q))
  rw [pay3_apply4, step4_at V c t _ p q, hacc p q, degBlock4_at V c t p 0, biasBlock4_at V c t 0 q]
  have hd : (t.val - 1) / 4 = t.val / 4 := by omega
  have hm : (t.val - 1) % 4 = 2 := by omega
  rw [hd, hm, h1]
  have hemb0 : ((((cfg4.win 4).blk t).view.emb (ix2 p q)) 0).val = 512 * (t.val / 4) + p.val := by
    show win4_4.index t (0 : Fin 2) * 512 + 1 * p.val = _; rw [e8]; omega
  have hemb1 : ((((cfg4.win 4).blk t).view.emb (ix2 p q)) 1).val = q.val := by
    show win4_4.index t (1 : Fin 2) * 512 + 1 * q.val = _; rw [e9]; omega
  show _ = partSum4 _ _ ((((cfg4.win 4).blk t).view.emb (ix2 p q)) 0).val ((((cfg4.win 4).blk t).view.emb (ix2 p q)) 1).val 3 * entry4 _ ((((cfg4.win 4).blk t).view.emb (ix2 p q)) 0).val 0 + entry4 _ 0 ((((cfg4.win 4).blk t).view.emb (ix2 p q)) 1).val
  rw [hemb0, hemb1]
  rfl

theorem mem_blk4_4 (t : Fin cfg4.N) (i : S8192x512.Idx) :
    i ∈ ((cfg4.win 4).blk t).view.set ↔ ∀ a : Fin 2, win4_4.index t a * S512x512.size a ≤ (i a).val ∧ (i a).val < win4_4.index t a * S512x512.size a + S512x512.size a := by
  show i ∈ ((View.whole main_v6).slice (win4_4.rect t)).set ↔ _
  rw [View.set_slice_whole, Rect.mem_set_unit]
  exact Iff.rfl

/-- Row i of the result is in the block of the finishing point of row block i / 512. -/
theorem covered4_4 (i : S8192x512.Idx) : ∃ t : Fin cfg4.N, (cfg4.win 4).flush t = true ∧ i ∈ ((cfg4.win 4).blk t).view.set := by
  have hi0 : (i 0).val < 8192 := (i 0).isLt
  have hi1 : (i 1).val < 512 := (i 1).isLt
  have hN : cfg4.N = 64 := N_4
  obtain ⟨t, ht⟩ : ∃ t : Fin cfg4.N, t.val = 4 * ((i 0).val / 512) + 3 := ⟨⟨4 * ((i 0).val / 512) + 3, by rw [hN]; omega⟩, rfl⟩
  obtain ⟨-, -, -, -, -, -, -, -, e8, e9, -⟩ := idx_facts4 t
  refine ⟨t, (flush4_4 t).mpr (by rw [ht]; omega), ?_⟩
  rw [mem_blk4_4]
  intro a
  match a with
  | ⟨0, _⟩ => show win4_4.index t (0 : Fin 2) * 512 ≤ (i 0).val ∧ (i 0).val < win4_4.index t (0 : Fin 2) * 512 + 512; rw [e8, ht]; omega
  | ⟨1, _⟩ => show win4_4.index t (1 : Fin 2) * 512 ≤ (i 1).val ∧ (i 1).val < win4_4.index t (1 : Fin 2) * 512 + 512; rw [e9]; omega

/-- The result array after the launch. -/
theorem aggregate4_result (c : Dev nD) :
    (dat4 V c).arrAt 4 cfg4.N = aggregated4 (V c main_v0_1) (V c main_v4) (V c main_v0_0) (V c main_v5) :=
  (dat4 V c).arrAt_eq_of_cover 4 _ (fun t hf => flushed4_eq V c t hf) covered4_4

end Cert.KernelIdeal.HandValue

end
-- ==== Proof.DegreeValue.lean ====
/-
  What region 0, the degree kernel, leaves in its two output arrays, read at the ideal values index by index: the
  scaling column holds at row i the reciprocal square root of the sum of row i of the adjacency matrix, and the
  half-precision copy holds the adjacency matrix itself (a change of format is the identity on ideal values).
  First the body's two stored values at an index of a block; then each row block's write-back as a block of one
  function of the whole matrix; then, the 32 row blocks covering the rows, the whole arrays after the region.
-/
import proofs.«171514_j71725953843990_2_alg».proof.Proof.DegreeRegion
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The literal offsets of a whole-buffer access are zero on both axes. -/
theorem hz2 : (![0, 0] : Fin 2 → Nat) = fun _ => 0 := funext fun a => by fin_cases a <;> rfl

/-! ## The body's stored values at an index -/

/-- A vector of `a` entries cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The sum of a 256 × 8192 block over its second axis, at row `r`, is the sum over the 8192 columns of that row. -/
theorem rowsum_apply (x : FVec Ideal S256x8192 .f32) (h : S256x8192.Reduces [1] S256) (hφ : FKind.Formats .f32)
    (hacc : (0x00000000#32 : BitVec 32) = FKind.add.neutral .f32 hφ) (r : Fin 256) :
    multiReduction .add [1] S256 x 0x00000000#32 h hφ hacc (ix1 r) = ∑ k : Fin 8192, x (ix2 r k) :=
  (Ideal.multiReduction_add_single x _ h hφ hacc (ix1 r)).trans
    (Finset.sum_congr rfl fun k _ => congrArg x (funext fun a => Fin.ext (by match a with | ⟨0, _⟩ => rfl | ⟨1, _⟩ => rfl)))

/-- The column the body stores holds, at row `r`, the reciprocal square root of the sum of row `r` of the block. -/
theorem pay1_col (x : Vec Ideal S256x8192 .f32) (r : Fin 256) (z : Fin 1) :
    k0_pay1 x (ix2 r z) = Ideal.rsqrt (∑ k : Fin 8192, x (ix2 r k)) := by
  unfold k0_pay1
  show Ideal.rsqrt (shapeCast S256x1 (multiReduction (F := Ideal) .add [1] S256 x 0x00000000#32 reduces_S256x8192_S256 (.inl rfl) rfl) shapeCasts_S256_S256x1 (ix2 r z)) = _
  refine congrArg Ideal.rsqrt ?_
  refine (shapeCast_a_a1_apply _ _ r z).trans ?_
  exact rowsum_apply x _ _ _ r

/-- The same when row `r` of the block is row `i` of a matrix `A`. -/
theorem pay1_col_of (x : Vec Ideal S256x8192 .f32) (A : S8192x8192.Idx → EReal) (r : Fin 256) (z : Fin 1) (i : Fin 8192)
    (hx : ∀ k : Fin 8192, x (ix2 r k) = A (ix2 i k)) :
    k0_pay1 x (ix2 r z) = Ideal.rsqrt (∑ k : Fin 8192, A (ix2 i k)) :=
  (pay1_col x r z).trans (congrArg Ideal.rsqrt (Finset.sum_congr rfl fun k _ => hx k))

/-- The copy the body stores is the block: rounding to half precision is the identity on ideal values. -/
theorem pay2_id (x : Vec Ideal S256x8192 .f32) : k0_pay2 x = x := rfl

/-! ## The scaling column of a matrix -/

/-- At row `i`: the reciprocal square root of the sum of row `i`. -/
def degCol (A : S8192x8192.Idx → EReal) : S8192x1.Idx → EReal :=
  fun i => Ideal.rsqrt (∑ k : Fin 8192, A (ix2 (⟨(i 0).val, idx2_lt0 i⟩ : Fin 8192) k))

theorem degCol_apply (A : S8192x8192.Idx → EReal) (i : Fin 8192) (z : Fin 1) :
    degCol A (ix2 i z) = Ideal.rsqrt (∑ k : Fin 8192, A (ix2 i k)) := rfl

/-! ## The blocks on the grid -/

/-- The printed index maps over the 32 points: every window's block at point `t` is row block `t`, and its one
    column block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : Entry Ideal)

/-- What point `t` writes back to the column's array is block `t` of the scaling column of the adjacency matrix as
    the region finds it: row `r` of the input block is row `256 t + r` of the matrix. -/
theorem flushed0_1_eq (c : Dev nD) (t : Fin cfg0.N) :
    (dat0 V c).flushed 1 t = ((cfg0.win 1).blk t).view.read (Elt Ideal) (degCol (V c main_arg1)) := by
  show (cfg0.win 1).cut (grid0.coords t) ((dat0 V c).after 1 t) = _
  rw [after0_1]
  unfold out0_1
  rw [View.canon_unit_zero hz2]
  simp only [View.ld_unit_zero (S := S256x8192) hz2]
  obtain ⟨e0, e1, e2, e3, e4, e5⟩ := idx_facts0 t
  have hN : cfg0.N = 32 := N_0
  have ht : t.val < 32 := hN ▸ t.isLt
  funext j
  obtain ⟨r, z, rfl⟩ : ∃ (r : Fin 256) (z : Fin 1), j = ix2 r z := ⟨j 0, j 1, eq_ix2 j⟩
  show k0_pay1 (iblk0 V c 0 t) (ix2 r z) = degCol (V c main_arg1) (((cfg0.win 1).blk t).view.emb (ix2 r z))
  refine (pay1_col_of (iblk0 V c 0 t) (V c main_arg1) r z ⟨t.val * 256 + r.val, by have := r.isLt; omega⟩ fun k => ?_).trans ?_
  · show V c main_arg1 (((cfg0.win 0).blk t).view.emb (ix2 r k)) = _
    refine congrArg _ (funext fun a => Fin.ext ?_)
    match a with
    | ⟨0, _⟩ => show win0_0.index t (0 : Fin 2) * 256 + 1 * r.val = t.val * 256 + r.val; rw [e0]; omega
    | ⟨1, _⟩ => show win0_0.index t (1 : Fin 2) * 8192 + 1 * k.val = k.val; rw [e1]; omega
  · unfold degCol
    refine congrArg Ideal.rsqrt (Finset.sum_congr rfl fun k _ => congrArg _ (funext fun a => Fin.ext ?_))
    match a with
    | ⟨0, _⟩ => show t.val * 256 + r.val = win0_1.index t (0 : Fin 2) * 256 + 1 * r.val; rw [e2]; omega
    | ⟨1, _⟩ => rfl

/-- What point `t` writes back to the copy's array is block `t` of the adjacency matrix as the region finds it. -/
theorem flushed0_2_eq (c : Dev nD) (t : Fin cfg0.N) :
    (dat0 V c).flushed 2 t = ((cfg0.win 2).blk t).view.read (Elt Ideal) (V c main_arg1 : S8192x8192.Idx → EReal) := by
  show (cfg0.win 2).cut (grid0.coords t) ((dat0 V c).after 2 t) = _
  rw [after0_2]
  unfold out0_2
  rw [View.canon_unit_zero hz2]
  simp only [View.ld_unit_zero (S := S256x8192) hz2]
  rw [pay2_id]
  obtain ⟨e0, e1, e2, e3, e4, e5⟩ := idx_facts0 t
  funext j
  show V c main_arg1 (((cfg0.win 0).blk t).view.emb j) = V c main_arg1 (((cfg0.win 2).blk t).view.emb j)
  refine congrArg _ (funext fun a => Fin.ext ?_)
  match a with
  | ⟨0, _⟩ => show win0_0.index t (0 : Fin 2) * 256 + 1 * (j 0).val = win0_2.index t (0 : Fin 2) * 256 + 1 * (j 0).val; rw [e0, e4]
  | ⟨1, _⟩ => show win0_0.index t (1 : Fin 2) * 8192 + 1 * (j 1).val = win0_2.index t (1 : Fin 2) * 8192 + 1 * (j 1).val; rw [e1, e5]

/-- An index of the column's array is in point `t`'s block iff each coordinate is in the block's range on its axis. -/
theorem mem_blk0_1 (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0_0).slice (win0_1.rect t)).set ↔ _
  rw [View.set_slice_whole, Rect.mem_set_unit]
  exact Iff.rfl

/-- The same of the copy's array. -/
theorem mem_blk0_2 (t : Fin cfg0.N) (i : S8192x8192.Idx) :
    i ∈ ((cfg0.win 2).blk t).view.set ↔ ∀ a : Fin 2, win0_2.index t a * S256x8192.size a ≤ (i a).val ∧ (i a).val < win0_2.index t a * S256x8192.size a + S256x8192.size a := by
  show i ∈ ((View.whole main_v0_1).slice (win0_2.rect t)).set ↔ _
  rw [View.set_slice_whole, Rect.mem_set_unit]
  exact Iff.rfl

/-- Row `i` of the column is in the block of point `i / 256`, which writes back. -/
theorem covered0_1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e0, e1, e2, e3, e4, e5⟩ := idx_facts0 t
  refine ⟨t, flush0_1 t, ?_⟩
  rw [mem_blk0_1]
  intro a
  match a with
  | ⟨0, _⟩ => show win0_1.index t (0 : Fin 2) * 256 ≤ (i 0).val ∧ (i 0).val < win0_1.index t (0 : Fin 2) * 256 + 256; rw [e2, ht]; omega
  | ⟨1, _⟩ => show win0_1.index t (1 : Fin 2) * 1 ≤ (i 1).val ∧ (i 1).val < win0_1.index t (1 : Fin 2) * 1 + 1; rw [e3]; omega

/-- Row `i` of the copy is in the block of point `i / 256`, which writes back. -/
theorem covered0_2 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; rw [e4, ht]; omega
  | ⟨1, _⟩ => show win0_2.index t (1 : Fin 2) * 8192 ≤ (i 1).val ∧ (i 1).val < win0_2.index t (1 : Fin 2) * 8192 + 8192; rw [e5]; omega

/-! ## The arrays after the region -/

/-- The column's array after the region is the scaling column of the adjacency matrix as the region finds it. -/
theorem degree_column (c : Dev nD) : (dat0 V c).arrAt 1 cfg0.N = degCol (V c main_arg1) :=
  (dat0 V c).arrAt_eq_of_cover 1 (degCol (V c main_arg1)) (fun t _ => flushed0_1_eq V c t) covered0_1

/-- Read at row `i`: the reciprocal square root of the sum of row `i` of the adjacency matrix. -/
theorem degree_column_apply (c : Dev nD) (i : Fin 8192) (z : Fin 1) :
    ((dat0 V c).arrAt 1 cfg0.N : S8192x1.Idx → EReal) (ix2 i z)
      = Ideal.rsqrt (∑ k : Fin 8192, (V c main_arg1 : S8192x8192.Idx → EReal) (ix2 i k)) := by
  rw [degree_column]; rfl

/-- The copy's array after the region is the adjacency matrix as the region finds it. -/
theorem degree_copy (c : Dev nD) :
    ((dat0 V c).arrAt 2 cfg0.N : S8192x8192.Idx → EReal) = (V c main_arg1 : S8192x8192.Idx → EReal) :=
  (dat0 V c).arrAt_eq_of_cover 2 (V c main_arg1 : S8192x8192.Idx → EReal) (fun t _ => flushed0_2_eq V c t) covered0_2

end Cert.KernelIdeal.HandValue

end
-- ==== Proof.SupportValue.lean ====
/-
  What regions 1 and 3, the two scaled matrix products, leave in their output arrays, read at the ideal values
  index by index: entry (i, q) is the sum over k of feature (i, k) times weight (k, q), times the scaling of row i
  (the changes of format on the way are the identity on ideal values). First the body's stored value at an index
  of a block; then each row block's write-back as a block of one function of the whole arrays; then, the 8 row
  blocks covering the rows, the whole array after the region.
-/
import proofs.«171514_j71725953843990_2_alg».proof.Proof.SupportRegion1
import proofs.«171514_j71725953843990_2_alg».proof.Proof.SupportRegion3
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The literal offsets of a whole-buffer access are zero on both axes. -/
theorem zero_offsets : (![0, 0] : Fin 2 → Nat) = fun _ => 0 := funext fun a => by fin_cases a <;> rfl

/-! ## The body's stored value at an index -/

/-- The dimension numbers of the body's matrix product: rows of the left operand against columns of the right. -/
abbrev mmDims : DotDims S1024x512 S512x512 S1024x512 := dot_S1024x512_S512x512_S1024x512_1_0_0_1_n_n

/-- The operands' indices at output index `i` and contraction index `q`, coordinate by coordinate. -/
theorem mmDims_lhs0 (i : S1024x512.Idx) (q : mmDims.contr.Idx) : (mmDims.lhsIdx i q 0).val = (i 0).val := by
  unfold DotDims.lhsIdx
  rw [dif_neg (show ¬(0 : Fin S1024x512.rank) ∈ mmDims.lhsBatch by decide), dif_pos (show (0 : Fin S1024x512.rank) ∈ mmDims.lhsNonContracting by decide)]
  rfl
theorem mmDims_lhs1 (i : S1024x512.Idx) (q : mmDims.contr.Idx) : (mmDims.lhsIdx i q 1).val = (q ⟨0, by decide⟩).val :=
  mmDims.lhsIdx_val_of_single rfl i q
theorem mmDims_rhs0 (i : S1024x512.Idx) (q : mmDims.contr.Idx) : (mmDims.rhsIdx i q 0).val = (q ⟨0, by decide⟩).val :=
  mmDims.rhsIdx_val_of_single rfl i q
theorem mmDims_rhs1 (i : S1024x512.Idx) (q : mmDims.contr.Idx) : (mmDims.rhsIdx i q 1).val = (i 1).val := by
  unfold DotDims.rhsIdx
  rw [dif_neg (show ¬(1 : Fin S512x512.rank) ∈ mmDims.rhsBatch by decide), dif_pos (show (1 : Fin S512x512.rank) ∈ mmDims.rhsNonContracting by decide)]
  rfl

/-- The matrix product into a zero accumulator, at `(p, q)`: the sum over the 512 contraction coordinates. -/
theorem matmul_at (x : FVec Ideal S1024x512 .bf16) (w : FVec Ideal S512x512 .bf16) (p : Fin 1024) (q : Fin 512) :
    matmul mmDims none x w (constant (F := Ideal) S1024x512 .f32 0x00000000#32) (ix2 p q) = ∑ k : Fin 512, x (ix2 p k) * w (ix2 k q) := by
  simp only [matmul]
  rw [Ideal.matmul_constant_zero_apply, ← Equiv.sum_comp (contrEquiv1 mmDims 512 rfl rfl).symm]
  refine Finset.sum_congr rfl fun k _ => ?_
  have hk := contrEquiv1_symm_val mmDims 512 rfl rfl k
  have el : mmDims.lhsIdx (ix2 p q) ((contrEquiv1 mmDims 512 rfl rfl).symm k) = ix2 p k := funext fun a => Fin.ext (by
    match a with
    | ⟨0, _⟩ => exact mmDims_lhs0 _ _
    | ⟨1, _⟩ => exact (mmDims_lhs1 _ _).trans hk)
  have er : mmDims.rhsIdx (ix2 p q) ((contrEquiv1 mmDims 512 rfl rfl).symm k) = ix2 k q := funext fun a => Fin.ext (by
    match a with
    | ⟨0, _⟩ => exact (mmDims_rhs0 _ _).trans hk
    | ⟨1, _⟩ => exact mmDims_rhs1 _ _)
  rw [el, er]

/-- An `a × 1` column broadcast to `a × b` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Region 1's stored value at `(p, q)`: row `p` of the feature block against column `q` of the weights, times the
    scaling of row `p`. -/
theorem pay1_mm (x : Vec Ideal S1024x512 .f32) (w : Vec Ideal S512x512 .f32) (d : Vec Ideal S1024x1 .f32) (p : Fin 1024) (q : Fin 512) :
    k1_pay1 x w d (ix2 p q) = (∑ k : Fin 512, x (ix2 p k) * w (ix2 k q)) * d (ix2 p (0 : Fin 1)) := by
  unfold k1_pay1
  simp only [shapeCast_self]
  show (matmul mmDims none (x : FVec Ideal S1024x512 .bf16) (w : FVec Ideal S512x512 .bf16) (constant (F := Ideal) S1024x512 .f32 0x00000000#32) (ix2 p q))
      * (broadcastTo S1024x512 d broadcasts_S1024x1_S1024x512 (ix2 p q)) = _
  rw [matmul_at, broadcastTo_a1_ab_apply]

/-- Region 3's stored value at `(p, q)`: the same. -/
theorem pay3_mm (x : Vec Ideal S1024x512 .f32) (w : Vec Ideal S512x512 .f32) (d : Vec Ideal S1024x1 .f32) (p : Fin 1024) (q : Fin 512) :
    k3_pay1 x w d (ix2 p q) = (∑ k : Fin 512, x (ix2 p k) * w (ix2 k q)) * d (ix2 p (0 : Fin 1)) := by
  unfold k3_pay1
  simp only [shapeCast_self]
  show (matmul mmDims none (x : FVec Ideal S1024x512 .bf16) (w : FVec Ideal S512x512 .bf16) (constant (F := Ideal) S1024x512 .f32 0x00000000#32) (ix2 p q))
      * (broadcastTo S1024x512 d broadcasts_S1024x1_S1024x512 (ix2 p q)) = _
  rw [matmul_at, broadcastTo_a1_ab_apply]

/-- The same when row `p` of the feature and scaling blocks is row `i` of arrays `X` and `dd`, and the weight block
    is `W`. -/
theorem pay1_of (x : Vec Ideal S1024x512 .f32) (w : Vec Ideal S512x512 .f32) (d : Vec Ideal S1024x1 .f32)
    (X : S8192x512.Idx → EReal) (W : S512x512.Idx → EReal) (dd : S8192x1.Idx → EReal) (p : Fin 1024) (q : Fin 512) (i : Fin 8192)
    (hx : ∀ k : Fin 512, x (ix2 p k) = X (ix2 i k)) (hw : ∀ k : Fin 512, w (ix2 k q) = W (ix2 k q))
    (hd : d (ix2 p (0 : Fin 1)) = dd (ix2 i (0 : Fin 1))) :
    k1_pay1 x w d (ix2 p q) = (∑ k : Fin 512, X (ix2 i k) * W (ix2 k q)) * dd (ix2 i (0 : Fin 1)) := by
  rw [pay1_mm, hd]
  exact congrArg (· * dd (ix2 i (0 : Fin 1))) (Finset.sum_congr rfl fun k _ => by rw [hx k, hw k])
theorem pay3_of (x : Vec Ideal S1024x512 .f32) (w : Vec Ideal S512x512 .f32) (d : Vec Ideal S1024x1 .f32)
    (X : S8192x512.Idx → EReal) (W : S512x512.Idx → EReal) (dd : S8192x1.Idx → EReal) (p : Fin 1024) (q : Fin 512) (i : Fin 8192)
    (hx : ∀ k : Fin 512, x (ix2 p k) = X (ix2 i k)) (hw : ∀ k : Fin 512, w (ix2 k q) = W (ix2 k q))
    (hd : d (ix2 p (0 : Fin 1)) = dd (ix2 i (0 : Fin 1))) :
    k3_pay1 x w d (ix2 p q) = (∑ k : Fin 512, X (ix2 i k) * W (ix2 k q)) * dd (ix2 i (0 : Fin 1)) := by
  rw [pay3_mm, hd]
  exact congrArg (· * dd (ix2 i (0 : Fin 1))) (Finset.sum_congr rfl fun k _ => by rw [hx k, hw k])

/-! ## The row-scaled product of whole arrays -/

/-- At `(i, q)`: row `i` of `X` against column `q` of `W`, times entry `i` of the column `d`. -/
def scaledProd (X : S8192x512.Idx → EReal) (W : S512x512.Idx → EReal) (d : S8192x1.Idx → EReal) : S8192x512.Idx → EReal :=
  fun j => (∑ k : Fin 512, X (ix2 (⟨(j 0).val, idx2_lt0 j⟩ : Fin 8192) k) * W (ix2 k (⟨(j 1).val, idx2_lt1 j⟩ : Fin 512)))
    * d (ix2 (⟨(j 0).val, idx2_lt0 j⟩ : Fin 8192) (0 : Fin 1))

theorem scaledProd_apply (X : S8192x512.Idx → EReal) (W : S512x512.Idx → EReal) (d : S8192x1.Idx → EReal) (i : Fin 8192) (q : Fin 512) :
    scaledProd X W d (ix2 i q) = (∑ k : Fin 512, X (ix2 i k) * W (ix2 k q)) * d (ix2 i (0 : Fin 1)) := rfl

/-- The same at an index known by its coordinates' values. -/
theorem scaledProd_of (X : S8192x512.Idx → EReal) (W : S512x512.Idx → EReal) (d : S8192x1.Idx → EReal) (j : S8192x512.Idx)
    (i : Fin 8192) (q : Fin 512) (h0 : (j 0).val = i.val) (h1 : (j 1).val = q.val) :
    scaledProd X W d j = (∑ k : Fin 512, X (ix2 i k) * W (ix2 k q)) * d (ix2 i (0 : Fin 1)) := by
  have hj : j = ix2 i q := funext fun a => Fin.ext (by match a with | ⟨0, _⟩ => exact h0 | ⟨1, _⟩ => exact h1)
  rw [hj]; rfl

variable (V : Entry Ideal)

/-! ## Region 1 -/

/-- The printed index maps over the 8 points: the feature, scaling and output windows' block at point `t` is row block
    `t`; the weight window's one block is the whole matrix. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the row-scaled product of the three arrays as the region finds them:
    row `p` of the feature and scaling blocks is row `1024 t + p` of their arrays, and the weight block is the
    weight matrix. -/
theorem flushed1_3_eq (c : Dev nD) (t : Fin cfg1.N) :
    (dat1 V c).flushed 3 t
      = ((cfg1.win 3).blk t).view.read (Elt Ideal) (scaledProd (V c main_arg0) (V c main_arg2) (V c main_v0_0)) := by
  show (cfg1.win 3).cut (grid1.coords t) ((dat1 V c).after 3 t) = _
  rw [after1_3]
  unfold out1_3
  rw [View.canon_unit_zero zero_offsets]
  simp only [View.ld_unit_zero (S := S1024x512) zero_offsets, View.ld_unit_zero (S := S512x512) zero_offsets,
    View.ld_unit_zero (S := S1024x1) zero_offsets]
  obtain ⟨e0, e1, e2, e3, e4, e5, e6, e7⟩ := idx_facts1 t
  have hN : cfg1.N = 8 := N_1
  have ht : t.val < 8 := hN ▸ t.isLt
  funext j
  obtain ⟨p, q, rfl⟩ : ∃ (p : Fin 1024) (q : Fin 512), j = ix2 p q := ⟨j 0, j 1, eq_ix2 j⟩
  show k1_pay1 (iblk1 V c 0 t) (iblk1 V c 1 t) (iblk1 V c 2 t) (ix2 p q)
    = scaledProd (V c main_arg0) (V c main_arg2) (V c main_v0_0) (((cfg1.win 3).blk t).view.emb (ix2 p q))
  refine (pay1_of (iblk1 V c 0 t) (iblk1 V c 1 t) (iblk1 V c 2 t) (V c main_arg0) (V c main_arg2) (V c main_v0_0) p q
    ⟨t.val * 1024 + p.val, by have := p.isLt; omega⟩ (fun k => ?_) (fun k => ?_) ?_).trans
    (scaledProd_of _ _ _ _ _ q ?_ ?_).symm
  · show V c main_arg0 (((cfg1.win 0).blk t).view.emb (ix2 p k)) = _
    refine congrArg _ (funext fun a => Fin.ext ?_)
    match a with
    | ⟨0, _⟩ => show win1_0.index t (0 : Fin 2) * 1024 + 1 * p.val = t.val * 1024 + p.val; rw [e0]; omega
    | ⟨1, _⟩ => show win1_0.index t (1 : Fin 2) * 512 + 1 * k.val = k.val; rw [e1]; omega
  · show V c main_arg2 (((cfg1.win 1).blk t).view.emb (ix2 k q)) = _
    refine congrArg _ (funext fun a => Fin.ext ?_)
    match a with
    | ⟨0, _⟩ => show win1_1.index t (0 : Fin 2) * 512 + 1 * k.val = k.val; rw [e2]; omega
    | ⟨1, _⟩ => show win1_1.index t (1 : Fin 2) * 512 + 1 * q.val = q.val; rw [e3]; omega
  · show V c main_v0_0 (((cfg1.win 2).blk t).view.emb (ix2 p (0 : Fin 1))) = _
    refine congrArg _ (funext fun a => Fin.ext ?_)
    match a with
    | ⟨0, _⟩ => show win1_2.index t (0 : Fin 2) * 1024 + 1 * p.val = t.val * 1024 + p.val; rw [e4]; omega
    | ⟨1, _⟩ => show win1_2.index t (1 : Fin 2) * 1 + 1 * 0 = 0; rw [e5]
  · show win1_3.index t (0 : Fin 2) * 1024 + 1 * p.val = t.val * 1024 + p.val; rw [e6]; omega
  · show win1_3.index t (1 : Fin 2) * 512 + 1 * q.val = q.val; rw [e7]; omega

/-- An index of the output array is in point `t`'s block iff each coordinate is in the block's range on its axis. -/
theorem mem_blk1_3 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v1).slice (win1_3.rect t)).set ↔ _
  rw [View.set_slice_whole, Rect.mem_set_unit]
  exact Iff.rfl

/-- Row `i` of the output is in the block of point `i / 1024`, which writes back. -/
theorem covered1_3 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨e0, e1, e2, e3, e4, e5, e6, e7⟩ := idx_facts1 t
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; rw [e6, ht]; omega
  | ⟨1, _⟩ => show win1_3.index t (1 : Fin 2) * 512 ≤ (i 1).val ∧ (i 1).val < win1_3.index t (1 : Fin 2) * 512 + 512; rw [e7]; omega

/-- The output array after region 1 is the row-scaled product of the feature array, the weights and the scaling
    column as the region finds them. -/
theorem support1 (c : Dev nD) :
    ((dat1 V c).arrAt 3 cfg1.N : S8192x512.Idx → EReal) = scaledProd (V c main_arg0) (V c main_arg2) (V c main_v0_0) :=
  (dat1 V c).arrAt_eq_of_cover 3 (scaledProd (V c main_arg0) (V c main_arg2) (V c main_v0_0)) (fun t _ => flushed1_3_eq V c t) covered1_3

/-- Read at `(i, q)`, with the three arrays the region finds named `X`, `W`, `d`: row `i` of the features against
    column `q` of the weights, times the scaling of row `i`. -/
theorem support1_at (c : Dev nD) (X : S8192x512.Idx → EReal) (W : S512x512.Idx → EReal) (d : S8192x1.Idx → EReal)
    (hX : (V c main_arg0 : S8192x512.Idx → EReal) = X) (hW : (V c main_arg2 : S512x512.Idx → EReal) = W)
    (hd : (V c main_v0_0 : S8192x1.Idx → EReal) = d) (i : Fin 8192) (q : Fin 512) :
    ((dat1 V c).arrAt 3 cfg1.N : S8192x512.Idx → EReal) (ix2 i q)
      = (∑ k : Fin 512, X (ix2 i k) * W (ix2 k q)) * d (ix2 i (0 : Fin 1)) := by
  rw [support1, hX, hW, hd]; rfl

/-! ## Region 3 -/

/-- The printed index maps over the 8 points: the feature, scaling and output windows' block at point `t` is row block
    `t`; the weight window's one block is the whole matrix. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the row-scaled product of the three arrays as the region finds them:
    row `p` of the feature and scaling blocks is row `1024 t + p` of their arrays, and the weight block is the
    weight matrix. -/
theorem flushed3_3_eq (c : Dev nD) (t : Fin cfg3.N) :
    (dat3 V c).flushed 3 t
      = ((cfg3.win 3).blk t).view.read (Elt Ideal) (scaledProd (V c main_v3) (V c main_arg4) (V c main_v0_0)) := by
  show (cfg3.win 3).cut (grid3.coords t) ((dat3 V c).after 3 t) = _
  rw [after3_3]
  unfold out3_3
  rw [View.canon_unit_zero zero_offsets]
  simp only [View.ld_unit_zero (S := S1024x512) zero_offsets, View.ld_unit_zero (S := S512x512) zero_offsets,
    View.ld_unit_zero (S := S1024x1) zero_offsets]
  obtain ⟨e0, e1, e2, e3, e4, e5, e6, e7⟩ := idx_facts3 t
  have hN : cfg3.N = 8 := N_3
  have ht : t.val < 8 := hN ▸ t.isLt
  funext j
  obtain ⟨p, q, rfl⟩ : ∃ (p : Fin 1024) (q : Fin 512), j = ix2 p q := ⟨j 0, j 1, eq_ix2 j⟩
  show k3_pay1 (iblk3 V c 0 t) (iblk3 V c 1 t) (iblk3 V c 2 t) (ix2 p q)
    = scaledProd (V c main_v3) (V c main_arg4) (V c main_v0_0) (((cfg3.win 3).blk t).view.emb (ix2 p q))
  refine (pay3_of (iblk3 V c 0 t) (iblk3 V c 1 t) (iblk3 V c 2 t) (V c main_v3) (V c main_arg4) (V c main_v0_0) p q
    ⟨t.val * 1024 + p.val, by have := p.isLt; omega⟩ (fun k => ?_) (fun k => ?_) ?_).trans
    (scaledProd_of _ _ _ _ _ q ?_ ?_).symm
  · show V c main_v3 (((cfg3.win 0).blk t).view.emb (ix2 p k)) = _
    refine congrArg _ (funext fun a => Fin.ext ?_)
    match a with
    | ⟨0, _⟩ => show win3_0.index t (0 : Fin 2) * 1024 + 1 * p.val = t.val * 1024 + p.val; rw [e0]; omega
    | ⟨1, _⟩ => show win3_0.index t (1 : Fin 2) * 512 + 1 * k.val = k.val; rw [e1]; omega
  · show V c main_arg4 (((cfg3.win 1).blk t).view.emb (ix2 k q)) = _
    refine congrArg _ (funext fun a => Fin.ext ?_)
    match a with
    | ⟨0, _⟩ => show win3_1.index t (0 : Fin 2) * 512 + 1 * k.val = k.val; rw [e2]; omega
    | ⟨1, _⟩ => show win3_1.index t (1 : Fin 2) * 512 + 1 * q.val = q.val; rw [e3]; omega
  · show V c main_v0_0 (((cfg3.win 2).blk t).view.emb (ix2 p (0 : Fin 1))) = _
    refine congrArg _ (funext fun a => Fin.ext ?_)
    match a with
    | ⟨0, _⟩ => show win3_2.index t (0 : Fin 2) * 1024 + 1 * p.val = t.val * 1024 + p.val; rw [e4]; omega
    | ⟨1, _⟩ => show win3_2.index t (1 : Fin 2) * 1 + 1 * 0 = 0; rw [e5]
  · show win3_3.index t (0 : Fin 2) * 1024 + 1 * p.val = t.val * 1024 + p.val; rw [e6]; omega
  · show win3_3.index t (1 : Fin 2) * 512 + 1 * q.val = q.val; rw [e7]; omega

/-- An index of the output array is in point `t`'s block iff each coordinate is in the block's range on its axis. -/
theorem mem_blk3_3 (t : Fin cfg3.N) (i : S8192x512.Idx) :
    i ∈ ((cfg3.win 3).blk t).view.set ↔ ∀ a : Fin 2, win3_3.index t a * S1024x512.size a ≤ (i a).val ∧ (i a).val < win3_3.index t a * S1024x512.size a + S1024x512.size a := by
  show i ∈ ((View.whole main_v4).slice (win3_3.rect t)).set ↔ _
  rw [View.set_slice_whole, Rect.mem_set_unit]
  exact Iff.rfl

/-- Row `i` of the output is in the block of point `i / 1024`, which writes back. -/
theorem covered3_3 (i : S8192x512.Idx) : ∃ t : Fin cfg3.N, (cfg3.win 3).flush t = true ∧ i ∈ ((cfg3.win 3).blk t).view.set := by
  have hi0 : (i 0).val < 8192 := (i 0).isLt
  have hi1 : (i 1).val < 512 := (i 1).isLt
  have hN : cfg3.N = 8 := N_3
  obtain ⟨t, ht⟩ : ∃ t : Fin cfg3.N, t.val = (i 0).val / 1024 := ⟨⟨(i 0).val / 1024, by rw [hN]; omega⟩, rfl⟩
  obtain ⟨e0, e1, e2, e3, e4, e5, e6, e7⟩ := idx_facts3 t
  refine ⟨t, flush3_3 t, ?_⟩
  rw [mem_blk3_3]
  intro a
  match a with
  | ⟨0, _⟩ => show win3_3.index t (0 : Fin 2) * 1024 ≤ (i 0).val ∧ (i 0).val < win3_3.index t (0 : Fin 2) * 1024 + 1024; rw [e6, ht]; omega
  | ⟨1, _⟩ => show win3_3.index t (1 : Fin 2) * 512 ≤ (i 1).val ∧ (i 1).val < win3_3.index t (1 : Fin 2) * 512 + 512; rw [e7]; omega

/-- The output array after region 3 is the row-scaled product of the feature array, the weights and the scaling
    column as the region finds them. -/
theorem support3 (c : Dev nD) :
    ((dat3 V c).arrAt 3 cfg3.N : S8192x512.Idx → EReal) = scaledProd (V c main_v3) (V c main_arg4) (V c main_v0_0) :=
  (dat3 V c).arrAt_eq_of_cover 3 (scaledProd (V c main_v3) (V c main_arg4) (V c main_v0_0)) (fun t _ => flushed3_3_eq V c t) covered3_3

/-- Read at `(i, q)`, with the three arrays the region finds named `X`, `W`, `d`: row `i` of the features against
    column `q` of the weights, times the scaling of row `i`. -/
theorem support3_at (c : Dev nD) (X : S8192x512.Idx → EReal) (W : S512x512.Idx → EReal) (d : S8192x1.Idx → EReal)
    (hX : (V c main_v3 : S8192x512.Idx → EReal) = X) (hW : (V c main_arg4 : S512x512.Idx → EReal) = W)
    (hd : (V c main_v0_0 : S8192x1.Idx → EReal) = d) (i : Fin 8192) (q : Fin 512) :
    ((dat3 V c).arrAt 3 cfg3.N : S8192x512.Idx → EReal) (ix2 i q)
      = (∑ k : Fin 512, X (ix2 i k) * W (ix2 k q)) * d (ix2 i (0 : Fin 1)) := by
  rw [support3, hX, hW, hd]; rfl

end Cert.KernelIdeal.HandValue

end
-- ==== Proof.KernelValue.lean ====
/-
  The five regions' values chained through the run. Region 0 leaves the scaling column of the adjacency matrix
  and the matrix itself; region 1 the features times the first weights with rows scaled; region 2 the adjacency
  times that, rows scaled again, plus the first bias, rectified; region 3 that times the second weights with rows
  scaled; region 4 the adjacency times that, rows scaled, plus the second bias. Each region reads the arrays the
  earlier ones left and the arguments as launched, so the program's result is the second arrangement of the
  two-layer graph convolution of the six argument arrays, index by index.
-/
import proofs.«171514_j71725953843990_2_alg».proof.Proof.AggregateValue2
import proofs.«171514_j71725953843990_2_alg».proof.Proof.AggregateValue4
import proofs.«171514_j71725953843990_2_alg».proof.Proof.Segments
import proofs.«171514_j71725953843990_2_alg».proof.Proof.DegreeValue
import proofs.«171514_j71725953843990_2_alg».proof.Proof.SupportValue
import proofs.«171514_j71725953843990_2_alg».proof.Proof.GcnLaw
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.GcnLaw
open scoped BigOperators

/-! ## The chain as pure functions of the six arrays -/

section Chain

variable (X : S8192x512.Idx → EReal) (A : S8192x8192.Idx → EReal) (W1 : S512x512.Idx → EReal) (b1 : S512.Idx → EReal)
  (W2 : S512x512.Idx → EReal) (b2 : S512.Idx → EReal)

/-- The scaling column is the reciprocal square root of the row sum. -/
theorem degCol_eq_dk (i : Fin 8192) (z : Fin 1) : degCol A (ix2 i z) = dk (mat A) i := rfl

/-- A bias recast to one row reads, at column `q`, its entry `q`. -/
theorem biasRow_apply (b : S512.Idx → EReal) (u : Fin 1) (q : Fin 512) :
    shapeCast S1x512 b shapeCasts_S512_S1x512 (ix2 u q) = vec b q :=
  shapeCast_a_1a_apply b shapeCasts_S512_S1x512 u q

/-- Region 1's array is the scaled support of the first layer. -/
theorem support1_eq_S1 (i : Fin 8192) (q : Fin 512) :
    scaledProd X W1 (degCol A) (ix2 i q) = S1 (mat X) (mat A) (mat W1) i q := rfl

/-- Region 2's array is the first layer. -/
theorem layer1_eq_O1 (i : Fin 8192) (q : Fin 512) :
    aggregated2 A (scaledProd X W1 (degCol A)) (degCol A) (shapeCast S1x512 b1 shapeCasts_S512_S1x512) (ix2 i q)
      = O1 (mat X) (mat A) (mat W1) (vec b1) i q := by
  rw [aggregated2_apply, biasRow_apply]
  rfl

/-- Region 3's array is the scaled support of the second layer. -/
theorem support2_eq_S2 (i : Fin 8192) (q : Fin 512) :
    scaledProd (aggregated2 A (scaledProd X W1 (degCol A)) (degCol A) (shapeCast S1x512 b1 shapeCasts_S512_S1x512)) W2 (degCol A) (ix2 i q)
      = S2 (mat X) (mat A) (mat W1) (vec b1) (mat W2) i q := by
  rw [scaledProd_apply]
  unfold S2
  refine congrArg₂ (· * ·) (Finset.sum_congr rfl fun k _ => ?_) rfl
  rw [layer1_eq_O1]

/-- Region 4's array is the second arrangement's result. -/
theorem result_eq_kerOut (i : Fin 8192) (q : Fin 512) :
    aggregated4 A
        (scaledProd (aggregated2 A (scaledProd X W1 (degCol A)) (degCol A) (shapeCast S1x512 b1 shapeCasts_S512_S1x512)) W2 (degCol A))
        (degCol A) (shapeCast S1x512 b2 shapeCasts_S512_S1x512) (ix2 i q)
      = kerOut (mat X) (mat A) (mat W1) (vec b1) (mat W2) (vec b2) i q := by
  rw [aggregated4_apply, biasRow_apply]
  unfold kerOut
  refine congrArg₂ (· + ·) (congrArg₂ (· * ·) (Finset.sum_congr rfl fun j _ => ?_) rfl) rfl
  rw [support2_eq_S2]

end Chain

/-! ## The run -/

variable (m : (ℓ : Loc nD τ sig) → Buf (Elt Ideal) ℓ) (ρ : Dev nD → PrngReg)

/-- The program's result array on core `c`: what the last region's write-backs leave. -/
def kernelResult (c : Dev nD) : S8192x512.Idx → EReal :=
  (dat4 (V6 dat0 dat1 dat2 dat3 m) c).arrAt 4 cfg4.N

/-- THE RUN: the program terminates, its result array ends at `kernelResult`, and every argument ends as launched. -/
theorem kernel_run : θ_run defs (onTc (τ := τ) (main (F := Ideal))) ⟨m, fun _ => 0, ρ⟩ (fun r => ∀ c : Dev nD,
      r.2.mem ((c.tc : Thread nD τ).loc main_v6) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value dat0 dat1 dat2 dat3 dat4 m ρ half0 half1 half2 half3 half4
    (fun _ _ => rfl) (fun _ _ => rfl) (fun _ _ => rfl) (fun _ _ => rfl) (fun _ _ => rfl)

/-! ## The result, index by index -/

/-- The array region 0 leaves in the scaling column's buffer. -/
theorem column_after0 (c : Dev nD) :
    ((dat0 (V0 m) c).arrAt 1 cfg0.N : S8192x1.Idx → EReal) = degCol (m ((c.tc : Thread nD τ).loc main_arg1)) :=
  degree_column (V0 m) c

/-- The array region 0 leaves in the copy's buffer. -/
theorem copy_after0 (c : Dev nD) :
    ((dat0 (V0 m) c).arrAt 2 cfg0.N : S8192x8192.Idx → EReal) = (m ((c.tc : Thread nD τ).loc main_arg1) : S8192x8192.Idx → EReal) :=
  degree_copy (V0 m) c

/-- The array region 1 leaves. -/
theorem array_after1 (c : Dev nD) :
    ((dat1 (V1 dat0 m) c).arrAt 3 cfg1.N : S8192x512.Idx → EReal)
      = scaledProd (m ((c.tc : Thread nD τ).loc main_arg0)) (m ((c.tc : Thread nD τ).loc main_arg2))
          (degCol (m ((c.tc : Thread nD τ).loc main_arg1))) := by
  rw [support1, V1_main_arg0 dat0 dat1 dat2 dat3 dat4 m half0 half1 half2 half3 half4 c,
    V1_main_arg2 dat0 dat1 dat2 dat3 dat4 m half0 half1 half2 half3 half4 c, V1_main_v0_0 dat0 m c, column_after0]

/-- The array region 2 leaves. -/
theorem array_after2 (c : Dev nD) :
    ((dat2 (V3 dat0 dat1 m) c).arrAt 4 cfg2.N : S8192x512.Idx → EReal)
      = aggregated2 (m ((c.tc : Thread nD τ).loc main_arg1))
          (scaledProd (m ((c.tc : Thread nD τ).loc main_arg0)) (m ((c.tc : Thread nD τ).loc main_arg2))
            (degCol (m ((c.tc : Thread nD τ).loc main_arg1))))
          (degCol (m ((c.tc : Thread nD τ).loc main_arg1)))
          (shapeCast S1x512 (m ((c.tc : Thread nD τ).loc main_arg3) : S512.Idx → EReal) shapeCasts_S512_S1x512) := by
  rw [aggregate2_result, V3_main_v0_1 dat0 dat1 dat2 dat3 dat4 m half0 half1 half2 half3 half4 c,
    V3_main_v1 dat0 dat1 dat2 dat3 dat4 m half0 half1 half2 half3 half4 c,
    V3_main_v0_0 dat0 dat1 dat2 dat3 dat4 m half0 half1 half2 half3 half4 c,
    V3_main_v2 dat0 dat1 dat2 dat3 dat4 m half0 half1 half2 half3 half4 c, copy_after0, array_after1, column_after0]

/-- The array region 3 leaves. -/
theorem array_after3 (c : Dev nD) :
    ((dat3 (V4 dat0 dat1 dat2 m) c).arrAt 3 cfg3.N : S8192x512.Idx → EReal)
      = scaledProd
          (aggregated2 (m ((c.tc : Thread nD τ).loc main_arg1))
            (scaledProd (m ((c.tc : Thread nD τ).loc main_arg0)) (m ((c.tc : Thread nD τ).loc main_arg2))
              (degCol (m ((c.tc : Thread nD τ).loc main_arg1))))
            (degCol (m ((c.tc : Thread nD τ).loc main_arg1)))
            (shapeCast S1x512 (m ((c.tc : Thread nD τ).loc main_arg3) : S512.Idx → EReal) shapeCasts_S512_S1x512))
          (m ((c.tc : Thread nD τ).loc main_arg4)) (degCol (m ((c.tc : Thread nD τ).loc main_arg1))) := by
  rw [support3, V4_main_v3 dat0 dat1 dat2 m c, V4_main_arg4 dat0 dat1 dat2 dat3 dat4 m half0 half1 half2 half3 half4 c,
    V4_main_v0_0 dat0 dat1 dat2 dat3 dat4 m half0 half1 half2 half3 half4 c, array_after2, column_after0]

/-- THE RESULT AT (i, q): the second arrangement of the graph convolution of the six argument arrays as launched. -/
theorem kernelResult_apply (c : Dev nD) (i : Fin 8192) (q : Fin 512) :
    kernelResult m c (ix2 i q)
      = kerOut (mat (m ((c.tc : Thread nD τ).loc main_arg0))) (mat (m ((c.tc : Thread nD τ).loc main_arg1)))
          (mat (m ((c.tc : Thread nD τ).loc main_arg2))) (vec (m ((c.tc : Thread nD τ).loc main_arg3)))
          (mat (m ((c.tc : Thread nD τ).loc main_arg4))) (vec (m ((c.tc : Thread nD τ).loc main_arg5))) i q := by
  unfold kernelResult
  rw [aggregate4_result, V6_main_v0_1 dat0 dat1 dat2 dat3 dat4 m half0 half1 half2 half3 half4 c,
    V6_main_v4 dat0 dat1 dat2 dat3 dat4 m half0 half1 half2 half3 half4 c,
    V6_main_v0_0 dat0 dat1 dat2 dat3 dat4 m half0 half1 half2 half3 half4 c,
    V6_main_v5 dat0 dat1 dat2 dat3 dat4 m half0 half1 half2 half3 half4 c, copy_after0, array_after3, column_after0]
  exact result_eq_kerOut _ _ _ _ _ _ i q

end Cert.KernelIdeal.HandValue

end
-- ==== Proof.RefValue.lean ====
/-
  The reference's result read at an index: each stage of the printed program, read at coordinates, is the
  corresponding function of the first arrangement of the graph convolution.
-/
import proofs.«171514_j71725953843990_2_alg».proof.Proof.Gen.ReferenceIdeal.Run
import proofs.«171514_j71725953843990_2_alg».proof.Proof.Gen.ReferenceIdeal.Read
import proofs.«171514_j71725953843990_2_alg».proof.Proof.GcnLaw

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GcnLaw

/-- The word of the exponent denotes -1/2. -/
theorem ofBits_negHalf : Ideal.ofBits .f32 0xBF000000#32 = negHalf := by
  unfold negHalf
  simp [Ideal.ofBits, Ideal.ieee, -EReal.coe_mul]; norm_num

variable (x0 : (⟨S8192x512, .f32⟩ : BufTy).Contents (Elt Ideal)) (x1 : (⟨S8192x8192, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))

/-! ## The degree column -/

/-- The row sums. -/
theorem rowsum_at (i : Fin 8192) : val_main_v0 (F := Ideal) x1 (ix1 i) = rs (mat x1) i := by
  rw [val_main_v0_apply, val_main_cst_apply]
  show Ideal.ofBits .f32 0x00000000#32 + _ = _
  rw [Ideal.ofBits_zero_f32, zero_add]
  exact Finset.sum_congr rfl fun k _ => congrArg x1 (funext fun a => by
    match a with | ⟨0, _⟩ => rfl | ⟨1, _⟩ => rfl)

/-- The row sums to the power -1/2. -/
theorem degree_at (i : Fin 8192) : val_main_v2 (F := Ideal) x1 (ix1 i) = dr (mat x1) i := by
  rw [val_main_v2_apply, rowsum_at, val_main_v1_apply, val_main_cst_0_apply]
  show Ideal.pow _ (Ideal.ofBits .f32 0xBF000000#32) = _
  rw [ofBits_negHalf]; rfl

/-- The adjacency normalised on both sides. -/
theorem normAdj_at (i j : Fin 8192) : val_main_v8 (F := Ideal) x1 (ix2 i j) = nA (mat x1) i j := by
  have e1 : idx_main_v3 (idx_main_v4 (ix2 i j)) = ix1 i := funext fun a => by
    match a with | ⟨0, _⟩ => rfl
  have e2 : idx_main_v6 (idx_main_v7 (ix2 i j)) = ix1 j := funext fun a => by
    match a with | ⟨0, _⟩ => rfl
  rw [val_main_v8_apply, val_main_v5_apply, val_main_v4_apply, val_main_v3_apply, val_main_v7_apply,
    val_main_v6_apply, e1, e2, degree_at, degree_at]
  rfl

/-! ## The first layer -/

/-- X W1. -/
theorem support1_at (j : Fin 8192) (c : Fin 512) :
    val_main_v9 (F := Ideal) x0 x2 (ix2 j c) = ∑ k : Fin 512, mat x0 j k * mat x2 k c := by
  rw [val_main_v9_apply]
  refine Finset.sum_congr rfl fun k _ => ?_
  have el : lidx_main_v9 (ix2 j c) k = ix2 j k := funext fun a => by
    match a with | ⟨0, _⟩ => rfl | ⟨1, _⟩ => rfl
  have er : ridx_main_v9 (ix2 j c) k = ix2 k c := funext fun a => by
    match a with | ⟨0, _⟩ => rfl | ⟨1, _⟩ => rfl
  rw [el, er]

/-- nA (X W1). -/
theorem aggregate1_at (i : Fin 8192) (c : Fin 512) :
    val_main_v10 (F := Ideal) x0 x1 x2 (ix2 i c)
      = ∑ j : Fin 8192, nA (mat x1) i j * ∑ k : Fin 512, mat x0 j k * mat x2 k c := by
  rw [val_main_v10_apply]
  refine Finset.sum_congr rfl fun j _ => ?_
  have el : lidx_main_v10 (ix2 i c) j = ix2 i j := funext fun a => by
    match a with | ⟨0, _⟩ => rfl | ⟨1, _⟩ => rfl
  have er : ridx_main_v10 (ix2 i c) j = ix2 j c := funext fun a => by
    match a with | ⟨0, _⟩ => rfl | ⟨1, _⟩ => rfl
  rw [el, er, normAdj_at, support1_at]

/-- The first bias, broadcast along the rows. -/
theorem bias1_at (i : Fin 8192) (c : Fin 512) : val_main_v12 (F := Ideal) x3 (ix2 i c) = vec x3 c := by
  rw [val_main_v12_apply, val_main_v11_apply]
  exact congrArg x3 (funext fun a => by match a with | ⟨0, _⟩ => rfl)

/-- relu (nA (X W1) + b1). -/
theorem layer1_at (i : Fin 8192) (c : Fin 512) :
    val_main_v14 (F := Ideal) x0 x1 x2 x3 (ix2 i c) = out1 (mat x0) (mat x1) (mat x2) (vec x3) i c := by
  rw [val_main_v14_apply, val_main_v13_apply, aggregate1_at, bias1_at, val_main_call0_v0_apply,
    val_main_call0_cst_apply]
  show max (_ + _) (Ideal.ofBits .f32 0x00000000#32) = _
  rw [Ideal.ofBits_zero_f32]; rfl

/-! ## The second layer -/

/-- out1 W2. -/
theorem support2_at (j : Fin 8192) (c : Fin 512) :
    val_main_v15 (F := Ideal) x0 x1 x2 x3 x4 (ix2 j c)
      = ∑ k : Fin 512, out1 (mat x0) (mat x1) (mat x2) (vec x3) j k * mat x4 k c := by
  rw [val_main_v15_apply]
  refine Finset.sum_congr rfl fun k _ => ?_
  have el : lidx_main_v15 (ix2 j c) k = ix2 j k := funext fun a => by
    match a with | ⟨0, _⟩ => rfl | ⟨1, _⟩ => rfl
  have er : ridx_main_v15 (ix2 j c) k = ix2 k c := funext fun a => by
    match a with | ⟨0, _⟩ => rfl | ⟨1, _⟩ => rfl
  rw [el, er, layer1_at]

/-- nA (out1 W2). -/
theorem aggregate2_at (i : Fin 8192) (c : Fin 512) :
    val_main_v16 (F := Ideal) x0 x1 x2 x3 x4 (ix2 i c)
      = ∑ j : Fin 8192, nA (mat x1) i j * ∑ k : Fin 512, out1 (mat x0) (mat x1) (mat x2) (vec x3) j k * mat x4 k c := by
  rw [val_main_v16_apply]
  refine Finset.sum_congr rfl fun j _ => ?_
  have el : lidx_main_v16 (ix2 i c) j = ix2 i j := funext fun a => by
    match a with | ⟨0, _⟩ => rfl | ⟨1, _⟩ => rfl
  have er : ridx_main_v16 (ix2 i c) j = ix2 j c := funext fun a => by
    match a with | ⟨0, _⟩ => rfl | ⟨1, _⟩ => rfl
  rw [el, er, normAdj_at, support2_at]

/-- The second bias, broadcast along the rows. -/
theorem bias2_at (i : Fin 8192) (c : Fin 512) : val_main_v18 (F := Ideal) x5 (ix2 i c) = vec x5 c := by
  rw [val_main_v18_apply, val_main_v17_apply]
  exact congrArg x5 (funext fun a => by match a with | ⟨0, _⟩ => rfl)

/-- THE REFERENCE'S RESULT AT (i, c): the first arrangement of the six arrays. -/
theorem ref_apply (i : Fin 8192) (c : Fin 512) :
    val_main_v19 (F := Ideal) x0 x1 x2 x3 x4 x5 (ix2 i c)
      = refOut (mat x0) (mat x1) (mat x2) (vec x3) (mat x4) (vec x5) i c := by
  rw [val_main_v19_apply, aggregate2_at, bias2_at]
  rfl

end Cert.ReferenceIdeal.RefValue

end
-- ==== Proof.PreDomain.lean ====
/-
  What the precondition says of the six arrays: every entry is a real number, and every row sum of the
  adjacency is positive.
-/
import proofs.«171514_j71725953843990_2_alg».proof.Pre_finite_inputs
import proofs.«171514_j71725953843990_2_alg».proof.Proof.Gen.Pre_finite_inputs
import proofs.«171514_j71725953843990_2_alg».proof.Proof.GcnLaw
import Idealize.ShloMosaic.Lib.ReduceAll
import Idealize.ShloMosaic.Lib.Pipeline.Value
import Idealize.ShloMosaic.PureOps.Ideal.Laws

noncomputable section

open scoped BigOperators

namespace Cert.PreDomain

open Idealize.ShloMosaic Idealize.ShloMosaic.ValueIdx Cert.Pre_finite_inputs Cert.GcnLaw

variable [Cert.Pre_finite_inputs.Facts]
open Cert.Pre_finite_inputs.Facts

/-- The scalar shape has one index. -/
instance : Subsingleton S_.Idx := ⟨fun a b => funext fun d => d.elim0⟩

/-- The word of +inf denotes the top element. -/
theorem ofBits_inf : Ideal.ofBits .f32 0x7F800000#32 = ⊤ := by
  simp [Ideal.ofBits, Ideal.ieee]

/-- A comparison bit that is one says the proposition it decides. -/
theorem of_ofBool_decide {p : Prop} [Decidable p] (h : BitVec.ofBool (decide p) = 1#1) : p := by
  by_contra hn
  rw [decide_eq_false hn] at h
  exact absurd h (by decide)

/-- An extended real whose absolute value is below the top element is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One conjunct of the precondition: every |entry| of an array is below +inf, so every entry is a real number. -/
theorem entries_real {s : Shape} {axes : List (Fin s.rank)} (x : FVec Ideal s .f32)
    (bc : S_.BroadcastsInDim s (![] : Fin 0 → Fin s.rank)) (red : s.ReducesTo axes S_) (hu : 0 < S_.numel)
    (init : IVec S_ 1)
    (h : Host.reduce IntOp.andi (cmpf .olt (Host.absf x) (broadcastInDim s ![] bc (constant (F := Ideal) S_ .f32 0x7F800000#32)))
      init red hu ix0 = 1#1) (i : s.Idx) : ∃ r : ℝ, x i = (r : EReal) := by
  have hi := Host.reduce_andi_all _ init red hu ix0 h i
  have hb : broadcastInDim s ![] bc (constant (F := Ideal) S_ .f32 0x7F800000#32) i = Ideal.ofBits .f32 0x7F800000#32 :=
    broadcastInDim_apply _ bc _ i (fun a => a.elim0) (fun a => a.elim0)
  have hi' : Ideal.cmp .olt (max (x i) (-(x i)))
      (broadcastInDim s ![] bc (constant (F := Ideal) S_ .f32 0x7F800000#32) i) = 1#1 := hi
  rw [hb, ofBits_inf] at hi'
  exact real_of_abs_lt_top _ hi'

/-- The last conjunct: every row sum of the adjacency is above zero. -/
theorem rowsum_pos (x1 : FVec Ideal S8192x8192 .f32) (init : IVec S_ 1)
    (h : Host.reduce IntOp.andi
      (cmpf .ogt (Host.reduceAdd (F := Ideal) x1 (constant (F := Ideal) S_ .f32 0x00000000#32) reducesTo_S8192x8192_S8192_d1 h_S_)
        (broadcastInDim S8192 ![] bcast_S_S8192 (constant (F := Ideal) S_ .f32 0x00000000#32)))
      init reducesTo_S8192_S_d0 h_S_ ix0 = 1#1) (i : Fin 8192) : 0 < rs (mat x1) i := by
  have hi := Host.reduce_andi_all _ init reducesTo_S8192_S_d0 h_S_ ix0 h (ix1 i)
  have hb : broadcastInDim S8192 ![] bcast_S_S8192 (constant (F := Ideal) S_ .f32 0x00000000#32) (ix1 i)
      = Ideal.ofBits .f32 0x00000000#32 :=
    broadcastInDim_apply _ bcast_S_S8192 _ (ix1 i) (fun a => a.elim0) (fun a => a.elim0)
  have hs : Host.reduceAdd (F := Ideal) x1 (constant (F := Ideal) S_ .f32 0x00000000#32) reducesTo_S8192x8192_S8192_d1 h_S_ (ix1 i)
      = Ideal.ofBits .f32 0x00000000#32 + ∑ k : Fin 8192, x1 (ix2 i k) := by
    simp only [Host.reduceAdd, Ideal.hostReduceAdd_def]
    rw [Ideal.hostReduceAdd_single reducesTo_S8192x8192_S8192_d1 (by decide)]
    refine congrArg (_ + ·) (Finset.sum_congr rfl fun k _ => ?_)
    exact congrArg x1 (funext fun a => Fin.ext (by match a with | ⟨0, _⟩ => rfl | ⟨1, _⟩ => rfl))
  have hi' : Ideal.cmp .ogt
      (Host.reduceAdd (F := Ideal) x1 (constant (F := Ideal) S_ .f32 0x00000000#32) reducesTo_S8192x8192_S8192_d1 h_S_ (ix1 i))
      (broadcastInDim S8192 ![] bcast_S_S8192 (constant (F := Ideal) S_ .f32 0x00000000#32) (ix1 i)) = 1#1 := hi
  rw [hs, hb, Ideal.ofBits_zero_f32, zero_add] at hi'
  show 0 < ∑ k : Fin 8192, x1 (ix2 i k)
  exact of_ofBool_decide hi'

/-- THE PRECONDITION, READ BACK: every entry of the six arrays is a real number and every row sum of the adjacency
    is positive. -/
theorem domain (x0 : FVec Ideal S8192x512 .f32) (x1 : FVec Ideal S8192x8192 .f32) (x2 : FVec Ideal S512x512 .f32)
    (x3 : FVec Ideal S512 .f32) (x4 : FVec Ideal S512x512 .f32) (x5 : FVec Ideal S512 .f32)
    (h : Cert.Pre_finite_inputs.fn (F := Ideal) x0 x1 x2 x3 x4 x5 = fun _ => 1#1) :
    (∀ i k, ∃ r : ℝ, mat x0 i k = (r : EReal)) ∧ (∀ i j, ∃ r : ℝ, mat x1 i j = (r : EReal))
      ∧ (∀ k c, ∃ r : ℝ, mat x2 k c = (r : EReal)) ∧ (∀ c, ∃ r : ℝ, vec x3 c = (r : EReal))
      ∧ (∀ k c, ∃ r : ℝ, mat x4 k c = (r : EReal)) ∧ (∀ c, ∃ r : ℝ, vec x5 c = (r : EReal))
      ∧ ∀ i, 0 < rs (mat x1) i := by
  have h0 := congrFun h ix0
  dsimp only [fn, fn_part1, fn_part2] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i k => entries_real x0 _ _ _ _ h3 (ix2 i k), fun i j => entries_real x1 _ _ _ _ h7 (ix2 i j),
    fun k c => entries_real x2 _ _ _ _ h12 (ix2 k c), fun c => entries_real x3 _ _ _ _ h17 (ix1 c),
    fun k c => entries_real x4 _ _ _ _ h22 (ix2 k c), fun c => entries_real x5 _ _ _ _ h27 (ix1 c),
    fun i => rowsum_pos x1 _ h32 i⟩

end Cert.PreDomain

end
-- ==== Proof.Bridge.lean ====
/-
  The last link: at the ideal values the kernel program and the reference program end with equal results.
  The reference's result is the first arrangement of the graph convolution, the kernel's is the second, the
  precondition makes every entry a real number and every row sum positive, and under those the two agree.
-/
import proofs.«171514_j71725953843990_2_alg».proof.Defs
import proofs.«171514_j71725953843990_2_alg».proof.Proof.KernelValue
import proofs.«171514_j71725953843990_2_alg».proof.Proof.RefValue
import proofs.«171514_j71725953843990_2_alg».proof.Proof.GcnLaw
import proofs.«171514_j71725953843990_2_alg».proof.Proof.PreDomain
import proofs.«171514_j71725953843990_2_alg».proof.Proof.Gen.ReferenceIdeal.Run
import proofs.«171514_j71725953843990_2_alg».proof.Proof.Gen.ReferenceIdeal.Read
import proofs.«171514_j71725953843990_2_alg».proof.Proof.Gen.KernelIdeal
import proofs.«171514_j71725953843990_2_alg».proof.Proof.Gen.ReferenceIdeal
import proofs.«171514_j71725953843990_2_alg».proof.Proof.Gen.Pre_finite_inputs

noncomputable section

open Idealize.ShloMosaic Idealize.ShloMosaic.TcCoe Idealize.SL.Sem Idealize.ShloMosaic.ValueIdx

namespace Cert.Proof.Bridge

open Cert.GcnLaw

/-- At the ideal values the kernel's result array ends at the second arrangement of the six arrays and the
    reference's at the first, of arguments that agree and satisfy the precondition: one function. -/
theorem algebraic : Cert.algebraic_KernelIdeal_ReferenceIdeal := by
  intro m ρ m' ρ' hpre hagree
  refine ⟨fun c => Cert.KernelIdeal.HandValue.kernelResult m c, Cert.KernelIdeal.HandValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  obtain ⟨e0, e1, e2, e3, e4, e5⟩ := hagree c
  rw [e0, e1, e2, e3, e4, e5]
  obtain ⟨h0, h1, h2, h3, h4, h5, hr⟩ := Cert.PreDomain.domain _ _ _ _ _ _ (hpre c)
  funext idx
  obtain ⟨i, q, rfl⟩ : ∃ (i : Fin 8192) (q : Fin 512), idx = ix2 i q := ⟨idx 0, idx 1, eq_ix2 idx⟩
  rw [Cert.ReferenceIdeal.RefValue.ref_apply]
  exact (ref_eq_ker _ _ _ _ _ _ h0 h1 h2 h3 h4 h5 hr i q).trans (Cert.KernelIdeal.HandValue.kernelResult_apply m c i q).symm

end Cert.Proof.Bridge

end
-- ==== Proof.lean ====
/- The proof of `Cert.Claim`: a two-layer graph convolution computed by five pipelined launches against its plain
   reference, equal as extended reals on inputs whose entries are finite and whose adjacency rows have positive sums.

   Both programs compute, with d i = (Σ_j A i j)^(-1/2),
     out = D A D · relu(D A D · X W1 + b1) · W2 + b2      (D the diagonal matrix of d).
   The reference normalises the adjacency entry by entry, (d i · A i j) · d j, and multiplies; the kernel scales the
   rows of each support matrix X W by d, multiplies by the plain adjacency — the contraction cut into four column blocks
   accumulated one after the other —, and scales the rows of the product by d again. On real entries with positive
   row sums the two arrangements agree by distributivity, the reciprocal square root and the power -1/2 being one
   function on positive reals (Proof/GcnLaw.lean).

   The modules: RegionFacts (what a launch's half of the argument supplies) · DegreeRegion, SupportRegion1/3,
   AggregateCases/RunFirst/RunMid/RunLast/Region 2 and 4 (each launch's proof data and body triples; the aggregation
   launches keep their accumulator in the invariant between grid points) · Segments (the seven items of the program
   run one after the other, the buffers' contents named at every boundary) · the same modules prefixed W for the
   word-level program · DegreeValue, SupportValue, AggregatePieces/Payload/Value (what each launch leaves, index by
   index, on the extended reals) · KernelValue (the launches chained) · RefValue (the reference read at an index) ·
   PreDomain (the precondition read as "real entries, positive row sums") · GcnLaw · Frames and Bridge (the claims). -/
import proofs.«171514_j71725953843990_2_alg».proof.Defs
import proofs.«171514_j71725953843990_2_alg».proof.Proof.Frames
import proofs.«171514_j71725953843990_2_alg».proof.Proof.Bridge
import proofs.«171514_j71725953843990_2_alg».proof.Proof.Gen.Kernel
import proofs.«171514_j71725953843990_2_alg».proof.Proof.Gen.KernelIdeal
import proofs.«171514_j71725953843990_2_alg».proof.Proof.Gen.ReferenceIdeal
import proofs.«171514_j71725953843990_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, trivial, Bridge.algebraic⟩

end Cert.Proof

end
